-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "pos_big" .f32 0x7149F2CA#32 ⊤
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v39) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x23x64x64 : Shape := ⟨4, ![8, 23, 64, 64]⟩
abbrev S_ : Shape := ⟨0, ![]⟩

class Facts : Prop where
  bcast_S_S8x23x64x64 : S_.BroadcastsInDim S8x23x64x64 (![] : Fin 0 → Fin S8x23x64x64.rank)
  reducesTo_S8x23x64x64_S_d0_1_2_3 : S8x23x64x64.ReducesTo [0, 1, 2, 3] S_
  h_S_ : 0 < S_.numel

variable [Facts]

def fn {F : FTy → Type} [FloatOps F] (main_arg0 : FVec F S8x23x64x64 .f32) (main_arg1 : FVec F S8x23x64x64 .f32) : IVec S_ 1 :=
  let main_v0 : FVec F S8x23x64x64 .f32 := Host.absf main_arg0
  let main_cst : FVec F S_ .f32 := constant S_ .f32 0x7F800000#32
  let main_v1 : FVec F S8x23x64x64 .f32 := broadcastInDim S8x23x64x64 ![] bcast_S_S8x23x64x64 main_cst
  let main_v2 : IVec S8x23x64x64 1 := cmpf .olt main_v0 main_v1
  let main_c : IVec S_ 1 := constantI S_ 1 1#1
  let main_v3 : IVec S_ 1 := (fun x v => Host.reduce IntOp.andi x v reducesTo_S8x23x64x64_S_d0_1_2_3 h_S_) main_v2 main_c
  let main_v4 : FVec F S8x23x64x64 .f32 := Host.absf main_arg1
  let main_cst_0 : FVec F S_ .f32 := constant S_ .f32 0x7F800000#32
  let main_v5 : FVec F S8x23x64x64 .f32 := broadcastInDim S8x23x64x64 ![] bcast_S_S8x23x64x64 main_cst_0
  let main_v6 : IVec S8x23x64x64 1 := cmpf .olt main_v4 main_v5
  let main_c_1 : IVec S_ 1 := constantI S_ 1 1#1
  let main_v7 : IVec S_ 1 := (fun x v => Host.reduce IntOp.andi x v reducesTo_S8x23x64x64_S_d0_1_2_3 h_S_) main_v6 main_c_1
  let main_v8 : IVec S_ 1 := andi main_v3 main_v7
  main_v8
-- ==== Kernel.lean ====
abbrev S8x23x64x64 : Shape := ⟨4, ![8, 23, 64, 64]⟩
abbrev S8x23x4096 : Shape := ⟨3, ![8, 23, 4096]⟩
abbrev S8x2x64x64 : Shape := ⟨4, ![8, 2, 64, 64]⟩
abbrev S8x64x64x2 : Shape := ⟨4, ![8, 64, 64, 2]⟩
abbrev S8x4096x2 : Shape := ⟨3, ![8, 4096, 2]⟩
abbrev S_ : Shape := ⟨0, ![]⟩
abbrev S8x64x64 : Shape := ⟨3, ![8, 64, 64]⟩
abbrev S8x4096 : Shape := ⟨2, ![8, 4096]⟩
abbrev S8x4096x1 : Shape := ⟨3, ![8, 4096, 1]⟩
abbrev S6x1024 : Shape := ⟨2, ![6, 1024]⟩
abbrev S1x23x4096 : Shape := ⟨3, ![1, 23, 4096]⟩
abbrev S1x4096x2 : Shape := ⟨3, ![1, 4096, 2]⟩
abbrev S1x4096x1 : Shape := ⟨3, ![1, 4096, 1]⟩
abbrev S6x128 : Shape := ⟨2, ![6, 128]⟩
abbrev S23x4096 : Shape := ⟨2, ![23, 4096]⟩
abbrev S1x4096 : Shape := ⟨2, ![1, 4096]⟩
abbrev S20x4096 : Shape := ⟨2, ![20, 4096]⟩
abbrev S2x4096 : Shape := ⟨2, ![2, 4096]⟩
abbrev S4096 : Shape := ⟨1, ![4096]⟩
abbrev S1 : Shape := ⟨1, ![1]⟩
abbrev S1x1 : Shape := ⟨2, ![1, 1]⟩
abbrev S1x128x2 : Shape := ⟨3, ![1, 128, 2]⟩
abbrev S128x2 : Shape := ⟨2, ![128, 2]⟩
abbrev S1x128x1 : Shape := ⟨3, ![1, 128, 1]⟩
abbrev S128x1 : Shape := ⟨2, ![128, 1]⟩
abbrev S128x4096 : Shape := ⟨2, ![128, 4096]⟩
abbrev S1x128 : Shape := ⟨2, ![1, 128]⟩
abbrev S6x8x128 : Shape := ⟨3, ![6, 8, 128]⟩
abbrev S6x8x1 : Shape := ⟨3, ![6, 8, 1]⟩
abbrev S6x8 : Shape := ⟨2, ![6, 8]⟩
abbrev S6 : Shape := ⟨1, ![6]⟩

abbrev nBuf : Space → Nat
  | .hbm => 56
  | .vmem => 10
  | .smem => 0
  | _ => 0

abbrev bufTy : (tb : Table) → Fin (tcTables nBuf tb) → BufTy
  | .hbm, ⟨0, _⟩ => ⟨S8x23x64x64, .f32⟩
  | .hbm, ⟨1, _⟩ => ⟨S8x23x64x64, .f32⟩
  | .hbm, ⟨2, _⟩ => ⟨S8x23x4096, .f32⟩
  | .hbm, ⟨3, _⟩ => ⟨S8x23x4096, .f32⟩
  | .hbm, ⟨4, _⟩ => ⟨S8x2x64x64, .f32⟩
  | .hbm, ⟨5, _⟩ => ⟨S8x64x64x2, .f32⟩
  | .hbm, ⟨6, _⟩ => ⟨S8x4096x2, .f32⟩
  | .hbm, ⟨7, _⟩ => ⟨S_, .f32⟩
  | .hbm, ⟨8, _⟩ => ⟨S8x64x64, .f32⟩
  | .hbm, ⟨9, _⟩ => ⟨S_, .f32⟩
  | .hbm, ⟨10, _⟩ => ⟨S8x64x64, .f32⟩
  | .hbm, ⟨11, _⟩ => ⟨S8x64x64, .i1⟩
  | .hbm, ⟨12, _⟩ => ⟨S8x4096, .i1⟩
  | .hbm, ⟨13, _⟩ => ⟨S8x4096, .f32⟩
  | .hbm, ⟨14, _⟩ => ⟨S8x4096x1, .f32⟩
  | .hbm, ⟨15, _⟩ => ⟨S6x1024, .f32⟩
  | .hbm, ⟨16, _⟩ => ⟨S6x8x128, .f32⟩
  | .hbm, ⟨17, _⟩ => ⟨S6x8x1, .f32⟩
  | .hbm, ⟨18, _⟩ => ⟨S6x8, .f32⟩
  | .hbm, ⟨19, _⟩ => ⟨S_, .f32⟩
  | .hbm, ⟨20, _⟩ => ⟨S6, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S1x23x4096, .f32⟩
  | .local _ .vmem, ⟨1, _⟩ => ⟨S1x23x4096, .f32⟩
  | .local _ .vmem, ⟨2, _⟩ => ⟨S1x23x4096, .f32⟩
  | .local _ .vmem, ⟨3, _⟩ => ⟨S1x23x4096, .f32⟩
  | .local _ .vmem, ⟨4, _⟩ => ⟨S1x4096x2, .f32⟩
  | .local _ .vmem, ⟨5, _⟩ => ⟨S1x4096x2, .f32⟩
  | .local _ .vmem, ⟨6, _⟩ => ⟨S1x4096x1, .f32⟩
  | .local _ .vmem, ⟨7, _⟩ => ⟨S1x4096x1, .f32⟩
  | .local _ .vmem, ⟨8, _⟩ => ⟨S6x128, .f32⟩
  | .local _ .vmem, ⟨9, _⟩ => ⟨S6x128, .f32⟩
  | _, _ => ⟨S8x23x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v96 : BitVec 32 := Scalar.addi c0_i32 c32_i32
  let c1_i32 : BitVec 32 := 1#32
  ⟨c0_i32, v96, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v127 : BitVec 32 := Scalar.muli arg6 c128_i32
  v127
def k0_off1 (k0_t1 : Fin k0_t1_loop.trips) : Fin 3 → Nat :=
  let c0_44 : Index := 0#32
  let c0_i32 : BitVec 32 := 0#32
  let c1_i32 : BitVec 32 := 1#32
  let arg6 : BitVec 32 := Scf.iv c0_i32 c1_i32 k0_t1
  let c128_i32 : BitVec 32 := 128#32
  let v127 : BitVec 32 := Scalar.muli arg6 c128_i32
  let v128 : BitVec 32 := v127
  let v129 : Index := Scalar.indexCast v128
  let c0_45 : Index := 0#32
  ![0, v129.toNat, 0]
def k0_off2 (k0_t1 : Fin k0_t1_loop.trips) : Fin 3 → Nat :=
  let c0_46 : Index := 0#32
  let c0_i32 : BitVec 32 := 0#32
  let c1_i32 : BitVec 32 := 1#32
  let arg6 : BitVec 32 := Scf.iv c0_i32 c1_i32 k0_t1
  let c128_i32 : BitVec 32 := 128#32
  let v127 : BitVec 32 := Scalar.muli arg6 c128_i32
  let v128 : BitVec 32 := v127
  let v132 : Index := Scalar.indexCast v128
  let c0_47 : Index := 0#32
  ![0, v132.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x23x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x23x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x23x64x64_S8x23x4096 : S8x23x64x64.ShapeCasts S8x23x4096
  slices_S8x23x64x64_S8x2x64x64_0_21_0_0 : S8x23x64x64.Slices ![0, 21, 0, 0] S8x2x64x64
  transposes_S8x2x64x64_S8x64x64x2_0_3_2_1 : S8x2x64x64.Transposes [0, 3, 2, 1] S8x64x64x2
  shapeCasts_S8x64x64x2_S8x4096x2 : S8x64x64x2.ShapeCasts S8x4096x2
  reducesTo_S8x2x64x64_S8x64x64_d1 : S8x2x64x64.ReducesTo [1] S8x64x64
  h_S_ : 0 < S_.numel
  bcast_S_S8x64x64 : S_.BroadcastsInDim S8x64x64 (![] : Fin 0 → Fin S8x64x64.rank)
  shapeCasts_S8x64x64_S8x4096 : S8x64x64.ShapeCasts S8x4096
  bcast_S8x4096_S8x4096x1_0_1 : S8x4096.BroadcastsInDim S8x4096x1 (![0, 1] : Fin 2 → Fin S8x4096x1.rank)
  inb_S1x23x4096_S1x23x4096_0_0_0 : ∀ a, (![0, 0, 0] : Fin 3 → Nat) a + S1x23x4096.size a ≤ S1x23x4096.size a
  h_S1x23x4096 : 0 < S1x23x4096.numel
  shapeCasts_S1x23x4096_S23x4096 : S1x23x4096.ShapeCasts S23x4096
  slices_S23x4096_o0_0_S1x4096 : S23x4096.Slices ![0, 0] S1x4096
  slices_S23x4096_o1_0_S20x4096 : S23x4096.Slices ![1, 0] S20x4096
  slices_S23x4096_o21_0_S2x4096 : S23x4096.Slices ![21, 0] S2x4096
  reduces_S2x4096_S4096 : S2x4096.Reduces [0] S4096
  shapeCasts_S4096_S1x4096 : S4096.ShapeCasts S1x4096
  natLt_1_32 : 1 < 32
  reduces_S1x4096_S1 : S1x4096.Reduces [1] S1
  shapeCasts_S1_S1x1 : S1.ShapeCasts S1x1
  broadcasts_S1x4096_S20x4096 : S1x4096.Broadcasts S20x4096
  reduces_S20x4096_S4096 : S20x4096.Reduces [0] S4096
  h_S1x128x2 : 0 < S1x128x2.numel
  shapeCasts_S1x128x2_S128x2 : S1x128x2.ShapeCasts S128x2
  h_S1x128x1 : 0 < S1x128x1.numel
  shapeCasts_S1x128x1_S128x1 : S1x128x1.ShapeCasts S128x1
  slices_S128x2_o0_0_S128x1 : S128x2.Slices ![0, 0] S128x1
  slices_S128x2_o0_1_S128x1 : S128x2.Slices ![0, 1] S128x1
  broadcasts_S1x4096_S128x4096 : S1x4096.Broadcasts S128x4096
  broadcasts_S128x1_S128x4096 : S128x1.Broadcasts S128x4096
  reduces_S128x4096_S4096 : S128x4096.Reduces [0] S4096
  shapeCasts_S1x1_S1x1 : S1x1.ShapeCasts S1x1
  broadcasts_S1x1_S1x128 : S1x1.Broadcasts S1x128
  inb_S6x128_S1x128_0_0 : ∀ a, (![0, 0] : Fin 2 → Nat) a + S1x128.size a ≤ S6x128.size a
  h_S1x128 : 0 < S1x128.numel
  inb_S6x128_S1x128_1_0 : ∀ a, (![1, 0] : Fin 2 → Nat) a + S1x128.size a ≤ S6x128.size a
  inb_S6x128_S1x128_2_0 : ∀ a, (![2, 0] : Fin 2 → Nat) a + S1x128.size a ≤ S6x128.size a
  inb_S6x128_S1x128_3_0 : ∀ a, (![3, 0] : Fin 2 → Nat) a + S1x128.size a ≤ S6x128.size a
  inb_S6x128_S1x128_4_0 : ∀ a, (![4, 0] : Fin 2 → Nat) a + S1x128.size a ≤ S6x128.size a
  inb_S6x128_S1x128_5_0 : ∀ a, (![5, 0] : Fin 2 → Nat) a + S1x128.size a ≤ S6x128.size a
  shapeCasts_S6x1024_S6x8x128 : S6x1024.ShapeCasts S6x8x128
  slices_S6x8x128_S6x8x1_0_0_0 : S6x8x128.Slices ![0, 0, 0] S6x8x1
  shapeCasts_S6x8x1_S6x8 : S6x8x1.ShapeCasts S6x8
  reducesTo_S6x8_S6_d1 : S6x8.ReducesTo [1] S6
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  dot_S128x2_S2x4096_S128x4096_1_0_0_1_n_n_wf : DotDims.WF S128x2 S2x4096 S128x4096 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x2.size a ≤ S1x4096x2.size a
  k0_off2_inb : ∀ k0_t1 : Fin k0_t1_loop.trips, ∀ a, (k0_off2 k0_t1) a + S1x128x1.size a ≤ S1x4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x23x4096.size a ≤ S8x23x4096.size a
  hwx0_0 : ∀ i : grid0.Coords, EltTy.bits .f32 = 32 ∨ (Rect.block (s := S8x23x4096) S1x23x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x23x4096.size a ≤ S8x23x4096.size a
  hwx0_1 : ∀ i : grid0.Coords, EltTy.bits .f32 = 32 ∨ (Rect.block (s := S8x23x4096) S1x23x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x2.size a ≤ S8x4096x2.size a
  hwx0_2 : ∀ i : grid0.Coords, EltTy.bits .f32 = 32 ∨ (Rect.block (s := S8x4096x2) S1x4096x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S8x4096x1.size a
  hwx0_3 : ∀ i : grid0.Coords, EltTy.bits .f32 = 32 ∨ (Rect.block (s := S8x4096x1) S1x4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x1024.size a
  hwx0_4 : ∀ i : grid0.Coords, EltTy.bits .f32 = 32 ∨ (Rect.block (s := S6x1024) S6x128.size (cc0_transform_4 i) (hinb0_4 i)).WholeWords (EltTy.packing .f32)

variable [Facts₀]

def dot_S128x2_S2x4096_S128x4096_1_0_0_1_n_n : DotDims S128x2 S2x4096 S128x4096 where
  lhsContracting := [1]
  rhsContracting := [0]
  lhsNonContracting := [0]
  rhsNonContracting := [1]
  lhsBatch := []
  rhsBatch := []
  wf := dot_S128x2_S2x4096_S128x4096_1_0_0_1_n_n_wf

abbrev win0_0 : Pipeline.Window sig grid0 :=
  Pipeline.Window.ofSpec (Memref.whole main_v0) S1x23x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x23x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S6x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x23x64x64 : Shape := ⟨4, ![8, 23, 64, 64]⟩
abbrev S8x1x64x64 : Shape := ⟨4, ![8, 1, 64, 64]⟩
abbrev S8x20x64x64 : Shape := ⟨4, ![8, 20, 64, 64]⟩
abbrev S8x2x64x64 : Shape := ⟨4, ![8, 2, 64, 64]⟩
abbrev S_ : Shape := ⟨0, ![]⟩
abbrev S8x64x64 : Shape := ⟨3, ![8, 64, 64]⟩
abbrev S8x64x64x2 : Shape := ⟨4, ![8, 64, 64, 2]⟩
abbrev S8x4096x2 : Shape := ⟨3, ![8, 4096, 2]⟩
abbrev S8x4096 : Shape := ⟨2, ![8, 4096]⟩
abbrev S8x64x64x1x2 : Shape := ⟨5, ![8, 64, 64, 1, 2]⟩
abbrev S8x1x1x4096x2 : Shape := ⟨5, ![8, 1, 1, 4096, 2]⟩
abbrev S8x64x64x4096x2 : Shape := ⟨5, ![8, 64, 64, 4096, 2]⟩
abbrev S8x64x64x4096 : Shape := ⟨4, ![8, 64, 64, 4096]⟩
abbrev S8x1x1x4096 : Shape := ⟨4, ![8, 1, 1, 4096]⟩

abbrev nBuf : Space → Nat
  | .hbm => 168
  | .vmem => 0
  | .smem => 0
  | _ => 0

abbrev hbmTy0_0 (i : Nat) : BufTy := match i % 128 with
  | 0 => ⟨S8x23x64x64, .f32⟩
  | 1 => ⟨S8x23x64x64, .f32⟩
  | 2 => ⟨S8x1x64x64, .f32⟩
  | 3 => ⟨S8x20x64x64, .f32⟩
  | 4 => ⟨S8x2x64x64, .f32⟩
  | 5 => ⟨S8x1x64x64, .f32⟩
  | 6 => ⟨S8x20x64x64, .f32⟩
  | 7 => ⟨S8x2x64x64, .f32⟩
  | 8 => ⟨S_, .f32⟩
  | 9 => ⟨S8x1x64x64, .f32⟩
  | 10 => ⟨S8x1x64x64, .f32⟩
  | 11 => ⟨S_, .f32⟩
  | 12 => ⟨S8x1x64x64, .f32⟩
  | 13 => ⟨S8x1x64x64, .f32⟩
  | 14 => ⟨S_, .f32⟩
  | 15 => ⟨S8x1x64x64, .f32⟩
  | 16 => ⟨S8x1x64x64, .f32⟩
  | 17 => ⟨S8x1x64x64, .f32⟩
  | 18 => ⟨S_, .f32⟩
  | 19 => ⟨S8x1x64x64, .f32⟩
  | 20 => ⟨S8x1x64x64, .f32⟩
  | 21 => ⟨S8x1x64x64, .f32⟩
  | 22 => ⟨S8x1x64x64, .f32⟩
  | 23 => ⟨S_, .f32⟩
  | 24 => ⟨S8x1x64x64, .f32⟩
  | 25 => ⟨S8x1x64x64, .f32⟩
  | 26 => ⟨S_, .f32⟩
  | 27 => ⟨S8x1x64x64, .f32⟩
  | 28 => ⟨S8x1x64x64, .f32⟩
  | 29 => ⟨S_, .f32⟩
  | 30 => ⟨S8x1x64x64, .f32⟩
  | 31 => ⟨S8x1x64x64, .f32⟩
  | 32 => ⟨S8x1x64x64, .f32⟩
  | 33 => ⟨S_, .f32⟩
  | 34 => ⟨S8x1x64x64, .f32⟩
  | 35 => ⟨S8x1x64x64, .f32⟩
  | 36 => ⟨S_, .f32⟩
  | 37 => ⟨S8x1x64x64, .f32⟩
  | 38 => ⟨S8x1x64x64, .f32⟩
  | 39 => ⟨S8x1x64x64, .f32⟩
  | 40 => ⟨S8x1x64x64, .f32⟩
  | 41 => ⟨S8x1x64x64, .f32⟩
  | 42 => ⟨S_, .f32⟩
  | 43 => ⟨S8x20x64x64, .f32⟩
  | 44 => ⟨S8x20x64x64, .f32⟩
  | 45 => ⟨S_, .f32⟩
  | 46 => ⟨S8x20x64x64, .f32⟩
  | 47 => ⟨S8x20x64x64, .f32⟩
  | 48 => ⟨S_, .f32⟩
  | 49 => ⟨S8x20x64x64, .f32⟩
  | 50 => ⟨S8x20x64x64, .f32⟩
  | 51 => ⟨S8x20x64x64, .f32⟩
  | 52 => ⟨S_, .f32⟩
  | 53 => ⟨S8x20x64x64, .f32⟩
  | 54 => ⟨S8x20x64x64, .f32⟩
  | 55 => ⟨S8x20x64x64, .f32⟩
  | 56 => ⟨S8x20x64x64, .f32⟩
  | 57 => ⟨S_, .f32⟩
  | 58 => ⟨S8x20x64x64, .f32⟩
  | 59 => ⟨S8x20x64x64, .f32⟩
  | 60 => ⟨S_, .f32⟩
  | 61 => ⟨S8x20x64x64, .f32⟩
  | 62 => ⟨S8x20x64x64, .f32⟩
  | 63 => ⟨S_, .f32⟩
  | 64 => ⟨S8x20x64x64, .f32⟩
  | 65 => ⟨S8x20x64x64, .f32⟩
  | 66 => ⟨S8x20x64x64, .f32⟩
  | 67 => ⟨S_, .f32⟩
  | 68 => ⟨S8x20x64x64, .f32⟩
  | 69 => ⟨S8x20x64x64, .f32⟩
  | 70 => ⟨S_, .f32⟩
  | 71 => ⟨S8x20x64x64, .f32⟩
  | 72 => ⟨S8x20x64x64, .f32⟩
  | 73 => ⟨S8x20x64x64, .f32⟩
  | 74 => ⟨S8x20x64x64, .f32⟩
  | 75 => ⟨S8x20x64x64, .f32⟩
  | 76 => ⟨S8x2x64x64, .f32⟩
  | 77 => ⟨S8x2x64x64, .f32⟩
  | 78 => ⟨S_, .f32⟩
  | 79 => ⟨S8x64x64, .f32⟩
  | 80 => ⟨S8x1x64x64, .f32⟩
  | 81 => ⟨S_, .f32⟩
  | 82 => ⟨S8x1x64x64, .f32⟩
  | 83 => ⟨S8x1x64x64, .f32⟩
  | 84 => ⟨S8x64x64x2, .f32⟩
  | 85 => ⟨S8x64x64x2, .f32⟩
  | 86 => ⟨S8x4096x2, .f32⟩
  | 87 => ⟨S_, .f32⟩
  | 88 => ⟨S8x64x64, .f32⟩
  | 89 => ⟨S_, .f32⟩
  | 90 => ⟨S8x64x64, .f32⟩
  | 91 => ⟨S8x64x64, .i1⟩
  | 92 => ⟨S8x4096, .i1⟩
  | 93 => ⟨S8x64x64x1x2, .f32⟩
  | 94 => ⟨S8x1x1x4096x2, .f32⟩
  | 95 => ⟨S8x64x64x4096x2, .f32⟩
  | 96 => ⟨S8x64x64x4096x2, .f32⟩
  | 97 => ⟨S8x64x64x4096x2, .f32⟩
  | 98 => ⟨S8x64x64x4096x2, .f32⟩
  | 99 => ⟨S_, .f32⟩
  | 100 => ⟨S8x64x64x4096, .f32⟩
  | 101 => ⟨S8x64x64x4096, .f32⟩
  | 102 => ⟨S8x1x1x4096, .i1⟩
  | 103 => ⟨S_, .f32⟩
  | 104 => ⟨S_, .f32⟩
  | 105 => ⟨S8x64x64x4096, .i1⟩
  | 106 => ⟨S8x64x64x4096, .f32⟩
  | 107 => ⟨S8x64x64x4096, .f32⟩
  | 108 => ⟨S_, .f32⟩
  | 109 => ⟨S8x64x64, .f32⟩
  | 110 => ⟨S_, .f32⟩
  | 111 => ⟨S8x64x64, .f32⟩
  | 112 => ⟨S8x64x64, .i1⟩
  | 113 => ⟨S8x64x64, .f32⟩
  | 114 => ⟨S8x1x64x64, .f32⟩
  | 115 => ⟨S_, .f32⟩
  | 116 => ⟨S8x1x64x64, .f32⟩
  | 117 => ⟨S8x1x64x64, .i1⟩
  | 118 => ⟨S8x1x64x64, .f32⟩
  | 119 => ⟨S_, .f32⟩
  | 120 => ⟨S_, .f32⟩
  | 121 => ⟨S_, .f32⟩
  | 122 => ⟨S_, .f32⟩
  | 123 => ⟨S8x1x64x64, .f32⟩
  | 124 => ⟨S_, .f32⟩
  | 125 => ⟨S_, .f32⟩
  | 126 => ⟨S_, .f32⟩
  | 127 => ⟨S_, .f32⟩
  | _ => ⟨S8x23x64x64, .f32⟩

abbrev hbmTy0_1 (i : Nat) : BufTy := match i % 128 with
  | 0 => ⟨S_, .f32⟩
  | 1 => ⟨S8x1x64x64, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S8x1x64x64, .f32⟩
  | 9 => ⟨S8x1x64x64, .f32⟩
  | 10 => ⟨S8x1x64x64, .f32⟩
  | 11 => ⟨S8x1x64x64, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S8x20x64x64, .f32⟩
  | 19 => ⟨S8x20x64x64, .f32⟩
  | 20 => ⟨S_, .f32⟩
  | 21 => ⟨S_, .f32⟩
  | 22 => ⟨S_, .f32⟩
  | 23 => ⟨S_, .f32⟩
  | 24 => ⟨S8x1x64x64, .f32⟩
  | 25 => ⟨S8x1x64x64, .f32⟩
  | 26 => ⟨S8x20x64x64, .f32⟩
  | 27 => ⟨S8x20x64x64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | _ => ⟨S8x23x64x64, .f32⟩

abbrev hbmTy (i : Nat) : BufTy := match i / 128 with
  | 0 => hbmTy0_0 i
  | 1 => hbmTy0_1 i
  | _ => ⟨S8x23x64x64, .f32⟩

abbrev bufTy : (tb : Table) → Fin (tcTables nBuf tb) → BufTy
  | .hbm, ⟨i, _⟩ => hbmTy i
  | _, _ => ⟨S8x23x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_15 : Ref sig .tc := ⟨.hbm, 67, rfl⟩
abbrev main_v49 : Ref sig .tc := ⟨.hbm, 68, rfl⟩
abbrev main_v50 : Ref sig .tc := ⟨.hbm, 69, rfl⟩
abbrev main_cst_16 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩
abbrev main_cst_18 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_19 : Ref sig .tc := ⟨.hbm, 87, rfl⟩
abbrev main_v65 : Ref sig .tc := ⟨.hbm, 88, rfl⟩
abbrev main_cst_20 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_21 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_22 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v78 : Ref sig .tc := ⟨.hbm, 107, rfl⟩
abbrev main_cst_23 : Ref sig .tc := ⟨.hbm, 108, rfl⟩
abbrev main_v79 : Ref sig .tc := ⟨.hbm, 109, rfl⟩
abbrev main_cst_24 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_25 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_26 : Ref sig .tc := ⟨.hbm, 119, rfl⟩
abbrev main_v87 : Ref sig .tc := ⟨.hbm, 120, rfl⟩
abbrev main_cst_27 : Ref sig .tc := ⟨.hbm, 121, rfl⟩
abbrev main_v88 : Ref sig .tc := ⟨.hbm, 122, rfl⟩
abbrev main_v89 : Ref sig .tc := ⟨.hbm, 123, rfl⟩
abbrev main_cst_28 : Ref sig .tc := ⟨.hbm, 124, rfl⟩
abbrev main_v90 : Ref sig .tc := ⟨.hbm, 125, rfl⟩
abbrev main_v91 : Ref sig .tc := ⟨.hbm, 126, rfl⟩
abbrev main_cst_29 : Ref sig .tc := ⟨.hbm, 127, rfl⟩
abbrev main_v92 : Ref sig .tc := ⟨.hbm, 128, rfl⟩
abbrev main_v93 : Ref sig .tc := ⟨.hbm, 129, rfl⟩
abbrev main_cst_30 : Ref sig .tc := ⟨.hbm, 130, rfl⟩
abbrev main_v94 : Ref sig .tc := ⟨.hbm, 131, rfl⟩
abbrev main_v95 : Ref sig .tc := ⟨.hbm, 132, rfl⟩
abbrev main_cst_31 : Ref sig .tc := ⟨.hbm, 133, rfl⟩
abbrev main_v96 : Ref sig .tc := ⟨.hbm, 134, rfl⟩
abbrev main_cst_32 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_33 : Ref sig .tc := ⟨.hbm, 140, rfl⟩
abbrev main_v101 : Ref sig .tc := ⟨.hbm, 141, rfl⟩
abbrev main_cst_34 : Ref sig .tc := ⟨.hbm, 142, rfl⟩
abbrev main_v102 : Ref sig .tc := ⟨.hbm, 143, rfl⟩
abbrev main_cst_35 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_36 : Ref sig .tc := ⟨.hbm, 148, rfl⟩
abbrev main_v106 : Ref sig .tc := ⟨.hbm, 149, rfl⟩
abbrev main_v107 : Ref sig .tc := ⟨.hbm, 150, rfl⟩
abbrev main_cst_37 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_38 : Ref sig .tc := ⟨.hbm, 156, rfl⟩
abbrev main_v112 : Ref sig .tc := ⟨.hbm, 157, rfl⟩
abbrev main_cst_39 : Ref sig .tc := ⟨.hbm, 158, rfl⟩
abbrev main_v113 : Ref sig .tc := ⟨.hbm, 159, rfl⟩
abbrev main_cst_40 : Ref sig .tc := ⟨.hbm, 160, rfl⟩
abbrev main_v114 : Ref sig .tc := ⟨.hbm, 161, rfl⟩
abbrev main_v115 : Ref sig .tc := ⟨.hbm, 162, rfl⟩
abbrev main_cst_41 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩

abbrev nD : Nat := 1
abbrev τ : Topo := Topo.v7x

variable {F : FTy → Type} [FloatOps F]

class Facts₀ : Prop where
  slices_S8x23x64x64_S8x1x64x64_0_0_0_0 : S8x23x64x64.Slices ![0, 0, 0, 0] S8x1x64x64
  slices_S8x23x64x64_S8x20x64x64_0_1_0_0 : S8x23x64x64.Slices ![0, 1, 0, 0] S8x20x64x64
  slices_S8x23x64x64_S8x2x64x64_0_21_0_0 : S8x23x64x64.Slices ![0, 21, 0, 0] S8x2x64x64
  bcast_S_S8x1x64x64 : S_.BroadcastsInDim S8x1x64x64 (![] : Fin 0 → Fin S8x1x64x64.rank)
  bcast_S_S8x20x64x64 : S_.BroadcastsInDim S8x20x64x64 (![] : Fin 0 → Fin S8x20x64x64.rank)
  reducesTo_S8x2x64x64_S8x64x64_d1 : S8x2x64x64.ReducesTo [1] S8x64x64
  h_S_ : 0 < S_.numel
  bcast_S8x64x64_S8x1x64x64_0_2_3 : S8x64x64.BroadcastsInDim S8x1x64x64 (![0, 2, 3] : Fin 3 → Fin S8x1x64x64.rank)
  transposes_S8x2x64x64_S8x64x64x2_0_2_3_1 : S8x2x64x64.Transposes [0, 2, 3, 1] S8x64x64x2
  transposes_S8x2x64x64_S8x64x64x2_0_3_2_1 : S8x2x64x64.Transposes [0, 3, 2, 1] S8x64x64x2
  shapeCasts_S8x64x64x2_S8x4096x2 : S8x64x64x2.ShapeCasts S8x4096x2
  bcast_S_S8x64x64 : S_.BroadcastsInDim S8x64x64 (![] : Fin 0 → Fin S8x64x64.rank)
  shapeCasts_S8x64x64_S8x4096 : S8x64x64.ShapeCasts S8x4096
  bcast_S8x64x64x2_S8x64x64x1x2_0_1_2_4 : S8x64x64x2.BroadcastsInDim S8x64x64x1x2 (![0, 1, 2, 4] : Fin 4 → Fin S8x64x64x1x2.rank)
  bcast_S8x4096x2_S8x1x1x4096x2_0_3_4 : S8x4096x2.BroadcastsInDim S8x1x1x4096x2 (![0, 3, 4] : Fin 3 → Fin S8x1x1x4096x2.rank)
  bcast_S8x64x64x1x2_S8x64x64x4096x2_0_1_2_3_4 : S8x64x64x1x2.BroadcastsInDim S8x64x64x4096x2 (![0, 1, 2, 3, 4] : Fin 5 → Fin S8x64x64x4096x2.rank)
  bcast_S8x1x1x4096x2_S8x64x64x4096x2_0_1_2_3_4 : S8x1x1x4096x2.BroadcastsInDim S8x64x64x4096x2 (![0, 1, 2, 3, 4] : Fin 5 → Fin S8x64x64x4096x2.rank)
  reducesTo_S8x64x64x4096x2_S8x64x64x4096_d4 : S8x64x64x4096x2.ReducesTo [4] S8x64x64x4096
  bcast_S8x4096_S8x1x1x4096_0_3 : S8x4096.BroadcastsInDim S8x1x1x4096 (![0, 3] : Fin 2 → Fin S8x1x1x4096.rank)
  bcast_S8x1x1x4096_S8x64x64x4096_0_1_2_3 : S8x1x1x4096.BroadcastsInDim S8x64x64x4096 (![0, 1, 2, 3] : Fin 4 → Fin S8x64x64x4096.rank)
  bcast_S_S8x64x64x4096 : S_.BroadcastsInDim S8x64x64x4096 (![] : Fin 0 → Fin S8x64x64x4096.rank)
  reducesTo_S8x64x64x4096_S8x64x64_d3 : S8x64x64x4096.ReducesTo [3] S8x64x64
  reducesTo_S8x1x64x64_S_d0_1_2_3 : S8x1x64x64.ReducesTo [0, 1, 2, 3] S_
  bcast_S8x1x64x64_S8x20x64x64_0_1_2_3 : S8x1x64x64.BroadcastsInDim S8x20x64x64 (![0, 1, 2, 3] : Fin 4 → Fin S8x20x64x64.rank)
  reducesTo_S8x20x64x64_S_d0_1_2_3 : S8x20x64x64.ReducesTo [0, 1, 2, 3] S_

variable [Facts₀]

class Facts : Prop extends Facts₀ where

variable [Facts]
-- ==== Proof.Spec.lean ====
/-
  What both programs compute, as one function of the two argument arrays (prediction `x0`, label `x1`,
  each 8×23×64×64: batch, channel, row, column).

  Per batch `b` the arrays are read through `pix`: channel `ch` at pixel `n = h·64 + w`. Channel 0 is the
  objectness, channels 1–20 the classes, channels 21–22 a point (x, y).
  * `focal p t` is the focal cross-entropy of a predicted probability `p` against a target `t`,
    −¼·t·(1−p)²·log(p+ε) − ¾·(1−t)·p²·log(1−p+ε).
  * `distLoss` is the squared distance of the predicted point from the label's point, over 16.
  * The key points of a batch are the label's points listed COLUMN-major (`keyPt`: key `k` is the point at row
    `k % 64`, column `k / 64`), while a key's validity (`keyValid`: the larger coordinate exceeds 0.01) is read
    ROW-major (row `k / 64`, column `k % 64`): the two orders differ on purpose, in both programs.
  * `minDist` is the distance from a pixel's predicted point to the nearest valid key, +∞ when no key is valid,
    and `ignoreMask` says whether it is at least ½.
  The six sums `part j` (per batch) — the count of positives, the coordinate loss, the objectness loss on objects,
  the objectness loss off objects under the mask, the class loss on objects, the class loss off objects — are
  summed over the batches from the float zero, and `tail` forms the five results from the six totals.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SA : Shape := ⟨4, ![8, 23, 64, 64]⟩
abbrev Arr : Type := SA.Idx → EReal

/-- Channel `ch` of batch `b` at pixel `n = h·64 + w`. -/
def pix (x : Arr) (b : Fin 8) (ch : Fin 23) (n : Fin 4096) : EReal :=
  x (ix4 b ch (⟨n.val / 64, by omega⟩ : Fin 64) (⟨n.val % 64, by omega⟩ : Fin 64))

/-- The class channels 1 … 20 and the point channels 21, 22. -/
def chCls (c : Fin 20) : Fin 23 := ⟨1 + c.val, by omega⟩
def chXy (c : Fin 2) : Fin 23 := ⟨21 + c.val, by omega⟩

/-- Key point `k` of batch `b`: the label's point at row `k % 64`, column `k / 64`. -/
def keyPt (x1 : Arr) (b : Fin 8) (k : Fin 4096) (c : Fin 2) : EReal :=
  x1 (ix4 b (chXy c) (⟨k.val % 64, by omega⟩ : Fin 64) (⟨k.val / 64, by omega⟩ : Fin 64))

/-- Key `k` of batch `b` is valid when the larger coordinate of the label's point at row `k / 64`, column `k % 64`
    exceeds 0.01. -/
def keyValid (x1 : Arr) (b : Fin 8) (k : Fin 4096) : BitVec 1 :=
  Ideal.cmp .ogt ((Finset.univ : Finset (Fin 2)).fold max (Ideal.ofBits .f32 0xFF800000#32) (fun c => pix x1 b (chXy c) k))
    (Ideal.ofBits .f32 0x3C23D70A#32)

/-! ## One batch -/

section Batch

/-- The float words 1, ε, 0, +∞. -/
abbrev w1 : EReal := Ideal.ofBits .f32 0x3F800000#32
abbrev wEps : EReal := Ideal.ofBits .f32 0x322BCC77#32
abbrev w0 : EReal := Ideal.ofBits .f32 0x00000000#32
abbrev wInf : EReal := Ideal.ofBits .f32 0x7F800000#32

def focal (p t : EReal) : EReal :=
  (((Ideal.ofBits .f32 0xBE800000#32 * t) * (w1 - p)) * (w1 - p)) * Ideal.log (p + wEps)
    - ((Ideal.ofBits .f32 0x3F400000#32 * (w1 - t)) * (p * p)) * Ideal.log ((w1 - p) + wEps)

/-- 1 when the target exceeds ½, else 0. -/
def posInd (t : EReal) : EReal := (((Ideal.cmp .ogt t (Ideal.ofBits .f32 0x3F000000#32)).toNat : ℝ) : EReal)

variable (pb tb : Fin 23 → Fin 4096 → EReal) (kp : Fin 4096 → Fin 2 → EReal) (kb : Fin 4096 → BitVec 1)

def distLoss (n : Fin 4096) : EReal :=
  Ideal.div (∑ c : Fin 2, (pb (chXy c) n - tb (chXy c) n) * (pb (chXy c) n - tb (chXy c) n)) (Ideal.ofBits .f32 0x41800000#32)

/-- The distance from pixel `n`'s predicted point to key `k`. -/
def keyDist (n k : Fin 4096) : EReal :=
  Ideal.sqrt (w0 + ∑ c : Fin 2, (pb (chXy c) n - kp k c) * (pb (chXy c) n - kp k c))

def minDist (n : Fin 4096) : EReal :=
  (Finset.univ : Finset (Fin 4096)).fold min wInf (fun k => Scalar.select (kb k) (keyDist pb kp n k) wInf)

def ignoreMask (n : Fin 4096) : EReal :=
  (((Ideal.cmp .oge (minDist pb kp kb n) (Ideal.ofBits .f32 0x3F000000#32)).toNat : ℝ) : EReal)

/-- The six sums of one batch. -/
def part : Fin 6 → EReal
  | 0 => ∑ n : Fin 4096, posInd (tb 0 n)
  | 1 => ∑ n : Fin 4096, distLoss pb tb n * tb 0 n
  | 2 => ∑ n : Fin 4096, focal (pb 0 n) (tb 0 n) * tb 0 n
  | 3 => ∑ n : Fin 4096, (focal (pb 0 n) (tb 0 n) * (w1 - tb 0 n)) * ignoreMask pb kp kb n
  | 4 => ∑ n : Fin 4096, ∑ c : Fin 20, focal (pb (chCls c) n) (tb (chCls c) n) * tb 0 n
  | 5 => ∑ n : Fin 4096, ∑ c : Fin 20, focal (pb (chCls c) n) (tb (chCls c) n) * (w1 - tb 0 n)

end Batch

/-! ## The whole arrays -/

/-- The six totals: from the float zero, the batches' sums. -/
def total (x0 x1 : Arr) (j : Fin 6) : EReal :=
  w0 + ∑ b : Fin 8, part (pix x0 b) (pix x1 b) (keyPt x1 b) (keyValid x1 b) j

/-- The five results from the six totals: the loss, and its coordinate, object, no-object and class terms. -/
def posSum (s : Fin 6 → EReal) : EReal := max (s 0) w1
def lossCoord (s : Fin 6 → EReal) : EReal := Ideal.div (s 1) (posSum s) * Ideal.ofBits .f32 0x40A00000#32
def lossObj (s : Fin 6 → EReal) : EReal := Ideal.div (s 2) (posSum s) * Ideal.ofBits .f32 0x3F800000#32
def lossNoobj (s : Fin 6 → EReal) : EReal :=
  Ideal.div (s 3) (Ideal.ofBits .f32 0x47000000#32) * Ideal.ofBits .f32 0x3F000000#32
def lossCls (s : Fin 6 → EReal) : EReal :=
  (Ideal.div (s 4) (posSum s) + Ideal.div (Ideal.div (s 5) (Ideal.ofBits .f32 0x49200000#32)) (Ideal.ofBits .f32 0x40000000#32))
    * Ideal.ofBits .f32 0x3F800000#32
def loss (s : Fin 6 → EReal) : EReal := ((lossCoord s + lossObj s) + lossNoobj s) + lossCls s

end Cert.Spec

end
-- ==== Proof.KHostBlocks.lean ====
/-
  The kernel's input blocks, read at an index.

  The region finds its first two windows' arrays as the two arguments reshaped 8×23×64×64 → 8×23×4096: entry
  (b, ch, n) of the reshaped array is entry (b, ch, n / 64, n % 64) of the argument, the same row-major position.
  The block of such a window at grid point t is row t of its array: block entry (0, ch, n) is array entry (t, ch, n).
  So the block at point t, read at (0, ch, n), is the specification's `pix` of the argument at batch t.
-/
import proofs.«134050_j14731737825397_2_alg».proof.Proof.Gen.KernelIdeal.Frame
import proofs.«134050_j14731737825397_2_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KSide

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The grid point as a batch number. -/
def batch (t : Fin cfg0.N) : Fin 8 := ⟨t.val, by have h : cfg0.N = 8 := N_0; have := t.isLt; omega⟩

theorem batch_val (t : Fin cfg0.N) : (batch t).val = t.val := rfl

/-- The two argument arrays as the launch memory holds them on core `c`. -/
abbrev arg0 (c : Dev nD) : Cert.Spec.Arr := m ((c.tc : Thread nD τ).loc main_arg0)
abbrev arg1 (c : Dev nD) : Cert.Spec.Arr := m ((c.tc : Thread nD τ).loc main_arg1)

/-! ## The reshape 8×23×64×64 → 8×23×4096 at an index -/

/-- Entry (b, ch, n) of the reshaped array is entry (b, ch, n / 64, n % 64) of the argument. -/
theorem reshape_pix (x : S8x23x64x64.Idx → EReal) (b : Fin 8) (ch : Fin 23) (n : Fin 4096) :
    shapeCast S8x23x4096 x shapeCasts_S8x23x64x64_S8x23x4096 (ix3 b ch n) = Cert.Spec.pix x b ch n := by
  unfold Cert.Spec.pix
  refine shapeCast_apply x _ (ix3 b ch n) _ ?_
  rw [Shape.rowMajor_val_four, Shape.rowMajor_val_three]
  show ((b.val * 23 + ch.val) * 64 + n.val / 64) * 64 + n.val % 64 = (b.val * 23 + ch.val) * 4096 + n.val
  omega

/-- What the region finds in its first window's array: the first argument reshaped. -/
theorem V_main_v0 (c : Dev nD) :
    (V m c main_v0 : S8x23x4096.Idx → EReal) = shapeCast S8x23x4096 (arg0 m c) shapeCasts_S8x23x64x64_S8x23x4096 := by
  show StableHlo.after hostOps0 (fun b => m (c, b)) (Proc.devRef .tc main_v0) = _
  after_results
  rfl

/-- What the region finds in its second window's array: the second argument reshaped. -/
theorem V_main_v1 (c : Dev nD) :
    (V m c main_v1 : S8x23x4096.Idx → EReal) = shapeCast S8x23x4096 (arg1 m c) shapeCasts_S8x23x64x64_S8x23x4096 := by
  show StableHlo.after hostOps0 (fun b => m (c, b)) (Proc.devRef .tc main_v1) = _
  after_results
  rfl

/-! ## The blocks of windows 0 and 1 -/

/-- The index maps of the four input windows send point t to block (t, 0, 0), and the output's to block (0, t), at every point of the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = t.val :=
  (by decide +kernel : ∀ t : Fin grid0.N, _)

/-- Block entry (0, ch, n) of window 0 at point t sits at array entry (t, ch, n). -/
theorem emb0 (t : Fin cfg0.N) (ch : Fin 23) (n : Fin 4096) :
    ((cfg0.win 0).blk t).view.emb (ix3 (0 : Fin 1) ch n) = (ix3 (batch t) ch n : S8x23x4096.Idx) := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 23 + 1 * ch.val = ch.val; omega
  | ⟨2, _⟩ => show win0_0.index t (2 : Fin 3) * 4096 + 1 * n.val = n.val; omega

theorem emb1 (t : Fin cfg0.N) (ch : Fin 23) (n : Fin 4096) :
    ((cfg0.win 1).blk t).view.emb (ix3 (0 : Fin 1) ch n) = (ix3 (batch t) ch n : S8x23x4096.Idx) := by
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 23 + 1 * ch.val = ch.val; omega
  | ⟨2, _⟩ => show win0_1.index t (2 : Fin 3) * 4096 + 1 * n.val = n.val; omega

/-- Window 0's block at point t reads the first argument's batch t. -/
theorem blk0 (c : Dev nD) (t : Fin cfg0.N) (ch : Fin 23) (n : Fin 4096) :
    iblk (F := Ideal) m c 0 t (ix3 (0 : Fin 1) ch n) = Cert.Spec.pix (arg0 m c) (batch t) ch n := by
  unfold iblk
  rw [View.read_apply]
  show (V m c main_v0 : S8x23x4096.Idx → EReal) (((cfg0.win 0).blk t).view.emb (ix3 (0 : Fin 1) ch n)) = _
  rw [emb0, V_main_v0, reshape_pix]

/-- Window 1's block at point t reads the second argument's batch t. -/
theorem blk1 (c : Dev nD) (t : Fin cfg0.N) (ch : Fin 23) (n : Fin 4096) :
    iblk (F := Ideal) m c 1 t (ix3 (0 : Fin 1) ch n) = Cert.Spec.pix (arg1 m c) (batch t) ch n := by
  unfold iblk
  rw [View.read_apply]
  show (V m c main_v1 : S8x23x4096.Idx → EReal) (((cfg0.win 1).blk t).view.emb (ix3 (0 : Fin 1) ch n)) = _
  rw [emb1, V_main_v1, reshape_pix]

end Cert.KSide

end
-- ==== Proof.KHostArray.lean ====
/-
  The kernel's output array after the run.

  The output window's block is 6×128 and point t's block sits at block index (0, t): the eight blocks tile the
  6×1024 array along its columns, block t at columns [128·t, 128·t + 128). So when point t leaves, in every
  lane l of row j, one value `P (batch t) j`, the array ends holding at (j, col) the value of batch col / 128:
  every point writes back its block of that one function, and every index lies in the block of point col / 128.
-/
import proofs.«134050_j14731737825397_2_alg».proof.Proof.Gen.KernelIdeal.Frame
import proofs.«134050_j14731737825397_2_alg».proof.Proof.KHostBlocks
import Idealize.ShloMosaic.Lib.ValueIdx
import Idealize.ShloMosaic.Lib.Pipeline.Value

noncomputable section

namespace Cert.KSide

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The array that holds, at row j and column col, batch col / 128's value for row j. -/
def outArr (P : Fin 8 → Fin 6 → EReal) : S6x1024.Idx → EReal :=
  fun i => P ⟨(i 1).val / 128, by have := idx2_lt1 i; omega⟩ ⟨(i 0).val, idx2_lt0 i⟩

theorem outArr_apply (P : Fin 8 → Fin 6 → EReal) (j : Fin 6) (col : Fin 1024) (b : Fin 8) (hb : col.val / 128 = b.val) :
    outArr P (ix2 j col) = P b j := by
  unfold outArr
  exact congrArg₂ P (Fin.ext hb) (Fin.ext rfl)

/-- Block entry (j, l) of the output window at point t sits at array entry (j, 128·t + l). -/
theorem emb4 (t : Fin cfg0.N) (j : Fin 6) (l : Fin 128) :
    ((cfg0.win 4).blk t).view.emb (ix2 j l)
      = (ix2 j (⟨128 * t.val + l.val, by have h : cfg0.N = 8 := N_0; have := t.isLt; omega⟩ : Fin 1024) : S6x1024.Idx) := by
  obtain ⟨-, -, -, -, -, -, -, -, -, -, -, -, e0, e1⟩ := idx_facts t
  funext a; apply Fin.ext
  match a with
  | ⟨0, _⟩ => show win0_4.index t (0 : Fin 2) * 6 + 1 * j.val = j.val; omega
  | ⟨1, _⟩ => show win0_4.index t (1 : Fin 2) * 128 + 1 * l.val = 128 * t.val + l.val; omega

/-- What point t writes back is its block of `outArr`. -/
theorem flushed_eq (c : Dev nD) (P : Fin 8 → Fin 6 → EReal)
    (hP : ∀ (t : Fin cfg0.N) (j : Fin 6) (l : Fin 128), outsAt0 (F := Ideal) m c t (ix2 j l) = P (batch t) j)
    (t : Fin cfg0.N) :
    (dats m 0 c).flushed 4 t = ((cfg0.win 4).blk t).view.read (Elt Ideal) (outArr P) := by
  show (cfg0.win 4).cut (grid0.coords t) ((dats m 0 c).after 4 t) = _
  rw [after0_4]
  have key : ∀ y : S6x128.Idx, outsAt0 (F := Ideal) m c t y = outArr P (((cfg0.win 4).blk t).view.emb y) := by
    intro y
    obtain ⟨j, l, rfl⟩ : ∃ (j : Fin 6) (l : Fin 128), y = ix2 j l := ⟨y 0, y 1, eq_ix2 y⟩
    rw [hP t j l, emb4]
    refine (outArr_apply P j _ (batch t) ?_).symm
    show (128 * t.val + l.val) / 128 = t.val
    have := l.isLt
    omega
  exact funext key

/-- An index of the array is in point t's block iff each coordinate is in the block's range on its axis. -/
theorem mem_blk4 (t : Fin cfg0.N) (i : S6x1024.Idx) :
    i ∈ ((cfg0.win 4).blk t).view.set ↔ ∀ a : Fin 2, win0_4.index t a * S6x128.size a ≤ (i a).val ∧ (i a).val < win0_4.index t a * S6x128.size a + S6x128.size a := by
  show i ∈ ((View.whole main_v11).slice (win0_4.rect t)).set ↔ _
  rw [View.set_slice_whole, Rect.mem_set_unit]
  exact Iff.rfl

/-- Every index of the array lies in the block of the point its column's batch names. -/
theorem cover4 (i : S6x1024.Idx) : ∃ t : Fin cfg0.N, (cfg0.win 4).flush t = true ∧ i ∈ ((cfg0.win 4).blk t).view.set := by
  have hN : cfg0.N = 8 := N_0
  have h0 : (i 0).val < 6 := idx2_lt0 i
  have h1 : (i 1).val < 1024 := idx2_lt1 i
  refine ⟨⟨(i 1).val / 128, by omega⟩, flush0_4 _, ?_⟩
  rw [mem_blk4]
  obtain ⟨-, -, -, -, -, -, -, -, -, -, -, -, e0, e1⟩ := idx_facts ⟨(i 1).val / 128, by omega⟩
  intro a
  match a with
  | ⟨0, _⟩ =>
    show win0_4.index ⟨(i 1).val / 128, _⟩ (0 : Fin 2) * 6 ≤ (i 0).val ∧ (i 0).val < win0_4.index ⟨(i 1).val / 128, _⟩ (0 : Fin 2) * 6 + 6
    rw [e0]; omega
  | ⟨1, _⟩ =>
    show win0_4.index ⟨(i 1).val / 128, _⟩ (1 : Fin 2) * 128 ≤ (i 1).val ∧ (i 1).val < win0_4.index ⟨(i 1).val / 128, _⟩ (1 : Fin 2) * 128 + 128
    rw [e1]; show (i 1).val / 128 * 128 ≤ (i 1).val ∧ (i 1).val < (i 1).val / 128 * 128 + 128; omega

/-- The output array after the run. -/
theorem final4 (c : Dev nD) (P : Fin 8 → Fin 6 → EReal)
    (hP : ∀ (t : Fin cfg0.N) (j : Fin 6) (l : Fin 128), outsAt0 (F := Ideal) m c t (ix2 j l) = P (batch t) j) :
    (dats m 0 c).arrAt 4 cfg0.N = outArr P :=
  (dats m 0 c).arrAt_eq_of_cover 4 (outArr P) (fun t _ => flushed_eq m c P hP t) cover4

end Cert.KSide

end
-- ==== Proof.KHostTail.lean ====
/-
  The host lines after the region, as mathematics.

  The region leaves a 6×1024 array `o`. The lines after it reshape it to 6×8×128, keep lane 0 of every
  (row, batch) pair, and sum each row over the eight batches from the float zero: row j's total is
  0 + ∑_b o (j, 128·b). From the six totals eleven scalar operations form the five results: with
  pos = max (s 0) 1, the coordinate term (s 1 / pos)·5, the object term (s 2 / pos)·1, the no-object term
  (s 3 / 32768)·½, the class term (s 4 / pos + (s 5 / 655360) / 2)·1, and their sum in that order.
  Each is the specification's function of the totals.
-/
import proofs.«134050_j14731737825397_2_alg».proof.Proof.Gen.KernelIdeal
import proofs.«134050_j14731737825397_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KSide

open Cert.KernelIdeal Cert.KernelIdeal.Gen
open Idealize.ShloMosaic Idealize.ShloMosaic.ValueIdx

/-! ## The operations, named -/

/-- Lane 0 of every (row, batch) pair of the 6×1024 array read as 6×8×128. -/
def hPicked (o : FVec Ideal S6x1024 .f32) : FVec Ideal S6x8 .f32 :=
  shapeCast S6x8 (extractStridedSlice S6x8x1 ![0, 0, 0] (shapeCast S6x8x128 o shapeCasts_S6x1024_S6x8x128) slices_S6x8x128_S6x8x1_0_0_0) shapeCasts_S6x8x1_S6x8

/-- The six totals: each row summed over the batches from the float zero. -/
def hTotals (o : FVec Ideal S6x1024 .f32) : FVec Ideal S6 .f32 :=
  Host.reduceAdd (F := Ideal) (hPicked o) (constant (F := Ideal) S_ .f32 0x00000000#32) reducesTo_S6x8_S6_d1 h_S_

/-- Total k as a scalar. -/
def hSc0 (s : FVec Ideal S6 .f32) : FVec Ideal S_ .f32 := shapeCast S_ (extractStridedSlice S1 ![0] s slices_S6_S1_0) shapeCasts_S1_S_
def hSc1 (s : FVec Ideal S6 .f32) : FVec Ideal S_ .f32 := shapeCast S_ (extractStridedSlice S1 ![1] s slices_S6_S1_1) shapeCasts_S1_S_
def hSc2 (s : FVec Ideal S6 .f32) : FVec Ideal S_ .f32 := shapeCast S_ (extractStridedSlice S1 ![2] s slices_S6_S1_2) shapeCasts_S1_S_
def hSc3 (s : FVec Ideal S6 .f32) : FVec Ideal S_ .f32 := shapeCast S_ (extractStridedSlice S1 ![3] s slices_S6_S1_3) shapeCasts_S1_S_
def hSc4 (s : FVec Ideal S6 .f32) : FVec Ideal S_ .f32 := shapeCast S_ (extractStridedSlice S1 ![4] s slices_S6_S1_4) shapeCasts_S1_S_
def hSc5 (s : FVec Ideal S6 .f32) : FVec Ideal S_ .f32 := shapeCast S_ (extractStridedSlice S1 ![5] s slices_S6_S1_5) shapeCasts_S1_S_

/-- The count of positives, at least one. -/
def hPos (s : FVec Ideal S6 .f32) : FVec Ideal S_ .f32 := maximumf (hSc0 s) (constant (F := Ideal) S_ .f32 0x3F800000#32)
/-- The coordinate term. -/
def hCoord (s : FVec Ideal S6 .f32) : FVec Ideal S_ .f32 :=
  mulf (Host.divf (F := Ideal) (hSc1 s) (hPos s)) (constant (F := Ideal) S_ .f32 0x40A00000#32)
/-- The object term. -/
def hObj (s : FVec Ideal S6 .f32) : FVec Ideal S_ .f32 :=
  mulf (Host.divf (F := Ideal) (hSc2 s) (hPos s)) (constant (F := Ideal) S_ .f32 0x3F800000#32)
/-- The no-object term. -/
def hNoobj (s : FVec Ideal S6 .f32) : FVec Ideal S_ .f32 :=
  mulf (Host.divf (F := Ideal) (hSc3 s) (constant (F := Ideal) S_ .f32 0x47000000#32)) (constant (F := Ideal) S_ .f32 0x3F000000#32)
/-- The class term. -/
def hCls (s : FVec Ideal S6 .f32) : FVec Ideal S_ .f32 :=
  mulf (addf (Host.divf (F := Ideal) (hSc4 s) (hPos s))
      (Host.divf (F := Ideal) (Host.divf (F := Ideal) (hSc5 s) (constant (F := Ideal) S_ .f32 0x49200000#32)) (constant (F := Ideal) S_ .f32 0x40000000#32)))
    (constant (F := Ideal) S_ .f32 0x3F800000#32)
/-- The loss. -/
def hLoss (s : FVec Ideal S6 .f32) : FVec Ideal S_ .f32 := addf (addf (addf (hCoord s) (hObj s)) (hNoobj s)) (hCls s)

/-! ## The totals -/

/-- Column 128·b: lane 0 of batch b's block of columns. -/
def col0 (b : Fin 8) : Fin 1024 := ⟨128 * b.val, by omega⟩

/-- The picked entry (j, b) is the array's entry (j, 128·b): the same row-major position through both reshapes. -/
theorem hPicked_apply (o : FVec Ideal S6x1024 .f32) (j : Fin 6) (b : Fin 8) :
    hPicked o (ix2 j b) = o (ix2 j (col0 b)) := by
  unfold hPicked
  refine (shapeCast_apply _ shapeCasts_S6x8x1_S6x8 (ix2 j b) (ix3 j b (0 : Fin 1)) ?_).trans ?_
  · rw [Shape.rowMajor_val_three, Shape.rowMajor_val_two]
    show (j.val * 8 + b.val) * 1 + 0 = j.val * 8 + b.val
    omega
  refine (extractStridedSlice_apply _ _ slices_S6x8x128_S6x8x1_0_0_0 (ix3 j b (0 : Fin 1)) (ix3 j b (0 : Fin 128)) ?_).trans ?_
  · intro a
    match a with
    | ⟨0, _⟩ => show j.val = 0 + j.val; omega
    | ⟨1, _⟩ => show b.val = 0 + b.val; omega
    | ⟨2, _⟩ => show 0 = 0 + 0; omega
  refine shapeCast_apply o shapeCasts_S6x1024_S6x8x128 (ix3 j b (0 : Fin 128)) (ix2 j (col0 b)) ?_
  rw [Shape.rowMajor_val_two, Shape.rowMajor_val_three]
  show j.val * 1024 + 128 * b.val = (j.val * 8 + b.val) * 128 + 0
  omega

/-- Row j's total, when the array's column 128·b of row j holds `P b j`: the float zero plus the sum over the batches. -/
theorem hTotals_apply (o : FVec Ideal S6x1024 .f32) (P : Fin 8 → Fin 6 → EReal)
    (h : ∀ (j : Fin 6) (b : Fin 8), o (ix2 j (col0 b)) = P b j) (j : Fin 6) :
    hTotals o (ix1 j) = Cert.Spec.w0 + ∑ b : Fin 8, P b j := by
  unfold hTotals
  generalize hy : hPicked o = y
  simp only [Host.reduceAdd, Ideal.hostReduceAdd_def]
  rw [Ideal.hostReduceAdd_single reducesTo_S6x8_S6_d1 (by decide)]
  refine congrArg (_ + ·) (Finset.sum_congr rfl fun b _ => ?_)
  subst hy
  refine Eq.trans ?_ ((hPicked_apply o j b).trans (h j b))
  exact congrArg (hPicked o) (funext fun a => Fin.ext (by match a with | ⟨0, _⟩ => rfl | ⟨1, _⟩ => rfl))

/-! ## The scalars -/

/-- Entry k of the totals, sliced out and reshaped to a scalar, is that entry. -/
theorem scalar_apply (s : FVec Ideal S6 .f32) (k : Fin 6) (off : Fin 1 → Nat) (hoff : off 0 = k.val) (h : S6.Slices off S1)
    (i : S_.Idx) : shapeCast S_ (extractStridedSlice S1 off s h) shapeCasts_S1_S_ i = s (ix1 k) := by
  refine (shapeCast_apply _ shapeCasts_S1_S_ i (ix1 (0 : Fin 1)) ?_).trans ?_
  · rw [Shape.rowMajor_val_one]
    show 0 = (Shape.rowMajorPi _ i).val
    rw [Shape.rowMajorPi_zero]
  exact extractStridedSlice_apply off s h (ix1 (0 : Fin 1)) (ix1 k) (fun a => by
    match a with
    | ⟨0, _⟩ => show k.val = off 0 + 0; omega)

section Results

variable (s : FVec Ideal S6 .f32) (σ : Fin 6 → EReal) (hs : ∀ j : Fin 6, s (ix1 j) = σ j)
include hs

theorem hSc0_apply (i : S_.Idx) : hSc0 s i = σ 0 := (scalar_apply s 0 _ rfl _ i).trans (hs 0)
theorem hSc1_apply (i : S_.Idx) : hSc1 s i = σ 1 := (scalar_apply s 1 _ rfl _ i).trans (hs 1)
theorem hSc2_apply (i : S_.Idx) : hSc2 s i = σ 2 := (scalar_apply s 2 _ rfl _ i).trans (hs 2)
theorem hSc3_apply (i : S_.Idx) : hSc3 s i = σ 3 := (scalar_apply s 3 _ rfl _ i).trans (hs 3)
theorem hSc4_apply (i : S_.Idx) : hSc4 s i = σ 4 := (scalar_apply s 4 _ rfl _ i).trans (hs 4)
theorem hSc5_apply (i : S_.Idx) : hSc5 s i = σ 5 := (scalar_apply s 5 _ rfl _ i).trans (hs 5)

theorem hPos_apply (i : S_.Idx) : hPos s i = Cert.Spec.posSum σ := by
  show max (hSc0 s i) (Ideal.ofBits .f32 0x3F800000#32) = _
  rw [hSc0_apply s σ hs]; rfl

theorem hCoord_eq : hCoord s = fun _ => Cert.Spec.lossCoord σ := by
  funext i
  show Ideal.div (hSc1 s i) (hPos s i) * Ideal.ofBits .f32 0x40A00000#32 = _
  rw [hSc1_apply s σ hs, hPos_apply s σ hs]; rfl

theorem hObj_eq : hObj s = fun _ => Cert.Spec.lossObj σ := by
  funext i
  show Ideal.div (hSc2 s i) (hPos s i) * Ideal.ofBits .f32 0x3F800000#32 = _
  rw [hSc2_apply s σ hs, hPos_apply s σ hs]; rfl

theorem hNoobj_eq : hNoobj s = fun _ => Cert.Spec.lossNoobj σ := by
  funext i
  show Ideal.div (hSc3 s i) (Ideal.ofBits .f32 0x47000000#32) * Ideal.ofBits .f32 0x3F000000#32 = _
  rw [hSc3_apply s σ hs]; rfl

theorem hCls_eq : hCls s = fun _ => Cert.Spec.lossCls σ := by
  funext i
  show (Ideal.div (hSc4 s i) (hPos s i) + Ideal.div (Ideal.div (hSc5 s i) (Ideal.ofBits .f32 0x49200000#32)) (Ideal.ofBits .f32 0x40000000#32))
    * Ideal.ofBits .f32 0x3F800000#32 = _
  rw [hSc4_apply s σ hs, hSc5_apply s σ hs, hPos_apply s σ hs]; rfl

theorem hLoss_eq : hLoss s = fun _ => Cert.Spec.loss σ := by
  unfold hLoss
  rw [hCoord_eq s σ hs, hObj_eq s σ hs, hNoobj_eq s σ hs, hCls_eq s σ hs]
  rfl

end Results

end Cert.KSide

end
-- ==== Proof.KHostTailRun.lean ====
/-
  The host lines after the region, run: whatever the buffers hold when the lines start, each of the five result
  buffers ends at the named operations of the tail applied to the region's output array.
-/
import proofs.«134050_j14731737825397_2_alg».proof.Proof.Gen.KernelIdeal.Launch
import proofs.«134050_j14731737825397_2_alg».proof.Proof.KHostTail
import Idealize.ShloMosaic.Lib.StableHlo.Run

noncomputable section

namespace Cert.KSide

open Cert.KernelIdeal Cert.KernelIdeal.Gen
open Idealize.ShloMosaic Idealize.ShloMosaic.TcCoe Idealize.ShloMosaic.ValueIdx Idealize.SL.Sem
open Idealize.ShloMosaic.Pipeline (Dat)

variable (W : Valuation τ sig (Elt Ideal))

theorem tail_v42 : StableHlo.after (hostOps1 (F := Ideal)) W (Proc.devRef .tc main_v42) = hLoss (hTotals (W (Proc.devRef .tc main_v11))) := by
  after_results_simp
  rfl

theorem tail_v30 : StableHlo.after (hostOps1 (F := Ideal)) W (Proc.devRef .tc main_v30) = hCoord (hTotals (W (Proc.devRef .tc main_v11))) := by
  after_results
  rfl

theorem tail_v32 : StableHlo.after (hostOps1 (F := Ideal)) W (Proc.devRef .tc main_v32) = hObj (hTotals (W (Proc.devRef .tc main_v11))) := by
  after_results
  rfl

theorem tail_v34 : StableHlo.after (hostOps1 (F := Ideal)) W (Proc.devRef .tc main_v34) = hNoobj (hTotals (W (Proc.devRef .tc main_v11))) := by
  after_results
  rfl

theorem tail_v39 : StableHlo.after (hostOps1 (F := Ideal)) W (Proc.devRef .tc main_v39) = hCls (hTotals (W (Proc.devRef .tc main_v11))) := by
  after_results_simp
  rfl

end Cert.KSide

end
-- ==== Proof.KHostRun.lean ====
/-
  The kernel program's run, read: for any per-batch values `P c b j` that the kernel body leaves in every lane of
  row j at the point of batch b, the five result buffers end at the specification's loss and its four terms of the
  six totals 0 + ∑_b P c b j, and the two arguments end as launched.

  The frame run leaves the region's output array at what the write-backs make of the points' blocks, which is the
  array holding batch col / 128's value at column col; every other buffer is as the lines after the region leave it
  from there. Those lines pick column 128·b of each row, sum over b from the float zero, and form the results.
-/
import proofs.«134050_j14731737825397_2_alg».proof.Proof.Gen.KernelIdeal.Frame
import proofs.«134050_j14731737825397_2_alg».proof.Proof.KHostBlocks
import proofs.«134050_j14731737825397_2_alg».proof.Proof.KHostArray
import proofs.«134050_j14731737825397_2_alg».proof.Proof.KHostTail
import proofs.«134050_j14731737825397_2_alg».proof.Proof.KHostTailRun
import Idealize.ShloMosaic.Lib.Pipeline.Value

noncomputable section

namespace Cert.KSide

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

section OneCore

variable (c : Dev nD) (P : Fin 8 → Fin 6 → EReal)
  (hP : ∀ (t : Fin cfg0.N) (j : Fin 6) (l : Fin 128), outsAt0 (F := Ideal) m c t (ix2 j l) = P (batch t) j)
include hP

/-- The lines after the region find the region's output array at `outArr P`. -/
theorem found_v11 :
    Pipeline.withArrays (cfgs 0).spec c (V0 m c) (fun w => (dats m 0 c).arrAt w (cfgs 0).N) (Proc.devRef .tc main_v11) = outArr P :=
  (Pipeline.withArrays_arr spec0 launch0.win.arr_inj c _ _ 4).trans (final4 m c P hP)

/-- The six totals of that array. -/
theorem totals_found (j : Fin 6) : hTotals (outArr P) (ix1 j) = Cert.Spec.w0 + ∑ b : Fin 8, P b j :=
  hTotals_apply (outArr P) P (fun j b => outArr_apply P j (col0 b) b (by show 128 * b.val / 128 = b.val; omega)) j

theorem tail_loss :
    Pipeline.afterTail₀ cfgs (dats m) 0 (V0 m) [hostOps1] c main_v42 = fun _ => Cert.Spec.loss (fun j => Cert.Spec.w0 + ∑ b : Fin 8, P b j) := by
  unfold Pipeline.afterTail₀
  show StableHlo.after hostOps1 _ (Proc.devRef .tc main_v42) = _
  refine (tail_v42 _).trans ?_
  refine (congrArg (fun o => hLoss (hTotals o)) (found_v11 m c P hP)).trans ?_
  exact hLoss_eq _ _ (totals_found m c P hP)

theorem tail_lossCoord :
    Pipeline.afterTail₀ cfgs (dats m) 0 (V0 m) [hostOps1] c main_v30 = fun _ => Cert.Spec.lossCoord (fun j => Cert.Spec.w0 + ∑ b : Fin 8, P b j) := by
  unfold Pipeline.afterTail₀
  show StableHlo.after hostOps1 _ (Proc.devRef .tc main_v30) = _
  refine (tail_v30 _).trans ?_
  refine (congrArg (fun o => hCoord (hTotals o)) (found_v11 m c P hP)).trans ?_
  exact hCoord_eq _ _ (totals_found m c P hP)

theorem tail_lossObj :
    Pipeline.afterTail₀ cfgs (dats m) 0 (V0 m) [hostOps1] c main_v32 = fun _ => Cert.Spec.lossObj (fun j => Cert.Spec.w0 + ∑ b : Fin 8, P b j) := by
  unfold Pipeline.afterTail₀
  show StableHlo.after hostOps1 _ (Proc.devRef .tc main_v32) = _
  refine (tail_v32 _).trans ?_
  refine (congrArg (fun o => hObj (hTotals o)) (found_v11 m c P hP)).trans ?_
  exact hObj_eq _ _ (totals_found m c P hP)

theorem tail_lossNoobj :
    Pipeline.afterTail₀ cfgs (dats m) 0 (V0 m) [hostOps1] c main_v34 = fun _ => Cert.Spec.lossNoobj (fun j => Cert.Spec.w0 + ∑ b : Fin 8, P b j) := by
  unfold Pipeline.afterTail₀
  show StableHlo.after hostOps1 _ (Proc.devRef .tc main_v34) = _
  refine (tail_v34 _).trans ?_
  refine (congrArg (fun o => hNoobj (hTotals o)) (found_v11 m c P hP)).trans ?_
  exact hNoobj_eq _ _ (totals_found m c P hP)

theorem tail_lossCls :
    Pipeline.afterTail₀ cfgs (dats m) 0 (V0 m) [hostOps1] c main_v39 = fun _ => Cert.Spec.lossCls (fun j => Cert.Spec.w0 + ∑ b : Fin 8, P b j) := by
  unfold Pipeline.afterTail₀
  show StableHlo.after hostOps1 _ (Proc.devRef .tc main_v39) = _
  refine (tail_v39 _).trans ?_
  refine (congrArg (fun o => hCls (hTotals o)) (found_v11 m c P hP)).trans ?_
  exact hCls_eq _ _ (totals_found m c P hP)

end OneCore

/-- The kernel program's run. -/
theorem kernel_run (P : Dev nD → Fin 8 → Fin 6 → EReal)
    (hP : ∀ (c : Dev nD) (t : Fin cfg0.N) (j : Fin 6) (l : Fin 128), outsAt0 (F := Ideal) m c t (ix2 j l) = P c (batch t) j) :
    θ_run (defs (F := Ideal)) (onTc (τ := τ) (main (F := Ideal))) ⟨m, fun _ => 0, ρ⟩ (fun r => ∀ c : Dev nD,
      r.2.mem ((c.tc : Thread nD τ).loc main_v42) = (fun _ => Cert.Spec.loss (fun j => Cert.Spec.w0 + ∑ b : Fin 8, P c b j))
      ∧ r.2.mem ((c.tc : Thread nD τ).loc main_v30) = (fun _ => Cert.Spec.lossCoord (fun j => Cert.Spec.w0 + ∑ b : Fin 8, P c b j))
      ∧ r.2.mem ((c.tc : Thread nD τ).loc main_v32) = (fun _ => Cert.Spec.lossObj (fun j => Cert.Spec.w0 + ∑ b : Fin 8, P c b j))
      ∧ r.2.mem ((c.tc : Thread nD τ).loc main_v34) = (fun _ => Cert.Spec.lossNoobj (fun j => Cert.Spec.w0 + ∑ b : Fin 8, P c b j))
      ∧ r.2.mem ((c.tc : Thread nD τ).loc main_v39) = (fun _ => Cert.Spec.lossCls (fun j => Cert.Spec.w0 + ∑ b : Fin 8, P c b j))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v42 (Pipeline.mem_restRefs_of main_v42 (by decide) (by decide))).trans (tail_loss m c (P c) (hP c)),
     ((h c).2 main_v30 (Pipeline.mem_restRefs_of main_v30 (by decide) (by decide))).trans (tail_lossCoord m c (P c) (hP c)),
     ((h c).2 main_v32 (Pipeline.mem_restRefs_of main_v32 (by decide) (by decide))).trans (tail_lossObj m c (P c) (hP c)),
     ((h c).2 main_v34 (Pipeline.mem_restRefs_of main_v34 (by decide) (by decide))).trans (tail_lossNoobj m c (P c) (hP c)),
     ((h c).2 main_v39 (Pipeline.mem_restRefs_of main_v39 (by decide) (by decide))).trans (tail_lossCls m c (P c) (hP c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KSide

end
-- ==== Proof.KHostKeys.lean ====
/-
  The kernel's third and fourth input blocks, read at an index.

  Window 2's array is the label's two point channels transposed (0, 3, 2, 1) and reshaped to 8×4096×2: entry
  (b, k, c) is the label at (b, 21 + c, k % 64, k / 64) — the key points listed column-major. Window 3's array is
  the validity of the label's point at each pixel — the larger of the two coordinates exceeds 0.01 — reshaped
  8×64×64 → 8×4096 (entry (b, k) is pixel (k / 64, k % 64): row-major), converted to 0 / 1 and given a unit last axis.
  A block of either window at point t is batch t of its array.
-/
import proofs.«134050_j14731737825397_2_alg».proof.Proof.Gen.KernelIdeal.Frame
import proofs.«134050_j14731737825397_2_alg».proof.Proof.Spec
import proofs.«134050_j14731737825397_2_alg».proof.Proof.KHostBlocks
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Reduce

noncomputable section

namespace Cert.KSide

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The key points -/

/-- The host's key-point array of an argument `x`. -/
def hKeys (x : FVec Ideal S8x23x64x64 .f32) : FVec Ideal S8x4096x2 .f32 :=
  shapeCast S8x4096x2 (transpose S8x64x64x2 [0, 3, 2, 1] (extractStridedSlice S8x2x64x64 ![0, 21, 0, 0] x slices_S8x23x64x64_S8x2x64x64_0_21_0_0)
    transposes_S8x2x64x64_S8x64x64x2_0_3_2_1) shapeCasts_S8x64x64x2_S8x4096x2

/-- Entry (b, k, c) of the key-point array is the argument at (b, 21 + c, k % 64, k / 64). -/
theorem hKeys_apply (x : FVec Ideal S8x23x64x64 .f32) (b : Fin 8) (k : Fin 4096) (cc : Fin 2) :
    hKeys x (ix3 b k cc) = Cert.Spec.keyPt x b k cc := by
  unfold hKeys Cert.Spec.keyPt
  refine (shapeCast_apply _ shapeCasts_S8x64x64x2_S8x4096x2 (ix3 b k cc)
    (ix4 b (⟨k.val / 64, by omega⟩ : Fin 64) (⟨k.val % 64, by omega⟩ : Fin 64) cc) ?_).trans ?_
  · rw [Shape.rowMajor_val_four, Shape.rowMajor_val_three]
    show ((b.val * 64 + k.val / 64) * 64 + k.val % 64) * 2 + cc.val = (b.val * 4096 + k.val) * 2 + cc.val
    omega
  refine (transpose_apply [0, 3, 2, 1] _ transposes_S8x2x64x64_S8x64x64x2_0_3_2_1
    (ix4 b (⟨k.val / 64, by omega⟩ : Fin 64) (⟨k.val % 64, by omega⟩ : Fin 64) cc)
    (ix4 b cc (⟨k.val % 64, by omega⟩ : Fin 64) (⟨k.val / 64, by omega⟩ : Fin 64)) ?_).trans ?_
  · intro a
    match a with
    | ⟨0, _⟩ => rfl
    | ⟨1, _⟩ => rfl
    | ⟨2, _⟩ => rfl
    | ⟨3, _⟩ => rfl
  refine extractStridedSlice_apply _ x slices_S8x23x64x64_S8x2x64x64_0_21_0_0
    (ix4 b cc (⟨k.val % 64, by omega⟩ : Fin 64) (⟨k.val / 64, by omega⟩ : Fin 64))
    (ix4 b (Cert.Spec.chXy cc) (⟨k.val % 64, by omega⟩ : Fin 64) (⟨k.val / 64, by omega⟩ : Fin 64)) ?_
  intro a
  match a with
  | ⟨0, _⟩ => show b.val = 0 + b.val; omega
  | ⟨1, _⟩ => show 21 + cc.val = 21 + cc.val; rfl
  | ⟨2, _⟩ => show k.val % 64 = 0 + k.val % 64; omega
  | ⟨3, _⟩ => show k.val / 64 = 0 + k.val / 64; omega

/-- What the region finds in its third window's array: the key points of the second argument. -/
theorem V_main_v4 (c : Dev nD) : (V m c main_v4 : S8x4096x2.Idx → EReal) = hKeys (arg1 m c) := by
  show StableHlo.after hostOps0 (fun b => m (c, b)) (Proc.devRef .tc main_v4) = _
  after_results
  rfl

theorem emb2 (t : Fin cfg0.N) (k : Fin 4096) (cc : Fin 2) :
    ((cfg0.win 2).blk t).view.emb (ix3 (0 : Fin 1) k cc) = (ix3 (batch t) k cc : S8x4096x2.Idx) := by
  obtain ⟨-, -, -, -, -, -, e0, e1, e2, -⟩ := idx_facts t
  funext a; apply Fin.ext
  match a with
  | ⟨0, _⟩ => show win0_2.index t (0 : Fin 3) * 1 + 1 * 0 = t.val; omega
  | ⟨1, _⟩ => show win0_2.index t (1 : Fin 3) * 4096 + 1 * k.val = k.val; omega
  | ⟨2, _⟩ => show win0_2.index t (2 : Fin 3) * 2 + 1 * cc.val = cc.val; omega

/-- Window 2's block at point t reads batch t's key points. -/
theorem blk2 (c : Dev nD) (t : Fin cfg0.N) (k : Fin 4096) (cc : Fin 2) :
    iblk (F := Ideal) m c 2 t (ix3 (0 : Fin 1) k cc) = Cert.Spec.keyPt (arg1 m c) (batch t) k cc := by
  unfold iblk
  rw [View.read_apply]
  show (V m c main_v4 : S8x4096x2.Idx → EReal) (((cfg0.win 2).blk t).view.emb (ix3 (0 : Fin 1) k cc)) = _
  rw [emb2, V_main_v4, hKeys_apply]

/-! ## The keys' validity -/

/-- The host's validity array of an argument `x`, as 0 / 1 with a unit last axis. -/
def hValid (x : FVec Ideal S8x23x64x64 .f32) : FVec Ideal S8x4096x1 .f32 :=
  broadcastInDim S8x4096x1 ![0, 1] bcast_S8x4096_S8x4096x1_0_1
    (uitofp (F := Ideal) .f32
      (shapeCast S8x4096
        (cmpf .ogt
          (Host.reduce FloatOps.maximumf (extractStridedSlice S8x2x64x64 ![0, 21, 0, 0] x slices_S8x23x64x64_S8x2x64x64_0_21_0_0)
            (constant (F := Ideal) S_ .f32 0xFF800000#32) reducesTo_S8x2x64x64_S8x64x64_d1 h_S_)
          (broadcastInDim S8x64x64 ![] bcast_S_S8x64x64 (constant (F := Ideal) S_ .f32 0x3C23D70A#32)))
        shapeCasts_S8x64x64_S8x4096))

/-- The larger coordinate of the label's point at pixel (p, q) of batch b. -/
theorem maxXy_apply (x : FVec Ideal S8x23x64x64 .f32) (b : Fin 8) (k : Fin 4096) :
    Host.reduce FloatOps.maximumf (extractStridedSlice S8x2x64x64 ![0, 21, 0, 0] x slices_S8x23x64x64_S8x2x64x64_0_21_0_0)
        (constant (F := Ideal) S_ .f32 0xFF800000#32) reducesTo_S8x2x64x64_S8x64x64_d1 h_S_
        (ix3 b (⟨k.val / 64, by omega⟩ : Fin 64) (⟨k.val % 64, by omega⟩ : Fin 64))
      = (Finset.univ : Finset (Fin 2)).fold max (Ideal.ofBits .f32 0xFF800000#32) (fun c => Cert.Spec.pix x b (Cert.Spec.chXy c) k) := by
  have h : S8x2x64x64.Reduces [1] S8x64x64 := by decide
  rw [Host.reduce_eq_fold_single FloatOps.maximumf _ _ reducesTo_S8x2x64x64_S8x64x64_d1 h h_S_]
  refine congrArg (fun f => Finset.fold max (Ideal.ofBits .f32 0xFF800000#32) f (Finset.univ : Finset (Fin 2))) ?_
  funext c
  unfold Cert.Spec.pix
  refine extractStridedSlice_apply _ x slices_S8x23x64x64_S8x2x64x64_0_21_0_0 _
    (ix4 b (Cert.Spec.chXy c) (⟨k.val / 64, by omega⟩ : Fin 64) (⟨k.val % 64, by omega⟩ : Fin 64)) ?_
  intro a
  match a with
  | ⟨0, _⟩ => show b.val = 0 + b.val; omega
  | ⟨1, _⟩ => show 21 + c.val = 21 + c.val; rfl
  | ⟨2, _⟩ => show k.val / 64 = 0 + k.val / 64; omega
  | ⟨3, _⟩ => show k.val % 64 = 0 + k.val % 64; omega

/-- Entry (b, k, 0) of the validity array is 1 when key k of batch b is valid, else 0. -/
theorem hValid_apply (x : FVec Ideal S8x23x64x64 .f32) (b : Fin 8) (k : Fin 4096) :
    hValid x (ix3 b k (0 : Fin 1)) = (((Cert.Spec.keyValid x b k).toNat : ℝ) : EReal) := by
  unfold hValid
  refine (broadcastInDim_apply _ bcast_S8x4096_S8x4096x1_0_1 _ (ix3 b k (0 : Fin 1)) (ix2 b k) (fun a => ?_)).trans ?_
  · match a with
    | ⟨0, _⟩ => show b.val = if (8 : Nat) = 1 then 0 else b.val; rw [if_neg (by decide)]
    | ⟨1, _⟩ => show k.val = if (4096 : Nat) = 1 then 0 else k.val; rw [if_neg (by decide)]
  refine congrArg (fun v : BitVec 1 => ((v.toNat : ℝ) : EReal)) ?_
  refine (shapeCast_apply _ shapeCasts_S8x64x64_S8x4096 (ix2 b k)
    (ix3 b (⟨k.val / 64, by omega⟩ : Fin 64) (⟨k.val % 64, by omega⟩ : Fin 64)) ?_).trans ?_
  · rw [Shape.rowMajor_val_three, Shape.rowMajor_val_two]
    show (b.val * 64 + k.val / 64) * 64 + k.val % 64 = b.val * 4096 + k.val
    omega
  unfold Cert.Spec.keyValid
  rw [cmpf_apply, maxXy_apply]
  refine congrArg (Ideal.cmp .ogt _) ?_
  exact broadcastInDim_apply _ bcast_S_S8x64x64 _ _ ix0 (fun a => a.elim0)

/-- What the region finds in its fourth window's array: the validity of the second argument's keys. -/
theorem V_main_v10 (c : Dev nD) : (V m c main_v10 : S8x4096x1.Idx → EReal) = hValid (arg1 m c) := by
  show StableHlo.after hostOps0 (fun b => m (c, b)) (Proc.devRef .tc main_v10) = _
  after_results
  rfl

theorem emb3 (t : Fin cfg0.N) (k : Fin 4096) :
    ((cfg0.win 3).blk t).view.emb (ix3 (0 : Fin 1) k (0 : Fin 1)) = (ix3 (batch t) k (0 : Fin 1) : S8x4096x1.Idx) := by
  obtain ⟨-, -, -, -, -, -, -, -, -, e0, e1, e2, -⟩ := idx_facts t
  funext a; apply Fin.ext
  match a with
  | ⟨0, _⟩ => show win0_3.index t (0 : Fin 3) * 1 + 1 * 0 = t.val; omega
  | ⟨1, _⟩ => show win0_3.index t (1 : Fin 3) * 4096 + 1 * k.val = k.val; omega
  | ⟨2, _⟩ => show win0_3.index t (2 : Fin 3) * 1 + 1 * 0 = 0; omega

/-- Window 3's block at point t reads batch t's key validity, as 0 / 1. -/
theorem blk3 (c : Dev nD) (t : Fin cfg0.N) (k : Fin 4096) :
    iblk (F := Ideal) m c 3 t (ix3 (0 : Fin 1) k (0 : Fin 1)) = (((Cert.Spec.keyValid (arg1 m c) (batch t) k).toNat : ℝ) : EReal) := by
  unfold iblk
  rw [View.read_apply]
  show (V m c main_v10 : S8x4096x1.Idx → EReal) (((cfg0.win 3).blk t).view.emb (ix3 (0 : Fin 1) k (0 : Fin 1))) = _
  rw [emb3, V_main_v10, hValid_apply]

end Cert.KSide

end
-- ==== Proof.KRows.lean ====
/-
  Six row stores into a 6×128 buffer: the buffer read at (j, l) is what the store into row j wrote at lane l,
  whatever the order of the stores.
-/
import Idealize.ShloMosaic.Lib.Pipeline.Value
import Idealize.ShloMosaic.Lib.ValueIdx

noncomputable section

namespace Cert.KBody

open Idealize.ShloMosaic Idealize.ShloMosaic.ValueIdx

abbrev SOut : Shape := ⟨2, ![6, 128]⟩
abbrev SRow : Shape := ⟨2, ![1, 128]⟩

variable {Val : EltTy → Type} [∀ e, Nonempty (Val e)] {e : EltTy}

/-- Row `j` of the buffer, as a rectangle. -/
abbrev rowRect (j : Nat) (inb : ∀ a, (![j, 0] : Fin 2 → Nat) a + SRow.size a ≤ SOut.size a) : Rect SOut :=
  Rect.unit (s := SOut) ![j, 0] SRow.size inb

theorem row_emb (j : Nat) (jf : Fin 6) (hj : jf.val = j) (inb) (l : Fin 128) :
    (rowRect j inb).emb (ix2 (0 : Fin 1) l) = ix2 jf l := by
  funext a; apply Fin.ext
  rw [Rect.emb_apply]
  match a with
  | ⟨0, _⟩ => show j + 1 * 0 = jf.val; omega
  | ⟨1, _⟩ => show 0 + 1 * l.val = l.val; omega

theorem row_not_mem (jf : Fin 6) (j' : Nat) (inb) (l : Fin 128) (h : jf.val ≠ j') : ix2 jf l ∉ (rowRect j' inb).set := by
  rw [Rect.mem_set_unit]
  intro hm
  have h0 := hm (0 : Fin 2)
  have e0 : ((ix2 jf l : SOut.Idx) (0 : Fin 2) : Nat) = jf.val := rfl
  have e1 : (![j', 0] : Fin 2 → Nat) 0 = j' := rfl
  have e2 : SRow.size (0 : Fin 2) = 1 := rfl
  rw [e0, e1, e2] at h0
  omega

/-! The six rows, stored last first 5, 4, 3, 2, 1, 0: each row reads back its own store. -/

section Rows
variable (p5 p4 p3 p2 p1 p0 : SRow.Idx → Val e) (i5 : ∀ a, (![5, 0] : Fin 2 → Nat) a + SRow.size a ≤ SOut.size a)
  (i4 : ∀ a, (![4, 0] : Fin 2 → Nat) a + SRow.size a ≤ SOut.size a) (i3 : ∀ a, (![3, 0] : Fin 2 → Nat) a + SRow.size a ≤ SOut.size a)
  (i2 : ∀ a, (![2, 0] : Fin 2 → Nat) a + SRow.size a ≤ SOut.size a) (i1 : ∀ a, (![1, 0] : Fin 2 → Nat) a + SRow.size a ≤ SOut.size a)
  (i0 : ∀ a, (![0, 0] : Fin 2 → Nat) a + SRow.size a ≤ SOut.size a) (l : Fin 128)

abbrev rows1 : List (View.Piece Val SOut e) := [⟨rowRect 0 i0, p0⟩]
abbrev rows2 : List (View.Piece Val SOut e) := ⟨rowRect 1 i1, p1⟩ :: rows1 p0 i0
abbrev rows3 : List (View.Piece Val SOut e) := ⟨rowRect 2 i2, p2⟩ :: rows2 p1 p0 i1 i0
abbrev rows4 : List (View.Piece Val SOut e) := ⟨rowRect 3 i3, p3⟩ :: rows3 p2 p1 p0 i2 i1 i0
abbrev rows5 : List (View.Piece Val SOut e) := ⟨rowRect 4 i4, p4⟩ :: rows4 p3 p2 p1 p0 i3 i2 i1 i0
abbrev rows6 : List (View.Piece Val SOut e) := ⟨rowRect 5 i5, p5⟩ :: rows5 p4 p3 p2 p1 p0 i4 i3 i2 i1 i0

theorem canon_row5 : View.canon (rows6 p5 p4 p3 p2 p1 p0 i5 i4 i3 i2 i1 i0) (ix2 (5 : Fin 6) l) = p5 (ix2 (0 : Fin 1) l) := by
  have he := View.canon_cons_emb (Val := Val) (rowRect 5 i5) p5 (rows5 p4 p3 p2 p1 p0 i4 i3 i2 i1 i0) (ix2 (0 : Fin 1) l)
  rw [row_emb 5 (5 : Fin 6) rfl i5 l] at he
  exact he

theorem canon_row4 : View.canon (rows6 p5 p4 p3 p2 p1 p0 i5 i4 i3 i2 i1 i0) (ix2 (4 : Fin 6) l) = p4 (ix2 (0 : Fin 1) l) := by
  have he := View.canon_cons_emb (Val := Val) (rowRect 4 i4) p4 (rows4 p3 p2 p1 p0 i3 i2 i1 i0) (ix2 (0 : Fin 1) l)
  rw [row_emb 4 (4 : Fin 6) rfl i4 l] at he
  exact (View.canon_cons_of_not_mem (⟨rowRect 5 i5, p5⟩ : View.Piece Val SOut e) (rows5 p4 p3 p2 p1 p0 i4 i3 i2 i1 i0)
    (row_not_mem (4 : Fin 6) 5 i5 l (by decide))).trans he

theorem canon_row3 : View.canon (rows6 p5 p4 p3 p2 p1 p0 i5 i4 i3 i2 i1 i0) (ix2 (3 : Fin 6) l) = p3 (ix2 (0 : Fin 1) l) := by
  have he := View.canon_cons_emb (Val := Val) (rowRect 3 i3) p3 (rows3 p2 p1 p0 i2 i1 i0) (ix2 (0 : Fin 1) l)
  rw [row_emb 3 (3 : Fin 6) rfl i3 l] at he
  exact ((View.canon_cons_of_not_mem (⟨rowRect 5 i5, p5⟩ : View.Piece Val SOut e) (rows5 p4 p3 p2 p1 p0 i4 i3 i2 i1 i0)
    (row_not_mem (3 : Fin 6) 5 i5 l (by decide))).trans
    (View.canon_cons_of_not_mem (⟨rowRect 4 i4, p4⟩ : View.Piece Val SOut e) (rows4 p3 p2 p1 p0 i3 i2 i1 i0)
    (row_not_mem (3 : Fin 6) 4 i4 l (by decide)))).trans he

theorem canon_row2 : View.canon (rows6 p5 p4 p3 p2 p1 p0 i5 i4 i3 i2 i1 i0) (ix2 (2 : Fin 6) l) = p2 (ix2 (0 : Fin 1) l) := by
  have he := View.canon_cons_emb (Val := Val) (rowRect 2 i2) p2 (rows2 p1 p0 i1 i0) (ix2 (0 : Fin 1) l)
  rw [row_emb 2 (2 : Fin 6) rfl i2 l] at he
  exact (((View.canon_cons_of_not_mem (⟨rowRect 5 i5, p5⟩ : View.Piece Val SOut e) (rows5 p4 p3 p2 p1 p0 i4 i3 i2 i1 i0)
    (row_not_mem (2 : Fin 6) 5 i5 l (by decide))).trans
    (View.canon_cons_of_not_mem (⟨rowRect 4 i4, p4⟩ : View.Piece Val SOut e) (rows4 p3 p2 p1 p0 i3 i2 i1 i0)
    (row_not_mem (2 : Fin 6) 4 i4 l (by decide)))).trans
    (View.canon_cons_of_not_mem (⟨rowRect 3 i3, p3⟩ : View.Piece Val SOut e) (rows3 p2 p1 p0 i2 i1 i0)
    (row_not_mem (2 : Fin 6) 3 i3 l (by decide)))).trans he

theorem canon_row1 : View.canon (rows6 p5 p4 p3 p2 p1 p0 i5 i4 i3 i2 i1 i0) (ix2 (1 : Fin 6) l) = p1 (ix2 (0 : Fin 1) l) := by
  have he := View.canon_cons_emb (Val := Val) (rowRect 1 i1) p1 (rows1 p0 i0) (ix2 (0 : Fin 1) l)
  rw [row_emb 1 (1 : Fin 6) rfl i1 l] at he
  exact ((((View.canon_cons_of_not_mem (⟨rowRect 5 i5, p5⟩ : View.Piece Val SOut e) (rows5 p4 p3 p2 p1 p0 i4 i3 i2 i1 i0)
    (row_not_mem (1 : Fin 6) 5 i5 l (by decide))).trans
    (View.canon_cons_of_not_mem (⟨rowRect 4 i4, p4⟩ : View.Piece Val SOut e) (rows4 p3 p2 p1 p0 i3 i2 i1 i0)
    (row_not_mem (1 : Fin 6) 4 i4 l (by decide)))).trans
    (View.canon_cons_of_not_mem (⟨rowRect 3 i3, p3⟩ : View.Piece Val SOut e) (rows3 p2 p1 p0 i2 i1 i0)
    (row_not_mem (1 : Fin 6) 3 i3 l (by decide)))).trans
    (View.canon_cons_of_not_mem (⟨rowRect 2 i2, p2⟩ : View.Piece Val SOut e) (rows2 p1 p0 i1 i0)
    (row_not_mem (1 : Fin 6) 2 i2 l (by decide)))).trans he

theorem canon_row0 : View.canon (rows6 p5 p4 p3 p2 p1 p0 i5 i4 i3 i2 i1 i0) (ix2 (0 : Fin 6) l) = p0 (ix2 (0 : Fin 1) l) := by
  have he := View.canon_cons_emb (Val := Val) (rowRect 0 i0) p0 [] (ix2 (0 : Fin 1) l)
  rw [row_emb 0 (0 : Fin 6) rfl i0 l] at he
  exact (((((View.canon_cons_of_not_mem (⟨rowRect 5 i5, p5⟩ : View.Piece Val SOut e) (rows5 p4 p3 p2 p1 p0 i4 i3 i2 i1 i0)
    (row_not_mem (0 : Fin 6) 5 i5 l (by decide))).trans
    (View.canon_cons_of_not_mem (⟨rowRect 4 i4, p4⟩ : View.Piece Val SOut e) (rows4 p3 p2 p1 p0 i3 i2 i1 i0)
    (row_not_mem (0 : Fin 6) 4 i4 l (by decide)))).trans
    (View.canon_cons_of_not_mem (⟨rowRect 3 i3, p3⟩ : View.Piece Val SOut e) (rows3 p2 p1 p0 i2 i1 i0)
    (row_not_mem (0 : Fin 6) 3 i3 l (by decide)))).trans
    (View.canon_cons_of_not_mem (⟨rowRect 2 i2, p2⟩ : View.Piece Val SOut e) (rows2 p1 p0 i1 i0)
    (row_not_mem (0 : Fin 6) 2 i2 l (by decide)))).trans
    (View.canon_cons_of_not_mem (⟨rowRect 1 i1, p1⟩ : View.Piece Val SOut e) (rows1 p0 i0)
    (row_not_mem (0 : Fin 6) 1 i1 l (by decide)))).trans he

end Rows

end Cert.KBody

end
-- ==== Proof.KRun.lean ====
/-
  What one grid point of the kernel leaves in its 6×128 output block, as six named row payloads of the four input
  blocks: the body's stores are six row stores (rows 0…5), and the loop over the 32 key tiles carries the running
  minimum `minAfter`, which after tile k is the payload of one trip applied to the minimum before it and to the tile's
  128 keys and their validities.
-/
import proofs.«134050_j14731737825397_2_alg».proof.Proof.Gen.KernelIdeal.Frame
import proofs.«134050_j14731737825397_2_alg».proof.Proof.KRows
import Idealize.ShloMosaic.Lib.Pipeline.Value
import Idealize.ShloMosaic.Lib.ValueIdx

set_option maxRecDepth 16384

noncomputable section

namespace Cert.KBody

open Cert.KernelIdeal Cert.KernelIdeal.Gen Idealize.ShloMosaic Idealize.ShloMosaic.ValueIdx Idealize.ShloMosaic.Tactic
open Idealize.SL.Sem

variable {F : FTy → Type} [FloatOps F] [Named F]

/-! ## The loop over the key tiles -/

/-- The 128 keys of tile `k`, and their validities. -/
def keyTile (x2 : Vec F S1x4096x2 .f32) (k : Fin k0_t1_loop.trips) : Vec F S1x128x2 .f32 :=
  View.ld x2 (Rect.unit (s := S1x4096x2) (k0_off1 k) S1x128x2.size (k0_off1_inb k))
def validTile (x3 : Vec F S1x4096x1 .f32) (k : Fin k0_t1_loop.trips) : Vec F S1x128x1 .f32 :=
  View.ld x3 (Rect.unit (s := S1x4096x1) (k0_off2 k) S1x128x1.size (k0_off2_inb k))

/-- The running minimum before tile `k`. -/
def minAfter (v6 : FVec F S2x4096 .f32) (x2 : Vec F S1x4096x2 .f32) (x3 : Vec F S1x4096x1 .f32) : ℕ → FVec F S1x4096 .f32
  | 0 => k0_pay19
  | k + 1 => if h : k < k0_t1_loop.trips then k0_pay20 v6 (minAfter v6 x2 x3 k) (keyTile x2 ⟨k, h⟩) (validTile x3 ⟨k, h⟩)
      else minAfter v6 x2 x3 k

/-- One trip's result is the trip's payload of the carried value and the two loads. -/
theorem tripR_eq (𝒱 : Variants) (c : Dev nD) (bd : Option 𝒱.V) (i : grid0.Coords) (arg1 : Memref sig .tc .vmem S1x23x4096 .f32) (harg1 : arg1.IsWhole) (arg2 : Memref sig .tc .vmem S1x23x4096 .f32) (harg2 : arg2.IsWhole) (arg3 : Memref sig .tc .vmem S1x4096x2 .f32) (harg3 : arg3.IsWhole) (arg4 : Memref sig .tc .vmem S1x4096x1 .f32) (harg4 : arg4.IsWhole) (arg5 : Memref sig .tc .vmem S6x128 .f32) (harg5 : arg5.IsWhole) (v6 : FVec F S2x4096 .f32) (v7 : FVec F S1x4096 .f32) (v34 : FVec F S1x4096 .f32) (v71 : FVec F S1x1 .f32) (v74 : FVec F S1x1 .f32) (v77 : FVec F S1x1 .f32) (v83 : FVec F S1x1 .f32) (v87 : FVec F S20x4096 .f32) (X_arg3 : BufTy.Contents (Elt F) arg3.view.ty) (X_arg4 : BufTy.Contents (Elt F) arg4.view.ty) (k : Fin k0_t1_loop.trips) (acc : FVec F S1x4096 .f32) :
    tripR_k0_t1 (F := F) 𝒱 c bd i arg1 harg1 arg2 harg2 arg3 harg3 arg4 harg4 arg5 harg5 v6 v7 v34 v71 v74 v77 v83 v87 X_arg3 X_arg4 k acc
      = k0_pay20 v6 acc (View.readAt (Elt F) arg3.view (Rect.unit (s := S1x4096x2) (k0_off1 k) S1x128x2.size (k0_off1_inb k)).toLoadRect X_arg3)
          (View.readAt (Elt F) arg4.view (Rect.unit (s := S1x4096x1) (k0_off2 k) S1x128x1.size (k0_off2_inb k)).toLoadRect X_arg4) := by
  unfold tripR_k0_t1 trip_k0_t1
  rfl

/-- The loop's carried value before trip `k` is the running minimum. -/
theorem st_eq (𝒱 : Variants) (c : Dev nD) (bd : Option 𝒱.V) (i : grid0.Coords) (arg1 : Memref sig .tc .vmem S1x23x4096 .f32) (harg1 : arg1.IsWhole) (arg2 : Memref sig .tc .vmem S1x23x4096 .f32) (harg2 : arg2.IsWhole) (arg3 : Memref sig .tc .vmem S1x4096x2 .f32) (harg3 : arg3.IsWhole) (arg4 : Memref sig .tc .vmem S1x4096x1 .f32) (harg4 : arg4.IsWhole) (arg5 : Memref sig .tc .vmem S6x128 .f32) (harg5 : arg5.IsWhole) (v6 : FVec F S2x4096 .f32) (v7 : FVec F S1x4096 .f32) (v34 : FVec F S1x4096 .f32) (v71 : FVec F S1x1 .f32) (v74 : FVec F S1x1 .f32) (v77 : FVec F S1x1 .f32) (v83 : FVec F S1x1 .f32) (v87 : FVec F S20x4096 .f32) (x2 : Vec F S1x4096x2 .f32) (x3 : Vec F S1x4096x1 .f32) (k : ℕ) :
    st_k0_t1 (F := F) 𝒱 c bd i arg1 harg1 arg2 harg2 arg3 harg3 arg4 harg4 arg5 harg5 v6 v7 v34 v71 v74 v77 v83 v87 (harg3.unread x2) (harg4.unread x3) k0_pay19 k
      = minAfter v6 x2 x3 k := by
  induction k with
  | zero => rfl
  | succ k ih =>
    rw [st_k0_t1.eq_2]; unfold st_k0_t1Step
    rw [minAfter]
    by_cases h : k < k0_t1_loop.trips
    · rw [dif_pos h, dif_pos h, tripR_eq, ih, View.readAt_eq_ld, View.readAt_eq_ld, harg3.read_unread, harg4.read_unread]
      rfl
    · rw [dif_neg h, dif_neg h, ih]

/-! ## The six rows of the output block -/

section Rows
variable (x0 x1 : Vec F S1x23x4096 .f32) (x2 : Vec F S1x4096x2 .f32) (x3 : Vec F S1x4096x1 .f32)

/-- Row 0: the count of positives; row 1: the coordinate loss; row 2: the objectness loss on objects; row 3: the
    objectness loss off objects under the mask; row 4: the class loss on objects; row 5: the class loss off objects —
    each a sum over the batch's pixels laid along the 128 lanes. -/
def rowPos : FVec F S1x128 .f32 := k0_pay21 (k0_pay13 (k0_pay6 x1))
def rowCoord : FVec F S1x128 .f32 := k0_pay22 (k0_pay14 (k0_pay5 x0) (k0_pay6 x1) (k0_pay8 x1))
def rowObj : FVec F S1x128 .f32 := k0_pay23 (k0_pay15 (k0_pay6 x1) (k0_pay9 x0 x1))
def rowNoobj : FVec F S1x128 .f32 :=
  k0_pay24 (k0_pay6 x1) (k0_pay9 x0 x1) (minAfter (k0_pay5 x0) x2 x3 k0_t1_loop.trips)
def rowClsObj : FVec F S1x128 .f32 :=
  k0_pay25 (k0_pay16 (k0_pay4 x0) (k0_pay6 x1) (k0_pay7 x1) (k0_pay10 x0 x1) (k0_pay11 x0))
def rowClsNoobj : FVec F S1x128 .f32 :=
  k0_pay1 (k0_pay18 (k0_pay17 (k0_pay4 x0) (k0_pay6 x1) (k0_pay7 x1) (k0_pay10 x0 x1) (k0_pay11 x0)))

theorem zero3 : (![0, 0, 0] : Fin 3 → Nat) = fun _ => 0 := by
  funext a; match a with | ⟨0, _⟩ => rfl | ⟨1, _⟩ => rfl | ⟨2, _⟩ => rfl

/-- What the body leaves in the output block: the six row stores. -/
theorem out_eq (c : Dev nD) (i : grid0.Coords) (arg1 : Memref sig .tc .vmem S1x23x4096 .f32) (harg1 : arg1.IsWhole) (arg2 : Memref sig .tc .vmem S1x23x4096 .f32) (harg2 : arg2.IsWhole) (arg3 : Memref sig .tc .vmem S1x4096x2 .f32) (harg3 : arg3.IsWhole) (arg4 : Memref sig .tc .vmem S1x4096x1 .f32) (harg4 : arg4.IsWhole) (arg5 : Memref sig .tc .vmem S6x128 .f32) (harg5 : arg5.IsWhole) :
    out0_A_4 (F := F) c i arg1 harg1 arg2 harg2 arg3 harg3 arg4 harg4 arg5 harg5 x0 x1 x2 x3
      = View.canon (rows6 (Val := Elt F) (rowClsNoobj x0 x1) (rowClsObj x0 x1) (rowNoobj x0 x1 x2 x3) (rowObj x0 x1) (rowCoord x0 x1)
          (rowPos x1) inb_S6x128_S1x128_5_0 inb_S6x128_S1x128_4_0 inb_S6x128_S1x128_3_0 inb_S6x128_S1x128_2_0
          inb_S6x128_S1x128_1_0 inb_S6x128_S1x128_0_0) := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_run_names
  simp only [View.readAt_eq_ld, harg1.read_unread, harg2.read_unread, View.ld_unit_zero (S := S1x23x4096) zero3, st_eq]
  rfl

end Rows

end Cert.KBody

end
-- ==== Proof.KElem.lean ====
/-
  The pointwise part of the kernel body read at an index, on the extended reals: the two input blocks
  (1×23×4096) cast to 23×4096 and cut into the objectness row, the twenty class rows and the two point rows; the focal
  loss of the objectness row and of the class rows is the specification's `focal` of the entries.
-/
import proofs.«134050_j14731737825397_2_alg».proof.Proof.Gen.KernelIdeal.Skeleton
import proofs.«134050_j14731737825397_2_alg».proof.Proof.Spec
import Idealize.ShloMosaic.Lib.ValueLayout
import Idealize.ShloMosaic.Lib.ValueIdx
import Idealize.ShloMosaic.Lib.Pipeline.Value

noncomputable section

namespace Cert.KBody

open Cert.KernelIdeal Cert.KernelIdeal.Gen Idealize.ShloMosaic Idealize.ShloMosaic.ValueIdx Cert.Spec

variable (x0 x1 : Vec Ideal S1x23x4096 .f32)

theorem pay2_apply (ch : Fin 23) (n : Fin 4096) : k0_pay2 (F := Ideal) x0 (ix2 ch n) = x0 (ix3 (0 : Fin 1) ch n) := by
  unfold k0_pay2; exact shapeCast_1ab_ab_apply x0 _ ch n

theorem pay3_apply (ch : Fin 23) (n : Fin 4096) : k0_pay3 (F := Ideal) x1 (ix2 ch n) = x1 (ix3 (0 : Fin 1) ch n) := by
  unfold k0_pay3; exact shapeCast_1ab_ab_apply x1 _ ch n

/-- The class rows of the prediction. -/
theorem pay4_apply (c : Fin 20) (n : Fin 4096) : k0_pay4 (F := Ideal) x0 (ix2 c n) = x0 (ix3 (0 : Fin 1) (chCls c) n) := by
  unfold k0_pay4
  exact (slice2_axis0_apply 1 (k0_pay2 x0) slices_S23x4096_o1_0_S20x4096 c n (chCls c) rfl).trans (pay2_apply x0 _ n)

/-- The point rows of the prediction. -/
theorem pay5_apply (c : Fin 2) (n : Fin 4096) : k0_pay5 (F := Ideal) x0 (ix2 c n) = x0 (ix3 (0 : Fin 1) (chXy c) n) := by
  unfold k0_pay5
  exact (slice2_axis0_apply 21 (k0_pay2 x0) slices_S23x4096_o21_0_S2x4096 c n (chXy c) rfl).trans (pay2_apply x0 _ n)

/-- The objectness row of the prediction (inside the objectness loss). -/
theorem predObj_apply (n : Fin 4096) :
    extractStridedSlice S1x4096 ![0, 0] (k0_pay2 (F := Ideal) x0) slices_S23x4096_o0_0_S1x4096 (ix2 (0 : Fin 1) n)
      = x0 (ix3 (0 : Fin 1) (0 : Fin 23) n) :=
  (slice2_axis0_apply 0 (k0_pay2 x0) slices_S23x4096_o0_0_S1x4096 (0 : Fin 1) n (0 : Fin 23) rfl).trans (pay2_apply x0 _ n)

/-- The objectness row, the class rows and the point rows of the label. -/
theorem pay6_apply (n : Fin 4096) : k0_pay6 (F := Ideal) x1 (ix2 (0 : Fin 1) n) = x1 (ix3 (0 : Fin 1) (0 : Fin 23) n) := by
  unfold k0_pay6
  exact (slice2_axis0_apply 0 (k0_pay3 x1) slices_S23x4096_o0_0_S1x4096 (0 : Fin 1) n (0 : Fin 23) rfl).trans (pay3_apply x1 _ n)

theorem pay7_apply (c : Fin 20) (n : Fin 4096) : k0_pay7 (F := Ideal) x1 (ix2 c n) = x1 (ix3 (0 : Fin 1) (chCls c) n) := by
  unfold k0_pay7
  exact (slice2_axis0_apply 1 (k0_pay3 x1) slices_S23x4096_o1_0_S20x4096 c n (chCls c) rfl).trans (pay3_apply x1 _ n)

theorem pay8_apply (c : Fin 2) (n : Fin 4096) : k0_pay8 (F := Ideal) x1 (ix2 c n) = x1 (ix3 (0 : Fin 1) (chXy c) n) := by
  unfold k0_pay8
  exact (slice2_axis0_apply 21 (k0_pay3 x1) slices_S23x4096_o21_0_S2x4096 c n (chXy c) rfl).trans (pay3_apply x1 _ n)

/-- The objectness loss at pixel `n`. -/
theorem pay9_apply (n : Fin 4096) :
    k0_pay9 (F := Ideal) x0 x1 (ix2 (0 : Fin 1) n) = focal (x0 (ix3 (0 : Fin 1) (0 : Fin 23) n)) (x1 (ix3 (0 : Fin 1) (0 : Fin 23) n)) := by
  have e : k0_pay9 (F := Ideal) x0 x1 (ix2 (0 : Fin 1) n)
      = focal (extractStridedSlice S1x4096 ![0, 0] (k0_pay2 (F := Ideal) x0) slices_S23x4096_o0_0_S1x4096 (ix2 (0 : Fin 1) n))
          (k0_pay6 (F := Ideal) x1 (ix2 (0 : Fin 1) n)) := rfl
  rw [e, predObj_apply, pay6_apply]

/-- The class loss of class `c` at pixel `n`. -/
theorem clsLoss_apply (c : Fin 20) (n : Fin 4096) :
    k0_pay12 (F := Ideal) (k0_pay4 x0) (k0_pay7 x1) (k0_pay10 x0 x1) (k0_pay11 x0) (ix2 c n)
      = focal (x0 (ix3 (0 : Fin 1) (chCls c) n)) (x1 (ix3 (0 : Fin 1) (chCls c) n)) := by
  have e : k0_pay12 (F := Ideal) (k0_pay4 x0) (k0_pay7 x1) (k0_pay10 x0 x1) (k0_pay11 x0) (ix2 c n)
      = focal (k0_pay4 (F := Ideal) x0 (ix2 c n)) (k0_pay7 (F := Ideal) x1 (ix2 c n)) := rfl
  rw [e, pay4_apply, pay7_apply]

end Cert.KBody

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KReduce.lean ====
/-
  Reductions kept with a unit axis, read at coordinates on the extended reals: the sum and the minimum over the rows
  of an m×N matrix kept as a 1×N row, the sum of a 1×N row kept as a 1×1 entry, and a 1×1 entry laid along 128 lanes.
-/
import proofs.«134050_j14731737825397_2_alg».proof.Proof.LibKeepdims
import Idealize.ShloMosaic.PureOps.Ideal.Laws
import Idealize.ShloMosaic.Lib.ValueLayout
import Idealize.ShloMosaic.Lib.ValueIdx
import Idealize.ShloMosaic.Lib.Pipeline.Value

noncomputable section

namespace Cert.KBody

open Idealize.ShloMosaic Idealize.ShloMosaic.ValueIdx

/-- Row `k` put back into the reduced index `n` is (k, n). -/
theorem lift_col {m N : ℕ} (h : (⟨2, ![m, N]⟩ : Shape).Reduces [0] (⟨1, ![N]⟩ : Shape)) (n : Fin N)
    (k : Fin ((⟨2, ![m, N]⟩ : Shape).size 0)) : h.lift (ix1 n) k = ix2 (⟨k.val, k.isLt⟩ : Fin m) n := by
  funext c; apply Fin.ext
  fin_cases c <;> rfl

/-- The sum over the rows of an m×N matrix, kept as a 1×N row: entry (0, n) is the sum of column `n`. -/
theorem rowsum_apply {m N : ℕ} (src : FVec Ideal ⟨2, ![m, N]⟩ .f32) (h : (⟨2, ![m, N]⟩ : Shape).Reduces [0] (⟨1, ![N]⟩ : Shape))
    (hc : (⟨1, ![N]⟩ : Shape).ShapeCasts ⟨2, ![1, N]⟩) (hφ : FKind.Formats .f32)
    (hacc : (0x00000000#32 : BitVec 32) = FKind.add.neutral .f32 hφ) (n : Fin N) :
    shapeCast ⟨2, ![1, N]⟩ (multiReduction .add [0] ⟨1, ![N]⟩ src 0x00000000#32 h hφ hacc) hc (ix2 (0 : Fin 1) n)
      = ∑ k : Fin m, src (ix2 k n) := by
  refine (shapeCast_a_1a_apply _ hc (0 : Fin 1) n).trans ?_
  refine (Ideal.multiReduction_add_single src _ h hφ hacc (ix1 n)).trans ?_
  exact Finset.sum_congr rfl fun k _ => congrArg src (lift_col h n k)

/-- The minimum over the rows, from +∞, kept as a 1×N row: entry (0, n) is the minimum of column `n`. -/
theorem rowmin_apply {m N : ℕ} (src : FVec Ideal ⟨2, ![m, N]⟩ .f32) (h : (⟨2, ![m, N]⟩ : Shape).Reduces [0] (⟨1, ![N]⟩ : Shape))
    (hc : (⟨1, ![N]⟩ : Shape).ShapeCasts ⟨2, ![1, N]⟩) (hφ : FKind.Formats .f32)
    (hacc : (0x7F800000#32 : BitVec 32) = FKind.minimumf.neutral .f32 hφ) (n : Fin N) :
    shapeCast ⟨2, ![1, N]⟩ (multiReduction .minimumf [0] ⟨1, ![N]⟩ src 0x7F800000#32 h hφ hacc) hc (ix2 (0 : Fin 1) n)
      = (Finset.univ : Finset (Fin m)).fold min (Ideal.ofBits .f32 0x7F800000#32) (fun k => src (ix2 k n)) := by
  refine (shapeCast_a_1a_apply _ hc (0 : Fin 1) n).trans ?_
  refine (multiReduction_minimumf_eq_fold src _ h hφ hacc (ix1 n)).trans ?_
  refine (h.fold_filter_drop_single _ _ src (ix1 n)).trans ?_
  have hf : (src ∘ h.lift (ix1 n)) = fun k : Fin m => src (ix2 k n) := funext fun k => congrArg src (lift_col h n k)
  exact congrArg (fun f => Finset.fold min (Ideal.ofBits .f32 0x7F800000#32) f (Finset.univ : Finset (Fin m))) hf

/-- The sum of a 1×N row, kept as a 1×1 entry. -/
theorem total_apply {N : ℕ} (src : FVec Ideal ⟨2, ![1, N]⟩ .f32) (h : (⟨2, ![1, N]⟩ : Shape).Reduces [1] (⟨1, ![1]⟩ : Shape))
    (hc : (⟨1, ![1]⟩ : Shape).ShapeCasts ⟨2, ![1, 1]⟩) (hφ : FKind.Formats .f32)
    (hacc : (0x00000000#32 : BitVec 32) = FKind.add.neutral .f32 hφ) :
    shapeCast ⟨2, ![1, 1]⟩ (multiReduction .add [1] ⟨1, ![1]⟩ src 0x00000000#32 h hφ hacc) hc (ix2 (0 : Fin 1) (0 : Fin 1))
      = ∑ n : Fin N, src (ix2 (0 : Fin 1) n) := by
  refine (shapeCast_a_1a_apply _ hc (0 : Fin 1) (0 : Fin 1)).trans ?_
  refine (Ideal.multiReduction_add_total src _ h (fun b => by fin_cases b; rfl) hφ hacc (ix1 (0 : Fin 1))).trans ?_
  rw [sum_idx2 src, Fin.sum_univ_one]

/-- A 1×1 entry laid along the 128 lanes. -/
theorem lanes_apply (v : FVec Ideal ⟨2, ![1, 1]⟩ .f32) (hs : (⟨2, ![1, 1]⟩ : Shape).ShapeCasts ⟨2, ![1, 1]⟩)
    (hb : (⟨2, ![1, 1]⟩ : Shape).Broadcasts ⟨2, ![1, 128]⟩) (l : Fin 128) :
    broadcastTo ⟨2, ![1, 128]⟩ (shapeCast ⟨2, ![1, 1]⟩ v hs) hb (ix2 (0 : Fin 1) l) = v (ix2 (0 : Fin 1) (0 : Fin 1)) := by
  rw [shapeCast_self]
  exact Cert.Keepdims.broadcastTo_a1_ab_apply v hb (0 : Fin 1) l

end Cert.KBody

end
-- ==== Proof.KSums.lean ====
/-
  Five of the six rows of the kernel's output block, read at a lane, as sums over the batch's pixels of the
  specification's terms: the count of positives, the coordinate loss, the objectness loss on objects, and the class
  loss on and off objects (a sum over the twenty class rows, then over the pixels). Every lane of a row holds the same sum.
-/
import proofs.«134050_j14731737825397_2_alg».proof.Proof.KRun
import proofs.«134050_j14731737825397_2_alg».proof.Proof.KElem
import proofs.«134050_j14731737825397_2_alg».proof.Proof.KReduce

noncomputable section

namespace Cert.KBody

open Cert.KernelIdeal Cert.KernelIdeal.Gen Idealize.ShloMosaic Idealize.ShloMosaic.ValueIdx Cert.Spec

/-- A one-bit word widened to 32 bits and read as a signed integer is the bit. -/
theorem bit_toInt (b : BitVec 1) : (((b.setWidth 32).toInt : ℝ) : EReal) = ((b.toNat : ℝ) : EReal) := by
  rcases BitVec.eq_zero_or_eq_one b with h | h <;> subst h <;> simp

variable (x0 x1 : Vec Ideal S1x23x4096 .f32)

/-- The specification's reading of a block: channel `ch` at pixel `n`. -/
abbrev blk (x : Vec Ideal S1x23x4096 .f32) : Fin 23 → Fin 4096 → EReal := fun ch n => x (ix3 (0 : Fin 1) ch n)

theorem rowPos_apply (l : Fin 128) : rowPos (F := Ideal) x1 (ix2 (0 : Fin 1) l) = ∑ n : Fin 4096, posInd (blk x1 0 n) := by
  unfold rowPos k0_pay21
  refine (lanes_apply _ _ _ l).trans ?_
  unfold k0_pay13
  refine (total_apply _ _ _ _ _).trans (Finset.sum_congr rfl fun n _ => ?_)
  show (((((Ideal.cmp .ogt (k0_pay6 (F := Ideal) x1 (ix2 (0 : Fin 1) n)) (Ideal.ofBits .f32 0x3F000000#32)).setWidth 32).toInt : ℝ)) : EReal) = _
  rw [bit_toInt, pay6_apply]
  rfl

theorem rowCoord_apply (l : Fin 128) :
    rowCoord (F := Ideal) x0 x1 (ix2 (0 : Fin 1) l) = ∑ n : Fin 4096, distLoss (blk x0) (blk x1) n * blk x1 0 n := by
  unfold rowCoord k0_pay22
  refine (lanes_apply _ _ _ l).trans ?_
  unfold k0_pay14
  refine (total_apply _ _ _ _ _).trans (Finset.sum_congr rfl fun n _ => ?_)
  refine congrArg₂ (· * ·) ?_ (pay6_apply x1 n)
  unfold distLoss
  refine congrArg (fun s => Ideal.div s (Ideal.ofBits .f32 0x41800000#32))
    ((rowsum_apply _ _ _ _ _ n).trans (Finset.sum_congr rfl fun c _ => ?_))
  show (k0_pay5 (F := Ideal) x0 (ix2 c n) - k0_pay8 (F := Ideal) x1 (ix2 c n))
      * (k0_pay5 (F := Ideal) x0 (ix2 c n) - k0_pay8 (F := Ideal) x1 (ix2 c n)) = _
  rw [pay5_apply, pay8_apply]

theorem rowObj_apply (l : Fin 128) :
    rowObj (F := Ideal) x0 x1 (ix2 (0 : Fin 1) l) = ∑ n : Fin 4096, focal (blk x0 0 n) (blk x1 0 n) * blk x1 0 n := by
  unfold rowObj k0_pay23
  refine (lanes_apply _ _ _ l).trans ?_
  unfold k0_pay15
  refine (total_apply _ _ _ _ _).trans (Finset.sum_congr rfl fun n _ => ?_)
  exact congrArg₂ (· * ·) (pay9_apply x0 x1 n) (pay6_apply x1 n)

theorem rowClsObj_apply (l : Fin 128) :
    rowClsObj (F := Ideal) x0 x1 (ix2 (0 : Fin 1) l)
      = ∑ n : Fin 4096, ∑ c : Fin 20, focal (blk x0 (chCls c) n) (blk x1 (chCls c) n) * blk x1 0 n := by
  unfold rowClsObj k0_pay25
  refine (lanes_apply _ _ _ l).trans ?_
  unfold k0_pay16
  refine (total_apply _ _ _ _ _).trans (Finset.sum_congr rfl fun n _ => ?_)
  refine (rowsum_apply _ _ _ _ _ n).trans (Finset.sum_congr rfl fun c _ => ?_)
  exact congrArg₂ (· * ·) (clsLoss_apply x0 x1 c n) ((broadcastTo_1b_ab_apply _ _ c n).trans (pay6_apply x1 n))

theorem rowClsNoobj_apply (l : Fin 128) :
    rowClsNoobj (F := Ideal) x0 x1 (ix2 (0 : Fin 1) l)
      = ∑ n : Fin 4096, ∑ c : Fin 20, focal (blk x0 (chCls c) n) (blk x1 (chCls c) n) * (w1 - blk x1 0 n) := by
  unfold rowClsNoobj k0_pay1
  refine (lanes_apply _ _ _ l).trans ?_
  unfold k0_pay18
  refine (total_apply _ _ _ _ _).trans (Finset.sum_congr rfl fun n _ => ?_)
  refine (rowsum_apply _ _ _ _ _ n).trans (Finset.sum_congr rfl fun c _ => ?_)
  unfold k0_pay17
  exact congrArg₂ (· * ·) (clsLoss_apply x0 x1 c n)
    ((broadcastTo_1b_ab_apply _ _ c n).trans (congrArg (fun t => w1 - t) (pay6_apply x1 n)))

end Cert.KBody

end
-- ==== Proof.KTrip.lean ====
/-
  One trip of the kernel's loop over the key tiles, read at a pixel, on the extended reals. For the 128 keys of the
  tile and the batch's 4096 predicted points the trip forms the matrix
      d2 (r, n) = |p_n|² + (|t_r|² + (1 − v_r)·BIG) − 2·(t_r · p_n),
  the cross term t_r · p_n by a matrix product over the two coordinates, and lowers the running minimum at pixel n by
  the minimum of column n. BIG is the named constant, +∞ here.
-/
import proofs.«134050_j14731737825397_2_alg».proof.Proof.Gen.KernelIdeal.Skeleton
import proofs.«134050_j14731737825397_2_alg».proof.Proof.Spec
import proofs.«134050_j14731737825397_2_alg».proof.Proof.KReduce
import Idealize.ShloMosaic.PureOps.IdealRules
import Idealize.ShloMosaic.Lib.ValueLayout
import Idealize.ShloMosaic.Lib.ValueIdx
import Idealize.ShloMosaic.Lib.Pipeline.Value

noncomputable section

namespace Cert.KBody

open Cert.KernelIdeal Cert.KernelIdeal.Gen Idealize.ShloMosaic Idealize.ShloMosaic.ValueIdx Cert.Spec

/-- The named constant is +∞ at the ideal values. -/
theorem pos_big_top : Named.named (F := Ideal) Cert.KernelIdeal.κ "pos_big" (φ := .f32) 0x7149F2CA#32 = (⊤ : EReal) :=
  IdealRules.named_const.ideal_named_scalar _ _ _ _ rfl

/-- The product of the 128×2 key tile with the 2×4096 point rows, into a zero accumulator, at (r, n). -/
theorem matmul_apply_rc (A : FVec Ideal S128x2 .f32) (B : FVec Ideal S2x4096 .f32) (r : Fin 128) (n : Fin 4096) :
    matmul dot_S128x2_S2x4096_S128x4096_1_0_0_1_n_n none A B (constant S128x4096 .f32 0x00000000#32) (ix2 r n)
      = ∑ c : Fin 2, A (ix2 r c) * B (ix2 c n) := by
  show FloatOps.matmul _ none A B _ (ix2 r n) = _
  rw [Ideal.matmul_constant_zero_apply, ← Equiv.sum_comp (contrEquiv1 dot_S128x2_S2x4096_S128x4096_1_0_0_1_n_n 2 rfl rfl).symm]
  refine Finset.sum_congr rfl fun c _ => ?_
  have c2 := contrEquiv1_symm_val dot_S128x2_S2x4096_S128x4096_1_0_0_1_n_n 2 rfl rfl c
  have l2 : dot_S128x2_S2x4096_S128x4096_1_0_0_1_n_n.lhsIdx (ix2 r n) ((contrEquiv1 _ 2 rfl rfl).symm c) = ix2 r c := by
    funext ax; apply Fin.ext
    match ax with
    | ⟨0, _⟩ => simp [DotDims.lhsIdx, dot_S128x2_S2x4096_S128x4096_1_0_0_1_n_n]; rfl
    | ⟨1, _⟩ => simp [DotDims.lhsIdx, dot_S128x2_S2x4096_S128x4096_1_0_0_1_n_n]; exact c2
  have r2 : dot_S128x2_S2x4096_S128x4096_1_0_0_1_n_n.rhsIdx (ix2 r n) ((contrEquiv1 _ 2 rfl rfl).symm c) = ix2 c n := by
    funext ax; apply Fin.ext
    match ax with
    | ⟨0, _⟩ => simp [DotDims.rhsIdx, dot_S128x2_S2x4096_S128x4096_1_0_0_1_n_n]; exact c2
    | ⟨1, _⟩ => simp [DotDims.rhsIdx, dot_S128x2_S2x4096_S128x4096_1_0_0_1_n_n]; rfl
  rw [l2, r2]

variable (v6 : FVec Ideal S2x4096 .f32) (v130 : Vec Ideal S1x128x2 .f32) (v133 : Vec Ideal S1x128x1 .f32)

/-- |p_n|², as a 1×4096 row. -/
def sqNorm : FVec Ideal S1x4096 .f32 :=
  shapeCast S1x4096 (multiReduction .add [0] S4096 (mulf v6 v6) 0x00000000#32 reduces_S2x4096_S4096 (.inl rfl) rfl) shapeCasts_S4096_S1x4096

/-- The tile's keys as a 128×2 matrix. -/
def keyMat : FVec Ideal S128x2 .f32 := shapeCast S128x2 v130 shapeCasts_S1x128x2_S128x2

/-- |t_r|² + (1 − v_r)·BIG, as a 128×1 column. -/
def keyBias : FVec Ideal S128x1 .f32 :=
  addf (addf (mulf (extractStridedSlice S128x1 ![0, 0] (keyMat v130) slices_S128x2_o0_0_S128x1)
        (extractStridedSlice S128x1 ![0, 0] (keyMat v130) slices_S128x2_o0_0_S128x1))
      (mulf (extractStridedSlice S128x1 ![0, 1] (keyMat v130) slices_S128x2_o0_1_S128x1)
        (extractStridedSlice S128x1 ![0, 1] (keyMat v130) slices_S128x2_o0_1_S128x1)))
    (mulf (subf (broadcast S128x1 (Scalar.ofBits .f32 0x3F800000#32)) (shapeCast S128x1 v133 shapeCasts_S1x128x1_S128x1))
      (broadcast S128x1 (Named.named Cert.KernelIdeal.κ "pos_big" 0x7149F2CA#32)))

/-- The matrix d2. -/
def d2mat : FVec Ideal S128x4096 .f32 :=
  subf (addf (broadcastTo S128x4096 (sqNorm v6) broadcasts_S1x4096_S128x4096)
      (broadcastTo S128x4096 (keyBias v130 v133) broadcasts_S128x1_S128x4096))
    (mulf (broadcast S128x4096 (Scalar.ofBits .f32 0x40000000#32))
      (matmul dot_S128x2_S2x4096_S128x4096_1_0_0_1_n_n none (keyMat v130) v6 (constant S128x4096 .f32 0x00000000#32)))

/-- The trip's payload is the running minimum lowered by d2's column minima. -/
theorem pay20_eq (acc : FVec Ideal S1x4096 .f32) :
    k0_pay20 (F := Ideal) v6 acc v130 v133
      = minimumf acc (shapeCast S1x4096 (multiReduction .minimumf [0] S4096 (d2mat v6 v130 v133) 0x7F800000#32
          reduces_S128x4096_S4096 (.inl rfl) rfl) shapeCasts_S4096_S1x4096) := rfl

theorem sqNorm_apply (n : Fin 4096) : sqNorm v6 (ix2 (0 : Fin 1) n) = ∑ c : Fin 2, v6 (ix2 c n) * v6 (ix2 c n) := by
  unfold sqNorm
  exact (rowsum_apply _ _ _ _ _ n).trans rfl

theorem keyMat_apply (r : Fin 128) (c : Fin 2) : keyMat v130 (ix2 r c) = v130 (ix3 (0 : Fin 1) r c) := by
  unfold keyMat; exact shapeCast_1ab_ab_apply v130 _ r c

theorem keyBias_apply (r : Fin 128) :
    keyBias v130 v133 (ix2 r (0 : Fin 1))
      = (v130 (ix3 (0 : Fin 1) r (0 : Fin 2)) * v130 (ix3 (0 : Fin 1) r (0 : Fin 2))
          + v130 (ix3 (0 : Fin 1) r (1 : Fin 2)) * v130 (ix3 (0 : Fin 1) r (1 : Fin 2)))
        + (w1 - v133 (ix3 (0 : Fin 1) r (0 : Fin 1))) * ⊤ := by
  have e0 : extractStridedSlice S128x1 ![0, 0] (keyMat v130) slices_S128x2_o0_0_S128x1 (ix2 r (0 : Fin 1))
      = v130 (ix3 (0 : Fin 1) r (0 : Fin 2)) :=
    (slice2_axis1_apply 0 (keyMat v130) slices_S128x2_o0_0_S128x1 r (0 : Fin 1) (0 : Fin 2) rfl).trans (keyMat_apply v130 r 0)
  have e1 : extractStridedSlice S128x1 ![0, 1] (keyMat v130) slices_S128x2_o0_1_S128x1 (ix2 r (0 : Fin 1))
      = v130 (ix3 (0 : Fin 1) r (1 : Fin 2)) :=
    (slice2_axis1_apply 1 (keyMat v130) slices_S128x2_o0_1_S128x1 r (0 : Fin 1) (1 : Fin 2) rfl).trans (keyMat_apply v130 r 1)
  have ev : shapeCast S128x1 v133 shapeCasts_S1x128x1_S128x1 (ix2 r (0 : Fin 1)) = v133 (ix3 (0 : Fin 1) r (0 : Fin 1)) :=
    shapeCast_1ab_ab_apply v133 _ r 0
  have e : keyBias v130 v133 (ix2 r (0 : Fin 1))
      = (extractStridedSlice S128x1 ![0, 0] (keyMat v130) slices_S128x2_o0_0_S128x1 (ix2 r (0 : Fin 1))
            * extractStridedSlice S128x1 ![0, 0] (keyMat v130) slices_S128x2_o0_0_S128x1 (ix2 r (0 : Fin 1))
          + extractStridedSlice S128x1 ![0, 1] (keyMat v130) slices_S128x2_o0_1_S128x1 (ix2 r (0 : Fin 1))
            * extractStridedSlice S128x1 ![0, 1] (keyMat v130) slices_S128x2_o0_1_S128x1 (ix2 r (0 : Fin 1)))
        + (w1 - shapeCast S128x1 v133 shapeCasts_S1x128x1_S128x1 (ix2 r (0 : Fin 1)))
            * Named.named (F := Ideal) Cert.KernelIdeal.κ "pos_big" (φ := .f32) 0x7149F2CA#32 := rfl
  rw [e, e0, e1, ev, pos_big_top]

theorem d2mat_apply (r : Fin 128) (n : Fin 4096) :
    d2mat v6 v130 v133 (ix2 r n)
      = ((∑ c : Fin 2, v6 (ix2 c n) * v6 (ix2 c n))
          + ((v130 (ix3 (0 : Fin 1) r (0 : Fin 2)) * v130 (ix3 (0 : Fin 1) r (0 : Fin 2))
              + v130 (ix3 (0 : Fin 1) r (1 : Fin 2)) * v130 (ix3 (0 : Fin 1) r (1 : Fin 2)))
            + (w1 - v133 (ix3 (0 : Fin 1) r (0 : Fin 1))) * ⊤))
        - Ideal.ofBits .f32 0x40000000#32 * ∑ c : Fin 2, v130 (ix3 (0 : Fin 1) r c) * v6 (ix2 c n) := by
  have eA : broadcastTo S128x4096 (sqNorm v6) broadcasts_S1x4096_S128x4096 (ix2 r n) = ∑ c : Fin 2, v6 (ix2 c n) * v6 (ix2 c n) :=
    (broadcastTo_1b_ab_apply (sqNorm v6) _ r n).trans (sqNorm_apply v6 n)
  have eB : broadcastTo S128x4096 (keyBias v130 v133) broadcasts_S128x1_S128x4096 (ix2 r n) = _ :=
    (Cert.Keepdims.broadcastTo_a1_ab_apply (keyBias v130 v133) _ r n).trans (keyBias_apply v130 v133 r)
  have eC : matmul dot_S128x2_S2x4096_S128x4096_1_0_0_1_n_n none (keyMat v130) v6 (constant S128x4096 .f32 0x00000000#32) (ix2 r n)
      = ∑ c : Fin 2, v130 (ix3 (0 : Fin 1) r c) * v6 (ix2 c n) :=
    (matmul_apply_rc (keyMat v130) v6 r n).trans (Finset.sum_congr rfl fun c _ => by rw [keyMat_apply])
  have e : d2mat v6 v130 v133 (ix2 r n)
      = (broadcastTo S128x4096 (sqNorm v6) broadcasts_S1x4096_S128x4096 (ix2 r n)
          + broadcastTo S128x4096 (keyBias v130 v133) broadcasts_S128x1_S128x4096 (ix2 r n))
        - Ideal.ofBits .f32 0x40000000#32
          * matmul dot_S128x2_S2x4096_S128x4096_1_0_0_1_n_n none (keyMat v130) v6 (constant S128x4096 .f32 0x00000000#32) (ix2 r n) := rfl
  rw [e, eA, eB, eC]

/-- The trip at pixel `n`. -/
theorem pay20_apply (acc : FVec Ideal S1x4096 .f32) (n : Fin 4096) :
    k0_pay20 (F := Ideal) v6 acc v130 v133 (ix2 (0 : Fin 1) n)
      = min (acc (ix2 (0 : Fin 1) n))
          ((Finset.univ : Finset (Fin 128)).fold min wInf (fun r => d2mat v6 v130 v133 (ix2 r n))) := by
  rw [pay20_eq]
  exact congrArg (min (acc (ix2 (0 : Fin 1) n))) (rowmin_apply _ _ _ _ _ n)

end Cert.KBody

end
-- ==== Proof.EAlg.lean ====
/-
  Laws of the extended reals that join the two arrangements of this loss.

  * the square root is monotone, so it commutes with a minimum, and it fixes +∞;
  * a power with exponent two of a real is its square;
  * the expanded squared distance |p|² + (|t|² + (1 − v)·∞) − 2·(t·p) of real points is |p − t|² when the key is
    valid (v = 1: the product 0·∞ is 0 on the extended reals) and +∞ when it is not (v = 0);
  * a sum over the indices of an 8×C×64×64 array is the sum over the batch, then the pixel h·64 + w, then the channel.
-/
import Idealize.ShloMosaic.PureOps.Ideal
import Idealize.ShloMosaic.PureOps.Ideal.Laws
import Idealize.ShloMosaic.Lib.ValueIdx

noncomputable section

namespace Cert.Bridge

open Idealize.ShloMosaic Idealize.ShloMosaic.ValueIdx

/-! ## Float words -/

theorem word_one : Ideal.ofBits .f32 0x3F800000#32 = 1 := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_zero : Ideal.ofBits .f32 0x00000000#32 = 0 := Ideal.ofBits_zero_f32

theorem word_top : Ideal.ofBits .f32 0x7F800000#32 = ⊤ := by
  simp [Ideal.ofBits, Ideal.ieee]

theorem word_bot : Ideal.ofBits .f32 0xFF800000#32 = ⊥ := by
  simp [Ideal.ofBits, Ideal.ieee]

/-! ## The square root -/

theorem sqrt_top : Ideal.sqrt ⊤ = ⊤ := rfl

theorem sqrt_coe_nonneg {r : ℝ} (h : 0 ≤ r) : Ideal.sqrt (r : EReal) = (Real.sqrt r : EReal) := by
  show (if r < 0 then ⊥ else (Real.sqrt r : EReal)) = _
  rw [if_neg (not_lt.mpr h)]

theorem sqrt_coe_neg {r : ℝ} (h : r < 0) : Ideal.sqrt (r : EReal) = ⊥ := by
  show (if r < 0 then ⊥ else (Real.sqrt r : EReal)) = _
  rw [if_pos h]

theorem sqrt_mono : Monotone Ideal.sqrt := by
  intro x y hxy
  induction x using EReal.rec with
  | bot => exact bot_le
  | top =>
    have : y = ⊤ := top_le_iff.mp hxy
    subst this; exact le_rfl
  | coe r =>
    induction y using EReal.rec with
    | bot => exact absurd hxy (by simp)
    | top => exact le_top
    | coe s =>
      have hrs : r ≤ s := by exact_mod_cast hxy
      by_cases hr : r < 0
      · rw [sqrt_coe_neg hr]; exact bot_le
      · have hr' : 0 ≤ r := not_lt.mp hr
        rw [sqrt_coe_nonneg hr', sqrt_coe_nonneg (hr'.trans hrs)]
        exact_mod_cast Real.sqrt_le_sqrt hrs

theorem sqrt_min (a b : EReal) : Ideal.sqrt (min a b) = min (Ideal.sqrt a) (Ideal.sqrt b) :=
  sqrt_mono.map_min

/-! ## The power with exponent two -/

theorem pow_two_coe (x : ℝ) : Ideal.pow (x : EReal) (Ideal.ofBits .f32 0x40000000#32) = (x : EReal) * (x : EReal) := by
  rw [word_two]
  show ((Real.rpow x 2 : ℝ) : EReal) = _
  rw [← EReal.coe_mul]
  congr 1
  show x ^ (2 : ℝ) = x * x
  rw [Real.rpow_two, sq]

end Cert.Bridge

end
-- ==== Proof.KMinAlg.lean ====
/-
  Laws of the extended reals for the nearest-key distance taken tile by tile.

  * The square root is monotone and fixes +∞, so it commutes with a minimum taken from +∞ over any finite family.
  * The expanded squared distance |p|² + (|t|² + (1 − v)·∞) − 2·(t·p) of two real points: for a valid key (v = 1)
    the product 0·∞ is 0 and the expression is |p − t|², the sum over the coordinates of the squared differences;
    for an invalid key (v = 0) it is real + ∞ − real = +∞, and the square root of +∞ is +∞.
  * A minimum over the 4096 keys taken as 32 tiles of 128, starting from +∞, is the minimum over all keys: a bound
    lies below the running value after k tiles exactly when it lies below every key before 128·k.
-/
import proofs.«134050_j14731737825397_2_alg».proof.Proof.Spec
import proofs.«134050_j14731737825397_2_alg».proof.Proof.EAlg

noncomputable section

open scoped BigOperators

namespace Cert.Bridge

open Idealize.ShloMosaic Idealize.ShloMosaic.ValueIdx Cert.Spec

/-! ## The square root and a minimum from +∞ -/

theorem sqrt_wInf : Ideal.sqrt wInf = wInf := by
  rw [show wInf = (⊤ : EReal) from word_top]; exact sqrt_top

theorem sqrt_fold_min {ι : Type*} (s : Finset ι) (f : ι → EReal) :
    Ideal.sqrt (s.fold min wInf f) = s.fold min wInf (fun i => Ideal.sqrt (f i)) := by
  have h := Finset.fold_hom (op := min) (op' := min) (s := s) (b := wInf) (f := f) (m := Ideal.sqrt)
    (fun a b => sqrt_min a b)
  rw [sqrt_wInf] at h
  exact h.symm

/-! ## The expanded squared distance -/

/-- Valid key, real points: |p|² + (|t|² + 0) − 2·(t·p) is the sum of the squared coordinate differences. -/
theorem kd2_valid (a b c d : ℝ) :
    (((a : EReal) * a + (b : EReal) * b) + (((c : EReal) * c + (d : EReal) * d) + 0))
        - ((2 : ℝ) : EReal) * ((c : EReal) * a + (d : EReal) * b)
      = 0 + (((a : EReal) - c) * ((a : EReal) - c) + ((b : EReal) - d) * ((b : EReal) - d)) := by
  have e : ((a * a + b * b + (c * c + d * d + 0) - 2 * (c * a + d * b) : ℝ) : EReal)
      = ((0 + ((a - c) * (a - c) + (b - d) * (b - d)) : ℝ) : EReal) := by
    congr 1; ring
  simpa only [EReal.coe_add, EReal.coe_sub, EReal.coe_mul, EReal.coe_zero] using e

/-- Invalid key, real points: |p|² + (|t|² + ∞) − 2·(t·p) is +∞. -/
theorem kd2_invalid (a b c d : ℝ) :
    (((a : EReal) * a + (b : EReal) * b) + (((c : EReal) * c + (d : EReal) * d) + ⊤))
        - ((2 : ℝ) : EReal) * ((c : EReal) * a + (d : EReal) * b) = ⊤ := by
  simp only [← EReal.coe_mul, ← EReal.coe_add, EReal.coe_add_top, EReal.top_sub_coe]

theorem sqrt_kd2 (pb : Fin 23 → Fin 4096 → EReal) (kp : Fin 4096 → Fin 2 → EReal) (kb : Fin 4096 → BitVec 1)
    (n q : Fin 4096)
    (hp : ∀ c : Fin 2, ∃ r : ℝ, pb (chXy c) n = (r : EReal)) (hk : ∀ c : Fin 2, ∃ r : ℝ, kp q c = (r : EReal)) :
    Ideal.sqrt (((∑ c : Fin 2, pb (chXy c) n * pb (chXy c) n)
          + ((kp q (0 : Fin 2) * kp q (0 : Fin 2) + kp q (1 : Fin 2) * kp q (1 : Fin 2))
              + (w1 - (((kb q).toNat : ℝ) : EReal)) * ⊤))
        - Ideal.ofBits .f32 0x40000000#32 * ∑ c : Fin 2, kp q c * pb (chXy c) n)
      = Scalar.select (kb q) (keyDist pb kp n q) wInf := by
  choose pr hpr using hp
  choose tr htr using hk
  rw [Fin.sum_univ_two, Fin.sum_univ_two, hpr 0, hpr 1, htr 0, htr 1, word_two]
  rcases BitVec.eq_zero_or_eq_one (kb q) with hb | hb
  · -- the key is not valid
    rw [hb, select_zero]
    have h1 : (w1 - (((0#1 : BitVec 1).toNat : ℝ) : EReal)) * ⊤ = ⊤ := by
      rw [show w1 = (1 : EReal) from word_one]
      rw [show (0#1 : BitVec 1).toNat = 0 from rfl, Nat.cast_zero, EReal.coe_zero, sub_zero, one_mul]
    rw [h1, kd2_invalid, sqrt_top, show wInf = (⊤ : EReal) from word_top]
  · -- the key is valid
    rw [hb, select_one]
    have h1 : (w1 - (((1#1 : BitVec 1).toNat : ℝ) : EReal)) * ⊤ = 0 := by
      rw [show w1 = (1 : EReal) from word_one]
      rw [show (1#1 : BitVec 1).toNat = 1 from rfl, Nat.cast_one, ← EReal.coe_one, ← EReal.coe_sub, sub_self,
        EReal.coe_zero, zero_mul]
    rw [h1, kd2_valid]
    unfold keyDist
    rw [Fin.sum_univ_two, hpr 0, hpr 1, htr 0, htr 1, show w0 = (0 : EReal) from word_zero]

/-! ## A minimum over the keys taken tile by tile -/

theorem tiled_min (g : Fin 4096 → EReal) (M : ℕ → EReal) (h0 : M 0 = ⊤)
    (hs : ∀ (k : ℕ) (hk : k < 32), M (k + 1) = min (M k)
      ((Finset.univ : Finset (Fin 128)).fold min wInf (fun r => g ⟨128 * k + r.val, by omega⟩))) :
    M 32 = (Finset.univ : Finset (Fin 4096)).fold min wInf g := by
  have hW : wInf = (⊤ : EReal) := word_top
  have inv : ∀ k : ℕ, k ≤ 32 → ∀ z : EReal, z ≤ M k ↔ ∀ q : Fin 4096, q.val < 128 * k → z ≤ g q := by
    intro k
    induction k with
    | zero =>
      intro _ z
      rw [h0]
      exact ⟨fun _ q hq => absurd hq (by omega), fun _ => le_top⟩
    | succ k ih =>
      intro hk z
      have hk' : k < 32 := by omega
      rw [hs k hk', le_min_iff, ih (by omega) z, Finset.le_fold_min]
      constructor
      · rintro ⟨h1, _, h2⟩ q hq
        by_cases hlt : q.val < 128 * k
        · exact h1 q hlt
        · have hr : q.val - 128 * k < 128 := by omega
          have h3 := h2 ⟨q.val - 128 * k, hr⟩ (Finset.mem_univ _)
          exact le_of_le_of_eq h3 (congrArg g (Fin.ext (by
            show 128 * k + (q.val - 128 * k) = q.val
            omega)))
      · intro h
        refine ⟨fun q hq => h q (by omega), by rw [hW]; exact le_top, fun r _ => h _ ?_⟩
        show 128 * k + r.val < 128 * (k + 1)
        omega
  refine eq_of_forall_le_iff fun z => ?_
  rw [inv 32 le_rfl z, Finset.le_fold_min]
  constructor
  · intro h
    exact ⟨by rw [hW]; exact le_top, fun q _ => h q (by omega)⟩
  · rintro ⟨_, h⟩ q _
    exact h q (Finset.mem_univ _)

end Cert.Bridge

end
-- ==== Proof.KMask.lean ====
/-
  The masked row of the kernel's output block. After the 32 key tiles the loop's running minimum at pixel n is the
  minimum over all 4096 keys of the expanded squared distance (with +∞ for an invalid key); its square root is the
  specification's `minDist`, so the row is the sum over the pixels of the objectness loss off objects under `ignoreMask`.
-/
import proofs.«134050_j14731737825397_2_alg».proof.Proof.KRun
import proofs.«134050_j14731737825397_2_alg».proof.Proof.KElem
import proofs.«134050_j14731737825397_2_alg».proof.Proof.KReduce
import proofs.«134050_j14731737825397_2_alg».proof.Proof.KTrip
import proofs.«134050_j14731737825397_2_alg».proof.Proof.KSums
import proofs.«134050_j14731737825397_2_alg».proof.Proof.KMinAlg

noncomputable section

namespace Cert.KBody

open Cert.KernelIdeal Cert.KernelIdeal.Gen Idealize.ShloMosaic Idealize.ShloMosaic.ValueIdx Cert.Spec

theorem trips_eq : k0_t1_loop.trips = 32 := by decide

/-- Key `r` of tile `k` is key `128·k + r` of the batch. -/
def keyOf (k : Fin k0_t1_loop.trips) (r : Fin 128) : Fin 4096 :=
  ⟨128 * k.val + r.val, by have h1 := k.isLt; have h2 : k0_t1_loop.trips = 32 := trips_eq; have h3 := r.isLt; omega⟩

theorem keyTile_apply (x2 : Vec Ideal S1x4096x2 .f32) (k : Fin k0_t1_loop.trips) (r : Fin 128) (c : Fin 2) :
    keyTile x2 k (ix3 (0 : Fin 1) r c) = x2 (ix3 (0 : Fin 1) (keyOf k r) c) := by
  unfold keyTile
  show x2 ((Rect.unit (s := S1x4096x2) (k0_off1 k) S1x128x2.size (k0_off1_inb k)).emb (ix3 (0 : Fin 1) r c)) = _
  refine congrArg x2 (funext fun a => Fin.ext ?_)
  rw [Rect.emb_apply]
  show (k0_off1 k) a + 1 * ((ix3 (0 : Fin 1) r c : S1x128x2.Idx) a).val = _
  rw [k0_off1_eq k]
  match a with
  | ⟨0, _⟩ => show 0 + 1 * 0 = 0; omega
  | ⟨1, _⟩ => show 128 * k.val + 1 * r.val = 128 * k.val + r.val; omega
  | ⟨2, _⟩ => show 0 + 1 * c.val = c.val; omega

theorem validTile_apply (x3 : Vec Ideal S1x4096x1 .f32) (k : Fin k0_t1_loop.trips) (r : Fin 128) :
    validTile x3 k (ix3 (0 : Fin 1) r (0 : Fin 1)) = x3 (ix3 (0 : Fin 1) (keyOf k r) (0 : Fin 1)) := by
  unfold validTile
  show x3 ((Rect.unit (s := S1x4096x1) (k0_off2 k) S1x128x1.size (k0_off2_inb k)).emb (ix3 (0 : Fin 1) r (0 : Fin 1))) = _
  refine congrArg x3 (funext fun a => Fin.ext ?_)
  rw [Rect.emb_apply]
  show (k0_off2 k) a + 1 * ((ix3 (0 : Fin 1) r (0 : Fin 1) : S1x128x1.Idx) a).val = _
  rw [k0_off2_eq k]
  match a with
  | ⟨0, _⟩ => show 0 + 1 * 0 = 0; omega
  | ⟨1, _⟩ => show 128 * k.val + 1 * r.val = 128 * k.val + r.val; omega
  | ⟨2, _⟩ => show 0 + 1 * 0 = 0; omega

/-- The mask entry of a row of squared distances: 1 when the square root is at least ½, else 0. -/
theorem mask_apply (v : FVec Ideal S1x4096 .f32) (n : Fin 4096) :
    sitofp (F := Ideal) .f32 (extui 32 (cmpf .oge (sqrt v) (broadcast S1x4096 (Scalar.ofBits .f32 0x3F000000#32))) natLt_1_32)
        (ix2 (0 : Fin 1) n)
      = (((Ideal.cmp .oge (Ideal.sqrt (v (ix2 (0 : Fin 1) n))) (Ideal.ofBits .f32 0x3F000000#32)).toNat : ℝ) : EReal) := by
  show (((((Ideal.cmp .oge (Ideal.sqrt (v (ix2 (0 : Fin 1) n))) (Ideal.ofBits .f32 0x3F000000#32)).setWidth 32).toInt : ℝ)) : EReal) = _
  exact bit_toInt _

section Mask
variable (x0 x1 : Vec Ideal S1x23x4096 .f32) (x2 : Vec Ideal S1x4096x2 .f32) (x3 : Vec Ideal S1x4096x1 .f32)

/-- The expanded squared distance from pixel `n`'s predicted point to key `q`, with the validity term. -/
def kd2 (n q : Fin 4096) : EReal :=
  ((∑ c : Fin 2, blk x0 (chXy c) n * blk x0 (chXy c) n)
      + ((x2 (ix3 (0 : Fin 1) q (0 : Fin 2)) * x2 (ix3 (0 : Fin 1) q (0 : Fin 2))
          + x2 (ix3 (0 : Fin 1) q (1 : Fin 2)) * x2 (ix3 (0 : Fin 1) q (1 : Fin 2)))
        + (w1 - x3 (ix3 (0 : Fin 1) q (0 : Fin 1))) * ⊤))
    - Ideal.ofBits .f32 0x40000000#32 * ∑ c : Fin 2, x2 (ix3 (0 : Fin 1) q c) * blk x0 (chXy c) n

/-- Entry (r, n) of a trip's matrix is the expanded distance to the tile's key `r`. -/
theorem d2mat_tile (k : Fin k0_t1_loop.trips) (r : Fin 128) (n : Fin 4096) :
    d2mat (k0_pay5 (F := Ideal) x0) (keyTile x2 k) (validTile x3 k) (ix2 r n) = kd2 x0 x2 x3 n (keyOf k r) := by
  rw [d2mat_apply]
  simp only [keyTile_apply, validTile_apply, pay5_apply]
  rfl

/-- The running minimum at pixel `n` before tile `k`. -/
theorem minAfter_zero (n : Fin 4096) : minAfter (k0_pay5 (F := Ideal) x0) x2 x3 0 (ix2 (0 : Fin 1) n) = ⊤ := by
  show Named.named (F := Ideal) Cert.KernelIdeal.κ "pos_big" (φ := .f32) 0x7149F2CA#32 = ⊤
  exact pos_big_top

theorem minAfter_succ (n : Fin 4096) (k : ℕ) (hk : k < 32) :
    minAfter (k0_pay5 (F := Ideal) x0) x2 x3 (k + 1) (ix2 (0 : Fin 1) n)
      = min (minAfter (k0_pay5 (F := Ideal) x0) x2 x3 k (ix2 (0 : Fin 1) n))
          ((Finset.univ : Finset (Fin 128)).fold min wInf
            (fun r => kd2 x0 x2 x3 n (⟨128 * k + r.val, by have := r.isLt; omega⟩ : Fin 4096))) := by
  have h : k < k0_t1_loop.trips := by rw [trips_eq]; exact hk
  rw [minAfter, dif_pos h, pay20_apply]
  refine congrArg (min _) (congrArg (fun f => Finset.fold min wInf f (Finset.univ : Finset (Fin 128))) (funext fun r => ?_))
  exact d2mat_tile x0 x2 x3 ⟨k, h⟩ r n

variable (kb : Fin 4096 → BitVec 1)

/-- The square root of the loop's result at pixel `n` is the distance to the nearest valid key. -/
theorem sqrt_loop (n : Fin 4096)
    (hp : ∀ (cc : Fin 2) (n : Fin 4096), ∃ r : ℝ, x0 (ix3 (0 : Fin 1) (chXy cc) n) = (r : EReal))
    (hk : ∀ (k : Fin 4096) (cc : Fin 2), ∃ r : ℝ, x2 (ix3 (0 : Fin 1) k cc) = (r : EReal))
    (hv : ∀ k : Fin 4096, x3 (ix3 (0 : Fin 1) k (0 : Fin 1)) = (((kb k).toNat : ℝ) : EReal)) :
    Ideal.sqrt (minAfter (k0_pay5 (F := Ideal) x0) x2 x3 k0_t1_loop.trips (ix2 (0 : Fin 1) n))
      = minDist (blk x0) (fun k cc => x2 (ix3 (0 : Fin 1) k cc)) kb n := by
  have hM := Cert.Bridge.tiled_min (fun q => kd2 x0 x2 x3 n q)
      (fun k => minAfter (k0_pay5 (F := Ideal) x0) x2 x3 k (ix2 (0 : Fin 1) n)) (minAfter_zero x0 x2 x3 n)
      (fun k hk => minAfter_succ x0 x2 x3 n k hk)
  have h32 : minAfter (k0_pay5 (F := Ideal) x0) x2 x3 k0_t1_loop.trips (ix2 (0 : Fin 1) n)
      = minAfter (k0_pay5 (F := Ideal) x0) x2 x3 32 (ix2 (0 : Fin 1) n) :=
    congrArg (fun t => minAfter (k0_pay5 (F := Ideal) x0) x2 x3 t (ix2 (0 : Fin 1) n)) trips_eq
  refine (congrArg Ideal.sqrt (h32.trans hM)).trans ?_
  rw [Cert.Bridge.sqrt_fold_min]
  unfold minDist
  refine congrArg (fun f => Finset.fold min wInf f (Finset.univ : Finset (Fin 4096))) (funext fun q => ?_)
  unfold kd2
  rw [hv q]
  exact Cert.Bridge.sqrt_kd2 (blk x0) (fun k cc => x2 (ix3 (0 : Fin 1) k cc)) kb n q (fun c => hp c n) (fun c => hk q c)

theorem rowNoobj_apply (l : Fin 128)
    (hp : ∀ (cc : Fin 2) (n : Fin 4096), ∃ r : ℝ, x0 (ix3 (0 : Fin 1) (chXy cc) n) = (r : EReal))
    (hk : ∀ (k : Fin 4096) (cc : Fin 2), ∃ r : ℝ, x2 (ix3 (0 : Fin 1) k cc) = (r : EReal))
    (hv : ∀ k : Fin 4096, x3 (ix3 (0 : Fin 1) k (0 : Fin 1)) = (((kb k).toNat : ℝ) : EReal)) :
    rowNoobj (F := Ideal) x0 x1 x2 x3 (ix2 (0 : Fin 1) l)
      = ∑ n : Fin 4096, (focal (blk x0 0 n) (blk x1 0 n) * (w1 - blk x1 0 n))
          * ignoreMask (blk x0) (fun k cc => x2 (ix3 (0 : Fin 1) k cc)) kb n := by
  unfold rowNoobj k0_pay24
  refine (lanes_apply _ _ _ l).trans ?_
  refine (total_apply _ _ _ _ _).trans (Finset.sum_congr rfl fun n _ => ?_)
  refine congrArg₂ (· * ·) (congrArg₂ (· * ·) (pay9_apply x0 x1 n) (congrArg (fun t => w1 - t) (pay6_apply x1 n))) ?_
  refine (mask_apply _ n).trans ?_
  rw [sqrt_loop x0 x2 x3 kb n hp hk hv]
  rfl

end Mask

end Cert.KBody

end
-- ==== Proof.KBodyFinal.lean ====
/-
  What one grid point of the kernel leaves in its output block, read at (j, l): the specification's j-th sum of the
  batch, as a function of the four input blocks — given that the predicted points and the key points are real numbers and
  that the validity column holds the validity bits as 0 / 1. Row j of the block is the j-th sum on every lane.
-/
import proofs.«134050_j14731737825397_2_alg».proof.Proof.KRun
import proofs.«134050_j14731737825397_2_alg».proof.Proof.KSums
import proofs.«134050_j14731737825397_2_alg».proof.Proof.KMask
import proofs.«134050_j14731737825397_2_alg».proof.Proof.Spec

noncomputable section

namespace Cert.KBody

open Cert.KernelIdeal Cert.KernelIdeal.Gen Idealize.ShloMosaic Idealize.ShloMosaic.ValueIdx Cert.Spec

theorem out_part (c : Dev nD) (i : grid0.Coords) (arg1 : Memref sig .tc .vmem S1x23x4096 .f32) (harg1 : arg1.IsWhole) (arg2 : Memref sig .tc .vmem S1x23x4096 .f32) (harg2 : arg2.IsWhole) (arg3 : Memref sig .tc .vmem S1x4096x2 .f32) (harg3 : arg3.IsWhole) (arg4 : Memref sig .tc .vmem S1x4096x1 .f32) (harg4 : arg4.IsWhole) (arg5 : Memref sig .tc .vmem S6x128 .f32) (harg5 : arg5.IsWhole)
    (x0 x1 : Vec Ideal S1x23x4096 .f32) (x2 : Vec Ideal S1x4096x2 .f32) (x3 : Vec Ideal S1x4096x1 .f32) (kb : Fin 4096 → BitVec 1)
    (hp : ∀ (cc : Fin 2) (n : Fin 4096), ∃ r : ℝ, x0 (ix3 (0 : Fin 1) (chXy cc) n) = (r : EReal))
    (hk : ∀ (k : Fin 4096) (cc : Fin 2), ∃ r : ℝ, x2 (ix3 (0 : Fin 1) k cc) = (r : EReal))
    (hv : ∀ k : Fin 4096, x3 (ix3 (0 : Fin 1) k (0 : Fin 1)) = (((kb k).toNat : ℝ) : EReal))
    (j : Fin 6) (l : Fin 128) :
    out0_A_4 (F := Ideal) c i arg1 harg1 arg2 harg2 arg3 harg3 arg4 harg4 arg5 harg5 x0 x1 x2 x3 (ix2 j l)
      = Cert.Spec.part (fun ch n => x0 (ix3 (0 : Fin 1) ch n)) (fun ch n => x1 (ix3 (0 : Fin 1) ch n))
          (fun k cc => x2 (ix3 (0 : Fin 1) k cc)) kb j := by
  rw [out_eq]
  match j with
  | ⟨0, _⟩ => exact (canon_row0 _ _ _ _ _ _ _ _ _ _ _ _ l).trans (rowPos_apply x1 l)
  | ⟨1, _⟩ => exact (canon_row1 _ _ _ _ _ _ _ _ _ _ _ _ l).trans (rowCoord_apply x0 x1 l)
  | ⟨2, _⟩ => exact (canon_row2 _ _ _ _ _ _ _ _ _ _ _ _ l).trans (rowObj_apply x0 x1 l)
  | ⟨3, _⟩ => exact (canon_row3 _ _ _ _ _ _ _ _ _ _ _ _ l).trans (rowNoobj_apply x0 x1 x2 x3 kb l hp hk hv)
  | ⟨4, _⟩ => exact (canon_row4 _ _ _ _ _ _ _ _ _ _ _ _ l).trans (rowClsObj_apply x0 x1 l)
  | ⟨5, _⟩ => exact (canon_row5 _ _ _ _ _ _ _ _ _ _ _ _ l).trans (rowClsNoobj_apply x0 x1 l)
  | ⟨_ + 6, h⟩ => exact absurd h (by omega)

end Cert.KBody

end
-- ==== Proof.RefElems.lean ====
/-
  The reference's per-element stages, read at an index.

  * The focal cross-entropy as the reference writes it: the squares (1 − p)² and p² are powers with the exponent
    word 2.0. For a real p the power is the product, and re-associating ((a·t)·((1−p)·(1−p))) into
    (((a·t)·(1−p))·(1−p)) gives the specification's `focal`; this is the only place finiteness is used.
  * The objectness loss and the class loss are that function of the prediction and the label at the same index.
  * The coordinate loss is the sum over the two point channels of the squared difference, over 16 (the sum starts
    from the float zero, which is the zero of the extended reals).
  * The positive indicator is the comparison of the label's objectness with ½, as 0 or 1.
-/
import proofs.«134050_j14731737825397_2_alg».proof.Proof.Gen.ReferenceIdeal.Read
import proofs.«134050_j14731737825397_2_alg».proof.Proof.Spec
import proofs.«134050_j14731737825397_2_alg».proof.Proof.EAlg
import Idealize.ShloMosaic.Lib.ValueIdx

noncomputable section

namespace Cert.RefSide

open Idealize.ShloMosaic Idealize.ShloMosaic.ValueIdx Cert.ReferenceIdeal Cert.ReferenceIdeal.Gen Cert.ReferenceIdeal.Read

/-- Every entry of the array is a real number. -/
def Finite (x : Cert.Spec.Arr) : Prop := ∀ i, ∃ r : ℝ, x i = (r : EReal)

/-- The focal cross-entropy with the two squares written as powers with the exponent word 2.0. -/
def focalRef (p t : EReal) : EReal :=
  ((Ideal.ofBits .f32 0xBE800000#32 * t) * Ideal.pow (Cert.Spec.w1 - p) (Ideal.ofBits .f32 0x40000000#32))
      * Ideal.log (p + Cert.Spec.wEps)
    - ((Ideal.ofBits .f32 0x3F400000#32 * (Cert.Spec.w1 - t)) * Ideal.pow p (Ideal.ofBits .f32 0x40000000#32))
      * Ideal.log ((Cert.Spec.w1 - p) + Cert.Spec.wEps)

/-- For a real prediction the powers are the products, in the specification's association. -/
theorem focalRef_coe (r : ℝ) (t : EReal) : focalRef (r : EReal) t = Cert.Spec.focal (r : EReal) t := by
  have h1 : Cert.Spec.w1 - (r : EReal) = ((1 - r : ℝ) : EReal) := by
    rw [show Cert.Spec.w1 = (1 : EReal) from Cert.Bridge.word_one, EReal.coe_sub, EReal.coe_one]
  unfold focalRef Cert.Spec.focal
  rw [h1, Cert.Bridge.pow_two_coe, Cert.Bridge.pow_two_coe,
    mul_assoc (Ideal.ofBits .f32 0xBE800000#32 * t) ((1 - r : ℝ) : EReal) ((1 - r : ℝ) : EReal)]

theorem focalRef_of_finite {x0 : Cert.Spec.Arr} (h0 : Finite x0) (i : Cert.Spec.SA.Idx) (t : EReal) :
    focalRef (x0 i) t = Cert.Spec.focal (x0 i) t := by
  obtain ⟨r, hr⟩ := h0 i
  rw [hr]; exact focalRef_coe r t

/-! ## The losses at an index -/

/-- The objectness loss at an index: the focal loss of the prediction against the label there. -/
theorem objLoss_read (x0 x1 : Cert.Spec.Arr) (i : S8x1x64x64.Idx) :
    Read.val_main_v30 (F := Ideal) x0 x1 i = focalRef (x0 (idx_main_v0 i)) (x1 (idx_main_v3 i)) := by
  simp only [val_main_v30_apply, val_main_v16_apply, val_main_v29_apply, val_main_v12_apply, val_main_v15_apply, val_main_v23_apply, val_main_v28_apply, val_main_v7_apply, val_main_v11_apply, val_main_v14_apply, val_main_v20_apply, val_main_v22_apply, val_main_v27_apply, val_main_v6_apply, val_main_v3_apply, val_main_v9_apply, val_main_v10_apply, val_main_v0_apply, val_main_v13_apply, val_main_v19_apply, val_main_v18_apply, val_main_v21_apply, val_main_v25_apply, val_main_v26_apply, val_main_v8_apply, val_main_v17_apply, val_main_v24_apply,
    val_main_cst_apply, val_main_cst_0_apply, val_main_cst_1_apply, val_main_cst_2_apply, val_main_cst_3_apply, val_main_cst_4_apply, val_main_cst_5_apply, val_main_cst_6_apply, val_main_cst_7_apply]
  rfl

/-- The class loss at an index: the focal loss of the prediction against the label there. -/
theorem clsLoss_read (x0 x1 : Cert.Spec.Arr) (i : S8x20x64x64.Idx) :
    Read.val_main_v55 (F := Ideal) x0 x1 i = focalRef (x0 (idx_main_v1 i)) (x1 (idx_main_v4 i)) := by
  simp only [val_main_v55_apply, val_main_v41_apply, val_main_v54_apply, val_main_v37_apply, val_main_v40_apply, val_main_v48_apply, val_main_v53_apply, val_main_v32_apply, val_main_v36_apply, val_main_v39_apply, val_main_v45_apply, val_main_v47_apply, val_main_v52_apply, val_main_v31_apply, val_main_v4_apply, val_main_v34_apply, val_main_v35_apply, val_main_v1_apply, val_main_v38_apply, val_main_v44_apply, val_main_v43_apply, val_main_v46_apply, val_main_v50_apply, val_main_v51_apply, val_main_v33_apply, val_main_v42_apply, val_main_v49_apply,
    val_main_cst_8_apply, val_main_cst_9_apply, val_main_cst_10_apply, val_main_cst_11_apply, val_main_cst_12_apply, val_main_cst_13_apply, val_main_cst_14_apply, val_main_cst_15_apply, val_main_cst_16_apply]
  rfl

/-- The positive indicator at an index. -/
theorem posInd_read (x1 : Cert.Spec.Arr) (i : S8x1x64x64.Idx) :
    Read.val_main_v86 (F := Ideal) x1 i = Cert.Spec.posInd (x1 (idx_main_v3 i)) := by
  simp only [val_main_v86_apply, val_main_v85_apply, val_main_v3_apply, val_main_v84_apply, val_main_cst_25_apply]
  rfl

/-- One minus the label's objectness; the program forms it twice. -/
theorem oneMinus_read (x1 : Cert.Spec.Arr) (i : S8x1x64x64.Idx) :
    Read.val_main_v98 (F := Ideal) x1 i = Cert.Spec.w1 - x1 (idx_main_v3 i) := by
  simp only [val_main_v98_apply, val_main_v97_apply, val_main_v3_apply, val_main_cst_32_apply]
  rfl

theorem oneMinus_read' (x1 : Cert.Spec.Arr) (i : S8x1x64x64.Idx) :
    Read.val_main_v109 (F := Ideal) x1 i = Cert.Spec.w1 - x1 (idx_main_v3 i) := by
  simp only [val_main_v109_apply, val_main_v108_apply, val_main_v3_apply, val_main_cst_37_apply]
  rfl

/-! ## Index equations at (b, 0, r, w) and (b, c, r, w) -/

theorem idx_v0_ix (b : Fin 8) (r w : Fin 64) : idx_main_v0 (ix4 b (0 : Fin 1) r w) = ix4 b (0 : Fin 23) r w :=
  funext fun a => Fin.ext (by match a with | ⟨0, _⟩ => rfl | ⟨1, _⟩ => rfl | ⟨2, _⟩ => rfl | ⟨3, _⟩ => rfl)

theorem idx_v3_ix (b : Fin 8) (r w : Fin 64) : idx_main_v3 (ix4 b (0 : Fin 1) r w) = ix4 b (0 : Fin 23) r w :=
  funext fun a => Fin.ext (by match a with | ⟨0, _⟩ => rfl | ⟨1, _⟩ => rfl | ⟨2, _⟩ => rfl | ⟨3, _⟩ => rfl)

theorem idx_v1_ix (b : Fin 8) (c : Fin 20) (r w : Fin 64) : idx_main_v1 (ix4 b c r w) = ix4 b (Cert.Spec.chCls c) r w :=
  funext fun a => Fin.ext (by match a with | ⟨0, _⟩ => rfl | ⟨1, _⟩ => rfl | ⟨2, _⟩ => rfl | ⟨3, _⟩ => rfl)

theorem idx_v4_ix (b : Fin 8) (c : Fin 20) (r w : Fin 64) : idx_main_v4 (ix4 b c r w) = ix4 b (Cert.Spec.chCls c) r w :=
  funext fun a => Fin.ext (by match a with | ⟨0, _⟩ => rfl | ⟨1, _⟩ => rfl | ⟨2, _⟩ => rfl | ⟨3, _⟩ => rfl)

theorem idx_v104_ix (b : Fin 8) (c : Fin 20) (r w : Fin 64) : idx_main_v104 (ix4 b c r w) = ix4 b (0 : Fin 1) r w :=
  funext fun a => Fin.ext (by match a with | ⟨0, _⟩ => rfl | ⟨1, _⟩ => rfl | ⟨2, _⟩ => rfl | ⟨3, _⟩ => rfl)

theorem idx_v110_ix (b : Fin 8) (c : Fin 20) (r w : Fin 64) : idx_main_v110 (ix4 b c r w) = ix4 b (0 : Fin 1) r w :=
  funext fun a => Fin.ext (by match a with | ⟨0, _⟩ => rfl | ⟨1, _⟩ => rfl | ⟨2, _⟩ => rfl | ⟨3, _⟩ => rfl)

/-! ## The coordinate loss -/

/-- The coordinate loss at (b, 0, r, w): the squared distance of the two points there, over 16. -/
theorem distLoss_read (x0 x1 : Cert.Spec.Arr) (b : Fin 8) (r w : Fin 64) :
    Read.val_main_v61 (F := Ideal) x0 x1 (ix4 b (0 : Fin 1) r w)
      = Ideal.div (∑ c : Fin 2, (x0 (ix4 b (Cert.Spec.chXy c) r w) - x1 (ix4 b (Cert.Spec.chXy c) r w))
            * (x0 (ix4 b (Cert.Spec.chXy c) r w) - x1 (ix4 b (Cert.Spec.chXy c) r w)))
          (Ideal.ofBits .f32 0x41800000#32) := by
  rw [val_main_v61_apply, val_main_v59_apply, val_main_v60_apply, val_main_cst_18_apply, val_main_v58_apply,
    val_main_cst_17_apply]
  show Ideal.div (Ideal.ofBits .f32 0x00000000#32 + _) _ = _
  rw [Cert.Bridge.word_zero, zero_add]
  refine congrArg (fun s => Ideal.div s (Ideal.ofBits .f32 0x41800000#32)) (Finset.sum_congr rfl fun c _ => ?_)
  have hi : idx_main_v58 (idx_main_v59 (ix4 b (0 : Fin 1) r w)) c = ix4 b c r w :=
    funext fun a => Fin.ext (by match a with | ⟨0, _⟩ => rfl | ⟨1, _⟩ => rfl | ⟨2, _⟩ => rfl | ⟨3, _⟩ => rfl)
  have h2 : idx_main_v2 (ix4 b c r w) = ix4 b (Cert.Spec.chXy c) r w :=
    funext fun a => Fin.ext (by match a with | ⟨0, _⟩ => rfl | ⟨1, _⟩ => rfl | ⟨2, _⟩ => rfl | ⟨3, _⟩ => rfl)
  have h5 : idx_main_v5 (ix4 b c r w) = ix4 b (Cert.Spec.chXy c) r w :=
    funext fun a => Fin.ext (by match a with | ⟨0, _⟩ => rfl | ⟨1, _⟩ => rfl | ⟨2, _⟩ => rfl | ⟨3, _⟩ => rfl)
  rw [hi, val_main_v57_apply, val_main_v56_apply, val_main_v2_apply, val_main_v5_apply, h2, h5]
  rfl

end Cert.RefSide

end
-- ==== Proof.KValue.lean ====
/-
  The kernel program's results as the specification's functions of the two argument arrays.

  At grid point t the four input blocks are batch t of the arguments: the predictions, the labels, the label's key
  points (column-major) and their validity (row-major) as 0 / 1. When the arguments hold only real numbers, the
  predicted points and the key points are real, and the body leaves in every lane of row j the specification's j-th
  sum of batch t. Summed over the batches from the float zero these are the six totals, from which the lines after
  the region form the loss and its four terms.
-/
import proofs.«134050_j14731737825397_2_alg».proof.Proof.KHostRun
import proofs.«134050_j14731737825397_2_alg».proof.Proof.KHostKeys
import proofs.«134050_j14731737825397_2_alg».proof.Proof.KBodyFinal
import proofs.«134050_j14731737825397_2_alg».proof.Proof.RefElems

noncomputable section

namespace Cert.KSide

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's six sums of batch b of the arguments on core c. -/
def batchPart (c : Dev nD) (b : Fin 8) (j : Fin 6) : EReal :=
  Cert.Spec.part (Cert.Spec.pix (arg0 m c) b) (Cert.Spec.pix (arg1 m c) b) (Cert.Spec.keyPt (arg1 m c) b)
    (Cert.Spec.keyValid (arg1 m c) b) j

/-- The totals of those sums are the specification's totals. -/
theorem total_eq (c : Dev nD) :
    (fun j => Cert.Spec.w0 + ∑ b : Fin 8, batchPart m c b j) = Cert.Spec.total (arg0 m c) (arg1 m c) := rfl

/-- What point t leaves in every lane of row j: the j-th sum of batch t. -/
theorem outs_part (hfin : ∀ c, Cert.RefSide.Finite (arg0 m c) ∧ Cert.RefSide.Finite (arg1 m c))
    (c : Dev nD) (t : Fin cfg0.N) (j : Fin 6) (l : Fin 128) :
    outsAt0 (F := Ideal) m c t (ix2 j l) = batchPart m c (batch t) j := by
  unfold outsAt0 batchPart
  refine (Cert.KBody.out_part c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t)
    (Cert.Spec.keyValid (arg1 m c) (batch t)) ?_ ?_ ?_ j l).trans ?_
  · intro cc n
    obtain ⟨r, hr⟩ := (hfin c).1 (ix4 (batch t) (Cert.Spec.chXy cc) (⟨n.val / 64, by omega⟩ : Fin 64) (⟨n.val % 64, by omega⟩ : Fin 64))
    exact ⟨r, (blk0 m c t (Cert.Spec.chXy cc) n).trans hr⟩
  · intro k cc
    obtain ⟨r, hr⟩ := (hfin c).2 (ix4 (batch t) (Cert.Spec.chXy cc) (⟨k.val % 64, by omega⟩ : Fin 64) (⟨k.val / 64, by omega⟩ : Fin 64))
    exact ⟨r, (blk2 m c t k cc).trans hr⟩
  · intro k
    exact blk3 m c t k
  have e0 : (fun (ch : Fin 23) (n : Fin 4096) => iblk (F := Ideal) m c 0 t (ix3 (0 : Fin 1) ch n)) = Cert.Spec.pix (arg0 m c) (batch t) :=
    funext fun ch => funext fun n => blk0 m c t ch n
  have e1 : (fun (ch : Fin 23) (n : Fin 4096) => iblk (F := Ideal) m c 1 t (ix3 (0 : Fin 1) ch n)) = Cert.Spec.pix (arg1 m c) (batch t) :=
    funext fun ch => funext fun n => blk1 m c t ch n
  have e2 : (fun (k : Fin 4096) (cc : Fin 2) => iblk (F := Ideal) m c 2 t (ix3 (0 : Fin 1) k cc)) = Cert.Spec.keyPt (arg1 m c) (batch t) :=
    funext fun k => funext fun cc => blk2 m c t k cc
  rw [e0, e1, e2]

/-- The kernel program's value: from arguments that hold only real numbers, the five results end at the
    specification's loss and its four terms of the totals, and the arguments end as launched. -/
theorem kernel_value (hfin : ∀ c, Cert.RefSide.Finite (arg0 m c) ∧ Cert.RefSide.Finite (arg1 m c)) :
    θ_run (defs (F := Ideal)) (onTc (τ := τ) (main (F := Ideal))) ⟨m, fun _ => 0, ρ⟩ (fun r => ∀ c : Dev nD,
      r.2.mem ((c.tc : Thread nD τ).loc main_v42) = (fun _ => Cert.Spec.loss (Cert.Spec.total (arg0 m c) (arg1 m c)))
      ∧ r.2.mem ((c.tc : Thread nD τ).loc main_v30) = (fun _ => Cert.Spec.lossCoord (Cert.Spec.total (arg0 m c) (arg1 m c)))
      ∧ r.2.mem ((c.tc : Thread nD τ).loc main_v32) = (fun _ => Cert.Spec.lossObj (Cert.Spec.total (arg0 m c) (arg1 m c)))
      ∧ r.2.mem ((c.tc : Thread nD τ).loc main_v34) = (fun _ => Cert.Spec.lossNoobj (Cert.Spec.total (arg0 m c) (arg1 m c)))
      ∧ r.2.mem ((c.tc : Thread nD τ).loc main_v39) = (fun _ => Cert.Spec.lossCls (Cert.Spec.total (arg0 m c) (arg1 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  kernel_run m ρ (batchPart m) (outs_part m hfin)

end Cert.KSide

end
-- ==== Proof.RefKeys.lean ====
/-
  The key points and their validity, as the reference lays them out.

  The reference transposes the label's point channels to (batch, column, row, coordinate) and flattens the two
  middle axes, so key `k` of a batch is the point at row `k % 64`, column `k / 64`. The validity bit is computed
  in the (batch, row, column) layout and flattened row-major, so bit `k` belongs to row `k / 64`, column `k % 64`:
  it compares the maximum of the two coordinates (a fold from −∞ over the channel axis) with 0.01.
-/
import proofs.«134050_j14731737825397_2_alg».proof.Proof.Gen.ReferenceIdeal.Read
import proofs.«134050_j14731737825397_2_alg».proof.Proof.Spec
import Idealize.ShloMosaic.Lib.ValueIdx
import Idealize.ShloMosaic.PureOps.Reduce

noncomputable section

namespace Cert.RefSide

open Idealize.ShloMosaic Idealize.ShloMosaic.ValueIdx Cert.ReferenceIdeal Cert.ReferenceIdeal.Gen Cert.ReferenceIdeal.Read

/-- Key point `k`, coordinate `c`: through the reshape, the transpose and the channel slice it is the label at
    channel `21 + c`, row `k % 64`, column `k / 64`. -/
theorem keyPt_read (x1 : Cert.Spec.Arr) (b : Fin 8) (k : Fin 4096) (c : Fin 2) :
    Read.val_main_v64 (F := Ideal) x1 (ix3 b k c) = Cert.Spec.keyPt x1 b k c := by
  rw [val_main_v64_apply, val_main_v63_apply, val_main_v5_apply]
  unfold Cert.Spec.keyPt
  refine congrArg x1 (funext fun a => Fin.ext ?_)
  match a with
  | ⟨0, _⟩ => show ((b.val * 4096 + k.val) * 2 + c.val) / 8192 = b.val; omega
  | ⟨1, _⟩ => show 21 + ((b.val * 4096 + k.val) * 2 + c.val) % 2 = 21 + c.val; omega
  | ⟨2, _⟩ => show ((b.val * 4096 + k.val) * 2 + c.val) / 2 % 64 = k.val % 64; omega
  | ⟨3, _⟩ => show ((b.val * 4096 + k.val) * 2 + c.val) / 128 % 64 = k.val / 64; omega

/-- The reduced index (b, r, w) with channel `k` put back on axis 1 is (b, k, r, w). -/
theorem lift_chan (h : S8x2x64x64.Reduces [1] S8x64x64) (b : Fin 8) (r w : Fin 64)
    (k : Fin (S8x2x64x64.size 1)) : h.lift (ix3 b r w) k = ix4 b (⟨k.val, k.isLt⟩ : Fin 2) r w := by
  funext c; apply Fin.ext
  fin_cases c <;> rfl

/-- The larger coordinate of the label's point at (b, r, w): the fold of the maximum from −∞ over the two
    point channels. -/
theorem maxCoord_read (x1 : Cert.Spec.Arr) (b : Fin 8) (r w : Fin 64) :
    Read.val_main_v65 (F := Ideal) x1 (ix3 b r w)
      = (Finset.univ : Finset (Fin 2)).fold max (Ideal.ofBits .f32 0xFF800000#32)
          (fun c => x1 (ix4 b (Cert.Spec.chXy c) r w)) := by
  have hr : S8x2x64x64.Reduces [1] S8x64x64 :=
    ⟨reducesTo_S8x2x64x64_S8x64x64_d1.1, by decide, reducesTo_S8x2x64x64_S8x64x64_d1.2⟩
  unfold val_main_v65
  rw [Host.reduce_eq_fold_single FloatOps.maximumf _ _ reducesTo_S8x2x64x64_S8x64x64_d1 hr h_S_]
  have hf : (val_main_v5 (F := Ideal) x1 ∘ hr.lift (ix3 b r w))
      = fun c : Fin 2 => x1 (ix4 b (Cert.Spec.chXy c) r w) :=
    funext fun c => by
      show val_main_v5 (F := Ideal) x1 (hr.lift (ix3 b r w) c) = _
      rw [lift_chan, val_main_v5_apply]
      exact congrArg x1 (funext fun a => Fin.ext (by
        match a with
        | ⟨0, _⟩ => rfl
        | ⟨1, _⟩ => rfl
        | ⟨2, _⟩ => rfl
        | ⟨3, _⟩ => rfl))
  exact congrArg (fun f => Finset.fold max (Ideal.ofBits .f32 0xFF800000#32) f (Finset.univ : Finset (Fin 2))) hf

/-- Validity bit `k`: through the row-major reshape it is the comparison at row `k / 64`, column `k % 64`. -/
theorem keyValid_read (x1 : Cert.Spec.Arr) (b : Fin 8) (k : Fin 4096) :
    Read.val_main_v68 (F := Ideal) x1 (ix2 b k) = Cert.Spec.keyValid x1 b k := by
  have hidx : idx_main_v68 (ix2 b k)
      = ix3 b (⟨k.val / 64, by omega⟩ : Fin 64) (⟨k.val % 64, by omega⟩ : Fin 64) :=
    funext fun a => Fin.ext (by
      match a with
      | ⟨0, _⟩ => show (b.val * 4096 + k.val) / 4096 = b.val; omega
      | ⟨1, _⟩ => show (b.val * 4096 + k.val) / 64 % 64 = k.val / 64; omega
      | ⟨2, _⟩ => show (b.val * 4096 + k.val) % 64 = k.val % 64; omega)
  rw [val_main_v68_apply, val_main_v67_apply, hidx, maxCoord_read, val_main_v66_apply, val_main_cst_20_apply]
  rfl

end Cert.RefSide

end
-- ==== Proof.RefMask.lean ====
/-
  The ignore mask, as the reference computes it.

  For a pixel (b, r, w) and a key k the reference forms the difference of the pixel's predicted point and the key
  point coordinate by coordinate, sums the squares from the float zero, takes the square root, keeps it where the
  key is valid and puts +∞ elsewhere; the minimum over the 4096 keys (a fold from +∞ over the key axis) is compared
  with ½. The broadcasts in front only repeat the pixel's point along the key axis and the key's point along the
  pixel axes.
-/
import proofs.«134050_j14731737825397_2_alg».proof.Proof.RefKeys

noncomputable section

namespace Cert.RefSide

open Idealize.ShloMosaic Idealize.ShloMosaic.ValueIdx Cert.ReferenceIdeal Cert.ReferenceIdeal.Gen Cert.ReferenceIdeal.Read

/-- The reduced index (b, r, w) with key `k` put back on axis 3 is (b, r, w, k). -/
theorem lift_key (h : S8x64x64x4096.Reduces [3] S8x64x64) (b : Fin 8) (r w : Fin 64)
    (k : Fin (S8x64x64x4096.size 3)) : h.lift (ix3 b r w) k = ix4 b r w (⟨k.val, k.isLt⟩ : Fin 4096) := by
  funext c; apply Fin.ext
  fin_cases c <;> rfl

/-- The distance from the predicted point of pixel (b, r, w) to key `k`. -/
theorem keyDist_read (x0 x1 : Cert.Spec.Arr) (b : Fin 8) (r w : Fin 64) (k : Fin 4096) :
    Read.val_main_v76 (F := Ideal) x0 x1 (ix4 b r w k)
      = Ideal.sqrt (Cert.Spec.w0 + ∑ c : Fin 2,
          (x0 (ix4 b (Cert.Spec.chXy c) r w) - Cert.Spec.keyPt x1 b k c)
            * (x0 (ix4 b (Cert.Spec.chXy c) r w) - Cert.Spec.keyPt x1 b k c)) := by
  rw [val_main_v76_apply, val_main_v75_apply, val_main_cst_21_apply]
  show Ideal.sqrt (Cert.Spec.w0 + _) = _
  refine congrArg (fun s => Ideal.sqrt (Cert.Spec.w0 + s)) (Finset.sum_congr rfl fun c _ => ?_)
  have hp : idx_main_v2 (idx_main_v62 (idx_main_v69 (idx_main_v71 (idx_main_v75 (ix4 b r w k) c))))
      = ix4 b (Cert.Spec.chXy c) r w := funext fun a => Fin.ext (by match a with | ⟨0, _⟩ => rfl | ⟨1, _⟩ => rfl | ⟨2, _⟩ => rfl | ⟨3, _⟩ => rfl)
  have hk : idx_main_v70 (idx_main_v72 (idx_main_v75 (ix4 b r w k) c)) = ix3 b k c := funext fun a => Fin.ext (by match a with | ⟨0, _⟩ => rfl | ⟨1, _⟩ => rfl | ⟨2, _⟩ => rfl)
  rw [val_main_v74_apply, val_main_v73_apply, val_main_v71_apply, val_main_v69_apply, val_main_v62_apply,
    val_main_v2_apply, hp, val_main_v72_apply, val_main_v70_apply, hk, keyPt_read]
  rfl

/-- The distance to the nearest valid key: the fold of the minimum from +∞ over the keys. -/
theorem minDist_read (x0 x1 : Cert.Spec.Arr) (b : Fin 8) (r w : Fin 64) :
    Read.val_main_v79 (F := Ideal) x0 x1 (ix3 b r w)
      = (Finset.univ : Finset (Fin 4096)).fold min Cert.Spec.wInf (fun k =>
          Scalar.select (Cert.Spec.keyValid x1 b k)
            (Ideal.sqrt (Cert.Spec.w0 + ∑ c : Fin 2,
              (x0 (ix4 b (Cert.Spec.chXy c) r w) - Cert.Spec.keyPt x1 b k c)
                * (x0 (ix4 b (Cert.Spec.chXy c) r w) - Cert.Spec.keyPt x1 b k c)))
            Cert.Spec.wInf) := by
  have hr : S8x64x64x4096.Reduces [3] S8x64x64 :=
    ⟨reducesTo_S8x64x64x4096_S8x64x64_d3.1, by decide, reducesTo_S8x64x64x4096_S8x64x64_d3.2⟩
  unfold val_main_v79
  rw [Host.reduce_eq_fold_single FloatOps.minimumf _ _ reducesTo_S8x64x64x4096_S8x64x64_d3 hr h_S_]
  have hf : (val_main_v78 (F := Ideal) x0 x1 ∘ hr.lift (ix3 b r w))
      = fun k : Fin 4096 =>
          Scalar.select (Cert.Spec.keyValid x1 b k)
            (Ideal.sqrt (Cert.Spec.w0 + ∑ c : Fin 2,
              (x0 (ix4 b (Cert.Spec.chXy c) r w) - Cert.Spec.keyPt x1 b k c)
                * (x0 (ix4 b (Cert.Spec.chXy c) r w) - Cert.Spec.keyPt x1 b k c)))
            Cert.Spec.wInf :=
    funext fun k => by
      have hv : idx_main_v77 (idx_main_call0_v1 (ix4 b r w (⟨k.val, k.isLt⟩ : Fin 4096))) = ix2 b (⟨k.val, k.isLt⟩ : Fin 4096) := funext fun a => Fin.ext (by match a with | ⟨0, _⟩ => rfl | ⟨1, _⟩ => rfl)
      rw [Function.comp_apply, lift_key, val_main_v78_apply, val_main_call0_v1_apply, val_main_v77_apply, hv, keyValid_read, keyDist_read,
        val_main_call0_v2_apply, val_main_call0_v0_apply, val_main_cst_22_apply]
      rfl
  exact congrArg (fun f => Finset.fold min Cert.Spec.wInf f (Finset.univ : Finset (Fin 4096))) hf

/-- The ignore mask at (b, 0, r, w): 1 when the nearest valid key is at least ½ away, else 0. -/
theorem ignoreMask_read (x0 x1 : Cert.Spec.Arr) (b : Fin 8) (r w : Fin 64) :
    Read.val_main_v83 (F := Ideal) x0 x1 (ix4 b (0 : Fin 1) r w)
      = (((Ideal.cmp .oge (Read.val_main_v79 (F := Ideal) x0 x1 (ix3 b r w)) (Ideal.ofBits .f32 0x3F000000#32)).toNat : ℝ) : EReal) := by
  have hi : idx_main_v83 (ix4 b (0 : Fin 1) r w) = ix3 b r w := funext fun a => Fin.ext (by match a with | ⟨0, _⟩ => rfl | ⟨1, _⟩ => rfl | ⟨2, _⟩ => rfl)
  rw [val_main_v83_apply, hi, val_main_v82_apply, val_main_v81_apply, val_main_v80_apply, val_main_cst_24_apply]
  rfl

end Cert.RefSide

end
-- ==== Proof.RefSums.lean ====
/-
  Re-indexing a sum over the indices of an 8×C×64×64 array.

  An index (b, c, h, w) corresponds to the batch b, the pixel n = h·64 + w and the channel c; the correspondence
  is a bijection, so a sum over all indices is the sum over the batches, then the pixels, then the channels.
  With one channel the innermost sum is a single term.
-/
import Idealize.ShloMosaic.Lib.ValueIdx

noncomputable section

open scoped BigOperators

namespace Cert.RefSide

open Idealize.ShloMosaic Idealize.ShloMosaic.ValueIdx

/-- The row and the column of pixel `n = h·64 + w`. -/
abbrev row (n : Fin 4096) : Fin 64 := ⟨n.val / 64, by omega⟩
abbrev col (n : Fin 4096) : Fin 64 := ⟨n.val % 64, by omega⟩

/-- (b, c, h, w) ↔ (b, h·64 + w, c). -/
def idxEquiv (C : Nat) : (⟨4, ![8, C, 64, 64]⟩ : Shape).Idx ≃ Fin 8 × Fin 4096 × Fin C where
  toFun j := (j 0, ⟨(j 2).val * 64 + (j 3).val, by
    have h2 : (j 2).val < 64 := (j 2).isLt
    have h3 : (j 3).val < 64 := (j 3).isLt
    omega⟩, j 1)
  invFun p := ix4 p.1 p.2.2 (row p.2.1) (col p.2.1)
  left_inv j := by
    have h2 : (j 2).val < 64 := (j 2).isLt
    have h3 : (j 3).val < 64 := (j 3).isLt
    funext a; apply Fin.ext
    match a with
    | ⟨0, _⟩ => rfl
    | ⟨1, _⟩ => rfl
    | ⟨2, _⟩ => show ((j 2).val * 64 + (j 3).val) / 64 = (j 2).val; omega
    | ⟨3, _⟩ => show ((j 2).val * 64 + (j 3).val) % 64 = (j 3).val; omega
  right_inv p := by
    obtain ⟨b, n, c⟩ := p
    refine Prod.ext rfl (Prod.ext (Fin.ext ?_) rfl)
    show n.val / 64 * 64 + n.val % 64 = n.val
    omega

/-- A sum over the indices of an 8×C×64×64 array is the sum over batch, pixel and channel. -/
theorem sum_idx4 {M : Type*} [AddCommMonoid M] (C : Nat) (f : (⟨4, ![8, C, 64, 64]⟩ : Shape).Idx → M) :
    ∑ j, f j = ∑ b : Fin 8, ∑ n : Fin 4096, ∑ c : Fin C, f (ix4 b c (row n) (col n)) := by
  rw [← (idxEquiv C).symm.sum_comp f, Fintype.sum_prod_type]
  refine Finset.sum_congr rfl fun b _ => ?_
  rw [Fintype.sum_prod_type]
  rfl

/-- With a single channel the channel sum is one term. -/
theorem sum_idx4_one {M : Type*} [AddCommMonoid M] (f : (⟨4, ![8, 1, 64, 64]⟩ : Shape).Idx → M) :
    ∑ j, f j = ∑ b : Fin 8, ∑ n : Fin 4096, f (ix4 b (0 : Fin 1) (row n) (col n)) := by
  rw [sum_idx4 1 f]
  exact Finset.sum_congr rfl fun b _ => Finset.sum_congr rfl fun n _ => Fin.sum_univ_one _

end Cert.RefSide

end
-- ==== Proof.RefTotals.lean ====
/-
  The reference's six totals are the specification's.

  Each total is a sum, from the float zero, over every index of an 8×1×64×64 or 8×20×64×64 array; re-indexed by
  batch, pixel n = h·64 + w and channel it is the sum over the batches of the batch's sum, whose summand at a pixel
  is the stage read at (b, c, n / 64, n % 64). Only the four totals that contain the focal loss need the prediction
  to be real (for the squares written as powers).
-/
import proofs.«134050_j14731737825397_2_alg».proof.Proof.RefElems
import proofs.«134050_j14731737825397_2_alg».proof.Proof.RefMask
import proofs.«134050_j14731737825397_2_alg».proof.Proof.RefSums

noncomputable section

namespace Cert.RefSide

open Idealize.ShloMosaic Idealize.ShloMosaic.ValueIdx Cert.ReferenceIdeal Cert.ReferenceIdeal.Gen Cert.ReferenceIdeal.Read

open Cert.Spec in
/-- The count of positives. -/
theorem ref_total0 (x0 x1 : Cert.Spec.Arr) :
    Read.val_main_v87 (F := Ideal) x1 ix0 = Cert.Spec.total x0 x1 0 := by
  rw [val_main_v87_apply, val_main_cst_26_apply, sum_idx4_one]
  show Cert.Spec.w0 + _ = Cert.Spec.w0 + _
  refine congrArg (fun s => Cert.Spec.w0 + s) (Finset.sum_congr rfl fun b _ => ?_)
  show _ = ∑ n : Fin 4096, Cert.Spec.posInd (Cert.Spec.pix x1 b 0 n)
  refine Finset.sum_congr rfl fun n _ => ?_
  rw [posInd_read, idx_v3_ix]
  rfl

/-- The coordinate loss on objects. -/
theorem ref_total1 (x0 x1 : Cert.Spec.Arr) :
    Read.val_main_v90 (F := Ideal) x0 x1 ix0 = Cert.Spec.total x0 x1 1 := by
  rw [val_main_v90_apply, val_main_cst_28_apply, sum_idx4_one]
  show Cert.Spec.w0 + _ = Cert.Spec.w0 + _
  refine congrArg (fun s => Cert.Spec.w0 + s) (Finset.sum_congr rfl fun b _ => ?_)
  show _ = ∑ n : Fin 4096, Cert.Spec.distLoss (Cert.Spec.pix x0 b) (Cert.Spec.pix x1 b) n * Cert.Spec.pix x1 b 0 n
  refine Finset.sum_congr rfl fun n _ => ?_
  rw [val_main_v89_apply, distLoss_read, val_main_v3_apply, idx_v3_ix]
  rfl

/-- The objectness loss on objects. -/
theorem ref_total2 (x0 x1 : Cert.Spec.Arr) (h0 : Finite x0) :
    Read.val_main_v94 (F := Ideal) x0 x1 ix0 = Cert.Spec.total x0 x1 2 := by
  rw [val_main_v94_apply, val_main_cst_30_apply, sum_idx4_one]
  show Cert.Spec.w0 + _ = Cert.Spec.w0 + _
  refine congrArg (fun s => Cert.Spec.w0 + s) (Finset.sum_congr rfl fun b _ => ?_)
  show _ = ∑ n : Fin 4096,
    Cert.Spec.focal (Cert.Spec.pix x0 b 0 n) (Cert.Spec.pix x1 b 0 n) * Cert.Spec.pix x1 b 0 n
  refine Finset.sum_congr rfl fun n _ => ?_
  rw [val_main_v93_apply, objLoss_read, val_main_v3_apply, idx_v0_ix, idx_v3_ix, focalRef_of_finite h0]
  rfl

/-- The objectness loss off objects, under the ignore mask. -/
theorem ref_total3 (x0 x1 : Cert.Spec.Arr) (h0 : Finite x0) :
    Read.val_main_v101 (F := Ideal) x0 x1 ix0 = Cert.Spec.total x0 x1 3 := by
  rw [val_main_v101_apply, val_main_cst_33_apply, sum_idx4_one]
  show Cert.Spec.w0 + _ = Cert.Spec.w0 + _
  refine congrArg (fun s => Cert.Spec.w0 + s) (Finset.sum_congr rfl fun b _ => ?_)
  show _ = ∑ n : Fin 4096,
    (Cert.Spec.focal (Cert.Spec.pix x0 b 0 n) (Cert.Spec.pix x1 b 0 n) * (Cert.Spec.w1 - Cert.Spec.pix x1 b 0 n))
      * Cert.Spec.ignoreMask (Cert.Spec.pix x0 b) (Cert.Spec.keyPt x1 b) (Cert.Spec.keyValid x1 b) n
  refine Finset.sum_congr rfl fun n _ => ?_
  rw [val_main_v100_apply, val_main_v99_apply, objLoss_read, oneMinus_read, ignoreMask_read, minDist_read,
    idx_v0_ix, idx_v3_ix, focalRef_of_finite h0]
  unfold Cert.Spec.ignoreMask Cert.Spec.minDist Cert.Spec.keyDist
  rfl

/-- The class loss on objects. -/
theorem ref_total4 (x0 x1 : Cert.Spec.Arr) (h0 : Finite x0) :
    Read.val_main_v106 (F := Ideal) x0 x1 ix0 = Cert.Spec.total x0 x1 4 := by
  rw [val_main_v106_apply, val_main_cst_36_apply, sum_idx4 20]
  show Cert.Spec.w0 + _ = Cert.Spec.w0 + _
  refine congrArg (fun s => Cert.Spec.w0 + s) (Finset.sum_congr rfl fun b _ => ?_)
  show _ = ∑ n : Fin 4096, ∑ c : Fin 20,
    Cert.Spec.focal (Cert.Spec.pix x0 b (Cert.Spec.chCls c) n) (Cert.Spec.pix x1 b (Cert.Spec.chCls c) n)
      * Cert.Spec.pix x1 b 0 n
  refine Finset.sum_congr rfl fun n _ => Finset.sum_congr rfl fun c _ => ?_
  rw [val_main_v105_apply, clsLoss_read, val_main_v104_apply, val_main_v3_apply, idx_v1_ix, idx_v4_ix, idx_v104_ix,
    idx_v3_ix, focalRef_of_finite h0]
  rfl

/-- The class loss off objects. -/
theorem ref_total5 (x0 x1 : Cert.Spec.Arr) (h0 : Finite x0) :
    Read.val_main_v112 (F := Ideal) x0 x1 ix0 = Cert.Spec.total x0 x1 5 := by
  rw [val_main_v112_apply, val_main_cst_38_apply, sum_idx4 20]
  show Cert.Spec.w0 + _ = Cert.Spec.w0 + _
  refine congrArg (fun s => Cert.Spec.w0 + s) (Finset.sum_congr rfl fun b _ => ?_)
  show _ = ∑ n : Fin 4096, ∑ c : Fin 20,
    Cert.Spec.focal (Cert.Spec.pix x0 b (Cert.Spec.chCls c) n) (Cert.Spec.pix x1 b (Cert.Spec.chCls c) n)
      * (Cert.Spec.w1 - Cert.Spec.pix x1 b 0 n)
  refine Finset.sum_congr rfl fun n _ => Finset.sum_congr rfl fun c _ => ?_
  rw [val_main_v111_apply, clsLoss_read, val_main_v110_apply, oneMinus_read', idx_v1_ix, idx_v4_ix, idx_v110_ix,
    idx_v3_ix, focalRef_of_finite h0]
  rfl

end Cert.RefSide

end
-- ==== Proof.RefOut.lean ====
/-
  The reference's five results are the specification's functions of the six totals.

  After the six sums the program is six scalar operations per result: the positive count is clamped below by one,
  the three sums on objects are divided by it, the two means are divided by their element counts (32768 and
  655360, the second also halved), each term is scaled by its weight, and the loss is their sum, added left to right.
-/
import proofs.«134050_j14731737825397_2_alg».proof.Proof.RefTotals

noncomputable section

namespace Cert.RefSide

open Idealize.ShloMosaic Idealize.ShloMosaic.ValueIdx Cert.ReferenceIdeal Cert.ReferenceIdeal.Gen Cert.ReferenceIdeal.Read

/-- The coordinate term. -/
theorem ref_out1 (x0 x1 : Cert.Spec.Arr) (h0 : Finite x0) :
    Read.val_main_v92 (F := Ideal) x0 x1 = fun _ => Cert.Spec.lossCoord (Cert.Spec.total x0 x1) := by
  funext i
  have hi := eq_ix0 i
  subst hi
  rw [val_main_v92_apply, val_main_v91_apply, val_main_v88_apply, ref_total1, ref_total0 x0 x1,
    val_main_cst_29_apply, val_main_cst_27_apply]
  rfl

/-- The objectness term on objects. -/
theorem ref_out2 (x0 x1 : Cert.Spec.Arr) (h0 : Finite x0) :
    Read.val_main_v96 (F := Ideal) x0 x1 = fun _ => Cert.Spec.lossObj (Cert.Spec.total x0 x1) := by
  funext i
  have hi := eq_ix0 i
  subst hi
  rw [val_main_v96_apply, val_main_v95_apply, val_main_v88_apply, ref_total2 x0 x1 h0, ref_total0 x0 x1,
    val_main_cst_31_apply, val_main_cst_27_apply]
  rfl

/-- The objectness term off objects. -/
theorem ref_out3 (x0 x1 : Cert.Spec.Arr) (h0 : Finite x0) :
    Read.val_main_v103 (F := Ideal) x0 x1 = fun _ => Cert.Spec.lossNoobj (Cert.Spec.total x0 x1) := by
  funext i
  have hi := eq_ix0 i
  subst hi
  rw [val_main_v103_apply, val_main_v102_apply, ref_total3 x0 x1 h0, val_main_cst_34_apply, val_main_cst_35_apply]
  rfl

/-- The class term. -/
theorem ref_out4 (x0 x1 : Cert.Spec.Arr) (h0 : Finite x0) :
    Read.val_main_v116 (F := Ideal) x0 x1 = fun _ => Cert.Spec.lossCls (Cert.Spec.total x0 x1) := by
  funext i
  have hi := eq_ix0 i
  subst hi
  rw [val_main_v116_apply, val_main_v115_apply, val_main_v107_apply, val_main_v114_apply, val_main_v113_apply,
    val_main_v88_apply, ref_total4 x0 x1 h0, ref_total5 x0 x1 h0, ref_total0 x0 x1,
    val_main_cst_27_apply, val_main_cst_39_apply, val_main_cst_40_apply, val_main_cst_41_apply]
  rfl

/-- The loss: the four terms added left to right. -/
theorem ref_out0 (x0 x1 : Cert.Spec.Arr) (h0 : Finite x0) :
    Read.val_main_v119 (F := Ideal) x0 x1 = fun _ => Cert.Spec.loss (Cert.Spec.total x0 x1) := by
  funext i
  rw [val_main_v119_apply, val_main_v118_apply, val_main_v117_apply, ref_out1 x0 x1 h0, ref_out2 x0 x1 h0,
    ref_out3 x0 x1 h0, ref_out4 x0 x1 h0]
  rfl

end Cert.RefSide

end
-- ==== Proof.PreFinite.lean ====
/-
  Finiteness of the inputs, read off the precondition.

  The precondition says that for each argument array the conjunction over all entries of |x| < +∞ holds. A
  conjunction (a reduction by "and" from 1) that comes out 1 had a 1 at every entry, and an extended real whose
  absolute value max(x, −x) lies strictly below +∞ is neither +∞ nor −∞: it is a real number.
-/
import proofs.«134050_j14731737825397_2_alg».proof.Defs
import proofs.«134050_j14731737825397_2_alg».proof.Proof.Gen.Pre_finite_inputs
import proofs.«134050_j14731737825397_2_alg».proof.Proof.RefElems
import Idealize.ShloMosaic.Lib.ReduceAll

noncomputable section

namespace Cert.RefSide

open Idealize.ShloMosaic Idealize.ShloMosaic.ValueIdx Idealize.SL.Sem

instance : Subsingleton Cert.Pre_finite_inputs.S_.Idx := ⟨fun a b => funext fun d => d.elim0⟩

/-- An extended real whose absolute value is strictly below +∞ is a real. -/
theorem real_of_abs_lt_top (x : EReal)
    (h : Ideal.cmp .olt (max x (-x)) (Ideal.ofBits .f32 0x7F800000#32) = 1#1) : ∃ r : ℝ, x = (r : EReal) := by
  rw [Cert.Bridge.word_top] at h
  induction x using EReal.rec with
  | bot =>
    have e : Ideal.cmp .olt (max (⊥ : EReal) (-⊥)) ⊤ = 0#1 := by
      show BitVec.ofBool (decide (max (⊥ : EReal) (-⊥) < ⊤)) = 0#1
      rw [EReal.neg_bot, max_eq_right bot_le, decide_eq_false (lt_irrefl _)]
      rfl
    rw [e] at h
    exact absurd h (by decide)
  | coe r => exact ⟨r, rfl⟩
  | top =>
    have e : Ideal.cmp .olt (max (⊤ : EReal) (-⊤)) ⊤ = 0#1 := by
      show BitVec.ofBool (decide (max (⊤ : EReal) (-⊤) < ⊤)) = 0#1
      rw [max_eq_left le_top, decide_eq_false (lt_irrefl _)]
      rfl
    rw [e] at h
    exact absurd h (by decide)

/-- If the conjunction over all entries of |x| < +∞ is 1, every entry of `x` is a real. -/
theorem finite_of_all (x : Cert.Spec.Arr)
    (hb : Cert.Pre_finite_inputs.S_.BroadcastsInDim Cert.Pre_finite_inputs.S8x23x64x64
      (![] : Fin 0 → Fin Cert.Pre_finite_inputs.S8x23x64x64.rank))
    (hr : Cert.Pre_finite_inputs.S8x23x64x64.ReducesTo [0, 1, 2, 3] Cert.Pre_finite_inputs.S_)
    (hu : 0 < Cert.Pre_finite_inputs.S_.numel)
    (e : Host.reduce IntOp.andi
        (cmpf .olt (Host.absf (F := Ideal) (φ := .f32) x)
          (broadcastInDim Cert.Pre_finite_inputs.S8x23x64x64 ![] hb
            (constant (F := Ideal) Cert.Pre_finite_inputs.S_ .f32 0x7F800000#32)))
        (constantI Cert.Pre_finite_inputs.S_ 1 1#1) hr hu ix0 = 1#1) : Finite x := by
  intro i
  have hi := Host.reduce_andi_all _ _ hr hu ix0 e i
  exact real_of_abs_lt_top (x i) hi

/-- Under the precondition both argument arrays of the idealized kernel hold only real numbers. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.RefSide.Finite (m ((c.tc : Thread Cert.KernelIdeal.nD Cert.KernelIdeal.τ).loc Cert.KernelIdeal.main_arg0))
      ∧ Cert.RefSide.Finite (m ((c.tc : Thread Cert.KernelIdeal.nD Cert.KernelIdeal.τ).loc Cert.KernelIdeal.main_arg1)) := by
  have h0 := congrFun (h c) ix0
  dsimp only [Cert.Pre_finite_inputs.fn] at h0
  obtain ⟨ha, hb⟩ := IntOp.andi_eq_one.1 h0
  exact ⟨finite_of_all _ _ _ _ ha, finite_of_all _ _ _ _ hb⟩

end Cert.RefSide

end
-- ==== Proof.Claims.lean ====
/-
  The certificate's five claims.

  The three frame claims are the programs' runs with the value parts forgotten. The idealization replaced one
  constant, the finite stand-in for +∞, by +∞ itself, at its two sites. The algebraic claim: under the precondition
  both arguments hold only real numbers; from memories that agree on them, the idealized kernel's five results are
  the specification's loss and its four terms of the six totals of the arguments, and so are the idealized reference's.
-/
import proofs.«134050_j14731737825397_2_alg».proof.Defs
import proofs.«134050_j14731737825397_2_alg».proof.Proof.Gen.Kernel.Frame
import proofs.«134050_j14731737825397_2_alg».proof.Proof.Gen.KernelIdeal.Frame
import proofs.«134050_j14731737825397_2_alg».proof.Proof.Gen.ReferenceIdeal
import proofs.«134050_j14731737825397_2_alg».proof.Proof.Gen.ReferenceIdeal.Run
import proofs.«134050_j14731737825397_2_alg».proof.Proof.Gen.ReferenceIdeal.Read
import proofs.«134050_j14731737825397_2_alg».proof.Proof.Gen.Pre_finite_inputs
import proofs.«134050_j14731737825397_2_alg».proof.Proof.KValue
import proofs.«134050_j14731737825397_2_alg».proof.Proof.RefOut
import proofs.«134050_j14731737825397_2_alg».proof.Proof.PreFinite

noncomputable section

namespace Cert.Proof.Claims

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.2.2.2.1, (h c).2.2.2.2.2.2⟩)
    (Cert.ReferenceIdeal.Value.run (F := Ideal) m ρ)

/-- The two ledger entries: the table gives the named constant the value +∞, and the printed constant is that value. -/
theorem preserves : Cert.preserves_Kernel_KernelIdeal :=
  ⟨IdealRules.named_const.statement Cert.KernelIdeal.κ "pos_big" .f32 0x7149F2CA#32 ⊤ rfl,
   IdealRules.named_const.statement Cert.KernelIdeal.κ "pos_big" .f32 0x7149F2CA#32 ⊤ rfl⟩

/-- Both programs end at the specification's five functions of the totals of the (agreeing, real-valued) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hfin : ∀ c, Cert.RefSide.Finite (Cert.KSide.arg0 m c) ∧ Cert.RefSide.Finite (Cert.KSide.arg1 m c) :=
    fun c => Cert.RefSide.finite_of_pre (hP := Cert.Pre_finite_inputs.Gen.facts) m hpre c
  refine ⟨fun c _ => Cert.Spec.loss (Cert.Spec.total (Cert.KSide.arg0 m c) (Cert.KSide.arg1 m c)),
    fun c _ => Cert.Spec.lossCoord (Cert.Spec.total (Cert.KSide.arg0 m c) (Cert.KSide.arg1 m c)),
    fun c _ => Cert.Spec.lossObj (Cert.Spec.total (Cert.KSide.arg0 m c) (Cert.KSide.arg1 m c)),
    fun c _ => Cert.Spec.lossNoobj (Cert.Spec.total (Cert.KSide.arg0 m c) (Cert.KSide.arg1 m c)),
    fun c _ => Cert.Spec.lossCls (Cert.Spec.total (Cert.KSide.arg0 m c) (Cert.KSide.arg1 m c)),
    Cert.KSide.kernel_value m ρ hfin, ?_⟩
  refine (θ_run Cert.ReferenceIdeal.defs _ _).mono (fun _ h c => ?_) (Cert.ReferenceIdeal.Value.run (F := Ideal) m' ρ')
  obtain ⟨h0, h1, h2, h3, h4, h5, h6⟩ := h c
  refine ⟨h0.trans ?_, h1.trans ?_, h2.trans ?_, h3.trans ?_, h4.trans ?_, h5, h6⟩
  · rw [Cert.ReferenceIdeal.Read.val_main_v119_eq, (hagree c).1, (hagree c).2]
    exact Cert.RefSide.ref_out0 _ _ (hfin c).1
  · refine (Cert.ReferenceIdeal.Read.val_main_v92_eq _ _).trans ?_
    rw [(hagree c).1, (hagree c).2]
    exact Cert.RefSide.ref_out1 _ _ (hfin c).1
  · refine (Cert.ReferenceIdeal.Read.val_main_v96_eq _ _).trans ?_
    rw [(hagree c).1, (hagree c).2]
    exact Cert.RefSide.ref_out2 _ _ (hfin c).1
  · rw [Cert.ReferenceIdeal.Read.val_main_v103_eq, (hagree c).1, (hagree c).2]
    exact Cert.RefSide.ref_out3 _ _ (hfin c).1
  · rw [Cert.ReferenceIdeal.Read.val_main_v116_eq, (hagree c).1, (hagree c).2]
    exact Cert.RefSide.ref_out4 _ _ (hfin c).1

/-- The five claims together, under the generated witnesses of the programs' stated facts. -/
theorem claim_body :
    Cert.frame_Kernel (hKernel := Cert.Kernel.Gen.facts) (hPre_finite_inputs := Cert.Pre_finite_inputs.Gen.facts)
    ∧ Cert.frame_KernelIdeal (hKernelIdeal := Cert.KernelIdeal.Gen.facts) (hPre_finite_inputs := Cert.Pre_finite_inputs.Gen.facts)
    ∧ Cert.frame_ReferenceIdeal (hReferenceIdeal := Cert.ReferenceIdeal.Gen.facts) (hPre_finite_inputs := Cert.Pre_finite_inputs.Gen.facts)
    ∧ Cert.preserves_Kernel_KernelIdeal
    ∧ Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  ⟨frame_k, frame_ki, frame_ri, preserves, algebraic⟩

end Cert.Proof.Claims

end
-- ==== Proof.lean ====
/-
  The certificate of the detection loss kernel against its reference, at the ideal values.

  Both programs compute, from a prediction and a label array (8×23×64×64: batch, channel, row, column), five
  numbers: a loss and its coordinate, object, no-object and class terms. Per batch the kernel forms six sums over the
  4096 pixels — the count of positive targets, the coordinate loss, the focal objectness loss on objects, the same off
  objects under an "ignore" mask, and the focal class loss on and off objects — one per row of its 6×128 output block;
  the host sums the batches and forms the five results. The reference forms the same six sums over the whole arrays.
  `Cert.Spec` (Proof/Spec.lean) states the six sums and the five results once; the kernel side (Proof/K*.lean) and the
  reference side (Proof/Ref*.lean) are each proved equal to it.

  The one place the two arrangements differ in substance is the ignore mask. The reference takes, for every pixel, the
  minimum over the 4096 key points of the distance √((p−t)·(p−t)), with +∞ in place of an invalid key. The kernel
  expands the squared distance as |p|² + |t|² − 2 t·p, the cross term by a matrix product, adds (1 − v)·BIG to the key
  term for the validity v ∈ {0, 1}, takes the minimum of the squares tile by tile (32 tiles of 128 keys) starting from
  BIG, and takes one square root at the end. BIG is the certificate's named constant, +∞ at the ideal values: there
  0·∞ = 0, so a valid key's term is untouched and an invalid key's is +∞; for real coordinates the expansion is the
  square; the square root is monotone, so it commutes with the minimum, and fixes +∞. The other difference is the
  reference's powers (1−p)² and p² with a real exponent two, which are the kernel's products for a real base. Both
  need the inputs finite, which is the precondition.

  The frames of the two kernel programs are the generated frame certificates; the reference's frame is its generated
  run; the idealization's two rewrites are the two uses of the named constant.
-/
import proofs.«134050_j14731737825397_2_alg».proof.Defs
import proofs.«134050_j14731737825397_2_alg».proof.Proof.Gen.Kernel
import proofs.«134050_j14731737825397_2_alg».proof.Proof.Gen.KernelIdeal
import proofs.«134050_j14731737825397_2_alg».proof.Proof.Gen.ReferenceIdeal
import proofs.«134050_j14731737825397_2_alg».proof.Proof.Gen.Pre_finite_inputs
import proofs.«134050_j14731737825397_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.claim_body⟩

end Cert.Proof

end
